-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S4x256x256 : Shape := ⟨3, ![4, 256, 256]⟩
abbrev S4x256 : Shape := ⟨2, ![4, 256]⟩
abbrev S4 : Shape := ⟨1, ![4]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S256 .f32) (main_arg17 : FVec F S256x128 .f32) (main_arg18 : FVec F S128 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg17
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg13 : FVec F S256 .f32) (main_arg14 : FVec F S256 .f32) (main_arg15 : FVec F S256 .f32) (main_arg16 : FVec F S256 .f32) (main_arg17 : FVec F S256x128 .f32) (main_arg18 : FVec F S128 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_v63 main_v67

def fn_part2 {F : FTy → Type} [FloatOps F] (main_arg9 : FVec F S4x256 .f32) (main_arg10 : FVec F S4x256x256 .f32) (main_arg11 : FVec F S4x256 .f32) (main_arg12 : FVec F S4 .f32) (main_arg13 : FVec F S256 .f32) (main_arg14 : FVec F S256 .f32) (main_arg15 : FVec F S256 .f32) (main_arg16 : FVec F S256 .f32) (main_arg17 : FVec F S256x128 .f32) (main_arg18 : FVec F S128 .f32) (main_v33 : IVec S_ 1) : IVec S_ 1 :=
  let main_v34 : FVec F S4x256 .f32 := Host.absf main_arg9
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S4x256x256 .f32 := Host.absf main_arg10
  let main_cst_14 : FVec F S_ .f32 := constant S_ .f32 0x7F800000#32
  let main_v40 : FVec F S4x256x256 .f32 := broadcastInDim S4x256x256 ![] bcast_S_S4x256x256 main_cst_14
  let main_v41 : IVec S4x256x256 1 := cmpf .olt main_v39 main_v40
  let main_c_15 : IVec S_ 1 := constantI S_ 1 1#1
  let main_v42 : IVec S_ 1 := (fun x v => Host.reduce IntOp.andi x v reducesTo_S4x256x256_S_d0_1_2 h_S_) main_v41 main_c_15
  let main_v43 : IVec S_ 1 := andi main_v38 main_v42
  let main_v44 : FVec F S4x256 .f32 := Host.absf main_arg11
  let main_cst_16 : FVec F S_ .f32 := constant S_ .f32 0x7F800000#32
  let main_v45 : FVec F S4x256 .f32 := broadcastInDim S4x256 ![] bcast_S_S4x256 main_cst_16
  let main_v46 : IVec S4x256 1 := cmpf .olt main_v44 main_v45
  let main_c_17 : IVec S_ 1 := constantI S_ 1 1#1
  let main_v47 : IVec S_ 1 := (fun x v => Host.reduce IntOp.andi x v reducesTo_S4x256_S_d0_1 h_S_) main_v46 main_c_17
  let main_v48 : IVec S_ 1 := andi main_v43 main_v47
  let main_v49 : FVec F S4 .f32 := Host.absf main_arg12
  let main_cst_18 : FVec F S_ .f32 := constant S_ .f32 0x7F800000#32
  let main_v50 : FVec F S4 .f32 := broadcastInDim S4 ![] bcast_S_S4 main_cst_18
  fn_part3 (F := F) main_arg13 main_arg14 main_arg15 main_arg16 main_arg17 main_arg18 main_v48 main_v49 main_v50

def fn_part1 {F : FTy → Type} [FloatOps F] (main_arg6 : FVec F S4x256 .f32) (main_arg7 : FVec F S4x256 .f32) (main_arg8 : FVec F S4x256 .f32) (main_arg9 : FVec F S4x256 .f32) (main_arg10 : FVec F S4x256x256 .f32) (main_arg11 : FVec F S4x256 .f32) (main_arg12 : FVec F S4 .f32) (main_arg13 : FVec F S256 .f32) (main_arg14 : FVec F S256 .f32) (main_arg15 : FVec F S256 .f32) (main_arg16 : FVec F S256 .f32) (main_arg17 : FVec F S256x128 .f32) (main_arg18 : FVec F S128 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg7
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x256 .f32) (main_arg1 : IVec S2x800000 32) (main_arg2 : IVec S50000 32) (main_arg3 : FVec F S4x256x256 .f32) (main_arg4 : FVec F S4x256 .f32) (main_arg5 : FVec F S4 .f32) (main_arg6 : FVec F S4x256 .f32) (main_arg7 : FVec F S4x256 .f32) (main_arg8 : FVec F S4x256 .f32) (main_arg9 : FVec F S4x256 .f32) (main_arg10 : FVec F S4x256x256 .f32) (main_arg11 : FVec F S4x256 .f32) (main_arg12 : FVec F S4 .f32) (main_arg13 : FVec F S256 .f32) (main_arg14 : FVec F S256 .f32) (main_arg15 : FVec F S256 .f32) (main_arg16 : FVec F S256 .f32) (main_arg17 : FVec F S256x128 .f32) (main_arg18 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4x256x256 .f32 := Host.absf main_arg3
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x256 .f32 := Host.absf main_arg4
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4 .f32 := Host.absf main_arg5
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S4x256x256 : Shape := ⟨3, ![4, 256, 256]⟩
abbrev S4x256 : Shape := ⟨2, ![4, 256]⟩
abbrev S4 : Shape := ⟨1, ![4]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S1 : Shape := ⟨1, ![1]⟩
abbrev S2000x256 : Shape := ⟨2, ![2000, 256]⟩
abbrev S512x256 : Shape := ⟨2, ![512, 256]⟩
abbrev S50000x1 : Shape := ⟨2, ![50000, 1]⟩
abbrev S1x128 : Shape := ⟨2, ![1, 128]⟩
abbrev S512x128 : Shape := ⟨2, ![512, 128]⟩

abbrev nBuf : Space → Nat
  | .hbm => 205
  | .vmem => 64
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S4x256x256, .f32⟩
  | 4 => ⟨S4x256, .f32⟩
  | 5 => ⟨S4, .f32⟩
  | 6 => ⟨S4x256, .f32⟩
  | 7 => ⟨S4x256, .f32⟩
  | 8 => ⟨S4x256, .f32⟩
  | 9 => ⟨S4x256, .f32⟩
  | 10 => ⟨S4x256x256, .f32⟩
  | 11 => ⟨S4x256, .f32⟩
  | 12 => ⟨S4, .f32⟩
  | 13 => ⟨S256, .f32⟩
  | 14 => ⟨S256, .f32⟩
  | 15 => ⟨S256, .f32⟩
  | 16 => ⟨S256, .f32⟩
  | 17 => ⟨S256x128, .f32⟩
  | 18 => ⟨S128, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x256, .f32⟩
  | 32 => ⟨S_, .f32⟩
  | 33 => ⟨S50000x256, .f32⟩
  | 34 => ⟨S800000x1, .i32⟩
  | 35 => ⟨S50000x256, .f32⟩
  | 36 => ⟨S50000x256, .f32⟩
  | 37 => ⟨S1x256x256, .f32⟩
  | 38 => ⟨S256x256, .f32⟩
  | 39 => ⟨S1x256, .f32⟩
  | 40 => ⟨S256, .f32⟩
  | 41 => ⟨S1, .f32⟩
  | 42 => ⟨S_, .f32⟩
  | 43 => ⟨S1x256, .f32⟩
  | 44 => ⟨S256, .f32⟩
  | 45 => ⟨S1x256, .f32⟩
  | 46 => ⟨S256, .f32⟩
  | 47 => ⟨S1x256, .f32⟩
  | 48 => ⟨S256, .f32⟩
  | 49 => ⟨S1x256, .f32⟩
  | 50 => ⟨S256, .f32⟩
  | 51 => ⟨S1x256x256, .f32⟩
  | 52 => ⟨S256x256, .f32⟩
  | 53 => ⟨S1x256, .f32⟩
  | 54 => ⟨S256, .f32⟩
  | 55 => ⟨S1, .f32⟩
  | 56 => ⟨S_, .f32⟩
  | 57 => ⟨S1x256, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S1x256, .f32⟩
  | 65 => ⟨S50000x256, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x256, .f32⟩
  | 75 => ⟨S_, .f32⟩
  | 76 => ⟨S50000x256, .f32⟩
  | 77 => ⟨S800000x1, .i32⟩
  | 78 => ⟨S50000x256, .f32⟩
  | 79 => ⟨S50000x256, .f32⟩
  | 80 => ⟨S1x256x256, .f32⟩
  | 81 => ⟨S256x256, .f32⟩
  | 82 => ⟨S1x256, .f32⟩
  | 83 => ⟨S256, .f32⟩
  | 84 => ⟨S1, .f32⟩
  | 85 => ⟨S_, .f32⟩
  | 86 => ⟨S1x256, .f32⟩
  | 87 => ⟨S256, .f32⟩
  | 88 => ⟨S1x256, .f32⟩
  | 89 => ⟨S256, .f32⟩
  | 90 => ⟨S1x256, .f32⟩
  | 91 => ⟨S256, .f32⟩
  | 92 => ⟨S1x256, .f32⟩
  | 93 => ⟨S256, .f32⟩
  | 94 => ⟨S1x256x256, .f32⟩
  | 95 => ⟨S256x256, .f32⟩
  | 96 => ⟨S1x256, .f32⟩
  | 97 => ⟨S256, .f32⟩
  | 98 => ⟨S1, .f32⟩
  | 99 => ⟨S_, .f32⟩
  | 100 => ⟨S1x256, .f32⟩
  | 101 => ⟨S1x256, .f32⟩
  | 102 => ⟨S1x256, .f32⟩
  | 103 => ⟨S1x256, .f32⟩
  | 104 => ⟨S1x256, .f32⟩
  | 105 => ⟨S1x256, .f32⟩
  | 106 => ⟨S1x256, .f32⟩
  | 107 => ⟨S1x256, .f32⟩
  | 108 => ⟨S50000x256, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x256, .f32⟩
  | 118 => ⟨S_, .f32⟩
  | 119 => ⟨S50000x256, .f32⟩
  | 120 => ⟨S800000x1, .i32⟩
  | 121 => ⟨S50000x256, .f32⟩
  | 122 => ⟨S50000x256, .f32⟩
  | 123 => ⟨S1x256x256, .f32⟩
  | 124 => ⟨S256x256, .f32⟩
  | 125 => ⟨S1x256, .f32⟩
  | 126 => ⟨S256, .f32⟩
  | 127 => ⟨S1, .f32⟩
  | _ => ⟨S50000x256, .f32⟩

abbrev hbmTy0_1 (i : Nat) : BufTy := match i % 128 with
  | 0 => ⟨S_, .f32⟩
  | 1 => ⟨S1x256, .f32⟩
  | 2 => ⟨S256, .f32⟩
  | 3 => ⟨S1x256, .f32⟩
  | 4 => ⟨S256, .f32⟩
  | 5 => ⟨S1x256, .f32⟩
  | 6 => ⟨S256, .f32⟩
  | 7 => ⟨S1x256, .f32⟩
  | 8 => ⟨S256, .f32⟩
  | 9 => ⟨S1x256x256, .f32⟩
  | 10 => ⟨S256x256, .f32⟩
  | 11 => ⟨S1x256, .f32⟩
  | 12 => ⟨S256, .f32⟩
  | 13 => ⟨S1, .f32⟩
  | 14 => ⟨S_, .f32⟩
  | 15 => ⟨S1x256, .f32⟩
  | 16 => ⟨S1x256, .f32⟩
  | 17 => ⟨S1x256, .f32⟩
  | 18 => ⟨S1x256, .f32⟩
  | 19 => ⟨S1x256, .f32⟩
  | 20 => ⟨S1x256, .f32⟩
  | 21 => ⟨S1x256, .f32⟩
  | 22 => ⟨S1x256, .f32⟩
  | 23 => ⟨S50000x256, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x256, .f32⟩
  | 33 => ⟨S_, .f32⟩
  | 34 => ⟨S50000x256, .f32⟩
  | 35 => ⟨S800000x1, .i32⟩
  | 36 => ⟨S50000x256, .f32⟩
  | 37 => ⟨S50000x256, .f32⟩
  | 38 => ⟨S1x256x256, .f32⟩
  | 39 => ⟨S256x256, .f32⟩
  | 40 => ⟨S1x256, .f32⟩
  | 41 => ⟨S256, .f32⟩
  | 42 => ⟨S1, .f32⟩
  | 43 => ⟨S_, .f32⟩
  | 44 => ⟨S1x256, .f32⟩
  | 45 => ⟨S256, .f32⟩
  | 46 => ⟨S1x256, .f32⟩
  | 47 => ⟨S256, .f32⟩
  | 48 => ⟨S1x256, .f32⟩
  | 49 => ⟨S256, .f32⟩
  | 50 => ⟨S1x256, .f32⟩
  | 51 => ⟨S256, .f32⟩
  | 52 => ⟨S1x256x256, .f32⟩
  | 53 => ⟨S256x256, .f32⟩
  | 54 => ⟨S1x256, .f32⟩
  | 55 => ⟨S256, .f32⟩
  | 56 => ⟨S1, .f32⟩
  | 57 => ⟨S_, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S1x256, .f32⟩
  | 65 => ⟨S1x256, .f32⟩
  | 66 => ⟨S50000x256, .f32⟩
  | 67 => ⟨S_, .f32⟩
  | 68 => ⟨S512x256, .f32⟩
  | 69 => ⟨S50000x1, .i32⟩
  | 70 => ⟨S512x256, .f32⟩
  | 71 => ⟨S1x256, .f32⟩
  | 72 => ⟨S1x256, .f32⟩
  | 73 => ⟨S1x256, .f32⟩
  | 74 => ⟨S1x256, .f32⟩
  | 75 => ⟨S1x128, .f32⟩
  | 76 => ⟨S512x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S256x256, .f32⟩
  | .local _ .vmem, ⟨24, _⟩ => ⟨S1x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S256x256, .f32⟩
  | .local _ .vmem, ⟨38, _⟩ => ⟨S1x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S256x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S256x256, .f32⟩
  | .local _ .vmem, ⟨52, _⟩ => ⟨S1x256, .f32⟩
  | .local _ .vmem, ⟨53, _⟩ => ⟨S1x256, .f32⟩
  | .local _ .vmem, ⟨54, _⟩ => ⟨S2000x256, .f32⟩
  | .local _ .vmem, ⟨55, _⟩ => ⟨S2000x256, .f32⟩
  | .local _ .vmem, ⟨56, _⟩ => ⟨S512x256, .f32⟩
  | .local _ .vmem, ⟨57, _⟩ => ⟨S1x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S256x128, .f32⟩
  | .local _ .vmem, ⟨62, _⟩ => ⟨S1x128, .f32⟩
  | .local _ .vmem, ⟨63, _⟩ => ⟨S512x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_1 : Ref sig .tc := ⟨.hbm, 66, rfl⟩
abbrev main_v44 : Ref sig .tc := ⟨.hbm, 67, rfl⟩
abbrev main_v45 : Ref sig .tc := ⟨.hbm, 68, rfl⟩
abbrev main_c_2 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_3 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_4 : Ref sig .tc := ⟨.hbm, 109, rfl⟩
abbrev main_v84 : Ref sig .tc := ⟨.hbm, 110, rfl⟩
abbrev main_v85 : Ref sig .tc := ⟨.hbm, 111, rfl⟩
abbrev main_c_5 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_6 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_c_7 : Ref sig .tc := ⟨.hbm, 152, rfl⟩
abbrev main_v124 : Ref sig .tc := ⟨.hbm, 153, rfl⟩
abbrev main_v125 : Ref sig .tc := ⟨.hbm, 154, rfl⟩
abbrev main_c_8 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_9 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_cst_10 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg11_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg9_0 : Ref sig .tc := ⟨.vmem, 38, rfl⟩
abbrev cc2_stg10_0 : Ref sig .tc := ⟨.vmem, 39, rfl⟩
abbrev cc2_stg11_0 : Ref sig .tc := ⟨.vmem, 40, rfl⟩
abbrev cc2_stg11_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg10_0 : Ref sig .tc := ⟨.vmem, 53, rfl⟩
abbrev cc3_stg11_0 : Ref sig .tc := ⟨.vmem, 54, rfl⟩
abbrev cc3_stg11_1 : Ref sig .tc := ⟨.vmem, 55, rfl⟩
abbrev cc4_stg0_0 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem11_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem9_0 : DmaSem sig := 38
abbrev cc2_sem10_0 : DmaSem sig := 39
abbrev cc2_sem11_0 : DmaSem sig := 40
abbrev cc2_sem11_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem9_0 : DmaSem sig := 52
abbrev cc3_sem10_0 : DmaSem sig := 53
abbrev cc3_sem11_0 : DmaSem sig := 54
abbrev cc3_sem11_1 : DmaSem sig := 55
abbrev cc4_sem0_0 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem7_0 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x256 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4_S1_0 : S4.Slices ![0] S1
  shapeCasts_S1_S_ : S1.ShapeCasts S_
  shapeCasts_S256_S1x256 : S256.ShapeCasts S1x256
  bcast_S_S1x256 : S_.BroadcastsInDim S1x256 (![] : Fin 0 → Fin S1x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S4x256x256_S1x256x256_1_0_0 : S4x256x256.Slices ![1, 0, 0] S1x256x256
  slices_S4x256_S1x256_1_0 : S4x256.Slices ![1, 0] S1x256
  slices_S4_S1_1 : S4.Slices ![1] S1
  slices_S4x256x256_S1x256x256_2_0_0 : S4x256x256.Slices ![2, 0, 0] S1x256x256
  slices_S4x256_S1x256_2_0 : S4x256.Slices ![2, 0] S1x256
  slices_S4_S1_2 : S4.Slices ![2] S1
  slices_S4x256x256_S1x256x256_3_0_0 : S4x256x256.Slices ![3, 0, 0] S1x256x256
  slices_S4x256_S1x256_3_0 : S4x256.Slices ![3, 0] S1x256
  slices_S4_S1_3 : S4.Slices ![3] S1
  bcast_S_S512x256 : S_.BroadcastsInDim S512x256 (![] : Fin 0 → Fin S512x256.rank)
  bcast_S50000_S50000x1_0 : S50000.BroadcastsInDim S50000x1 (![0] : Fin 1 → Fin S50000x1.rank)
  shapeCasts_S128_S1x128 : S128.ShapeCasts S1x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x256_S512x256 : S1x256.Broadcasts S512x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S512x256_S50000x1_S50000x256_1_0_0_1_wf : ScatterDims.WF S512x256 S50000x1 S50000x256 [1] [0] [0] 1
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S50000x256.size a
  hwx0_11 : ∀ i : grid0.Coords, EltTy.bits .f32 = 32 ∨ (Rect.block (s := S50000x256) S2000x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x256.size a ≤ S50000x256.size a
  hwx1_11 : ∀ i : grid1.Coords, EltTy.bits .f32 = 32 ∨ (Rect.block (s := S50000x256) S2000x256.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .f32 = 32 ∨ (Rect.block (s := S256x256) S256x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x256.size a ≤ S50000x256.size a
  hwx2_11 : ∀ i : grid2.Coords, EltTy.bits .f32 = 32 ∨ (Rect.block (s := S50000x256) S2000x256.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S256x256.size a
  hwx3_8 : ∀ i : grid3.Coords, EltTy.bits .f32 = 32 ∨ (Rect.block (s := S256x256) S256x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x256.size a ≤ S50000x256.size a
  hwx3_11 : ∀ i : grid3.Coords, EltTy.bits .f32 = 32 ∨ (Rect.block (s := S50000x256) S2000x256.size (cc3_transform_11 i) (hinb3_11 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S512x256.size a
  hwx4_0 : ∀ i : grid4.Coords, EltTy.bits .f32 = 32 ∨ (Rect.block (s := S512x256) S512x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .f32 = 32 ∨ (Rect.block (s := S256x128) S256x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S512x128.size a ≤ S512x128.size a
  hwx4_7 : ∀ i : grid4.Coords, EltTy.bits .f32 = 32 ∨ (Rect.block (s := S512x128) S512x128.size (cc4_transform_7 i) (hinb4_7 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v14) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v42) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S2000x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v54) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v75) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v76) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v77) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v79) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v80) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v81) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v82) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v83) S2000x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v94) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v115) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v116) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v118) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v119) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v120) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v110) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v121) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v122) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v123) S2000x256.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v134) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v136) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v155) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v156) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v157) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v158) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v159) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v160) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v150) S256x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v161) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v162) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v163) S2000x256.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v166) S512x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v167) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v168) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v169) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v170) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v171) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v172) S512x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S4x256x256 : Shape := ⟨3, ![4, 256, 256]⟩
abbrev S4x256 : Shape := ⟨2, ![4, 256]⟩
abbrev S4 : Shape := ⟨1, ![4]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S1 : Shape := ⟨1, ![1]⟩
abbrev S512x256 : Shape := ⟨2, ![512, 256]⟩
abbrev S50000x1 : Shape := ⟨2, ![50000, 1]⟩
abbrev S512x128 : Shape := ⟨2, ![512, 128]⟩
abbrev S1x128 : Shape := ⟨2, ![1, 128]⟩

abbrev nBuf : Space → Nat
  | .hbm => 327
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S4x256x256, .f32⟩
  | 4 => ⟨S4x256, .f32⟩
  | 5 => ⟨S4, .f32⟩
  | 6 => ⟨S4x256, .f32⟩
  | 7 => ⟨S4x256, .f32⟩
  | 8 => ⟨S4x256, .f32⟩
  | 9 => ⟨S4x256, .f32⟩
  | 10 => ⟨S4x256x256, .f32⟩
  | 11 => ⟨S4x256, .f32⟩
  | 12 => ⟨S4, .f32⟩
  | 13 => ⟨S256, .f32⟩
  | 14 => ⟨S256, .f32⟩
  | 15 => ⟨S256, .f32⟩
  | 16 => ⟨S256, .f32⟩
  | 17 => ⟨S256x128, .f32⟩
  | 18 => ⟨S128, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x256, .f32⟩
  | 32 => ⟨S_, .f32⟩
  | 33 => ⟨S50000x256, .f32⟩
  | 34 => ⟨S800000x1, .i32⟩
  | 35 => ⟨S50000x256, .f32⟩
  | 36 => ⟨S50000x256, .f32⟩
  | 37 => ⟨S1x256x256, .f32⟩
  | 38 => ⟨S256x256, .f32⟩
  | 39 => ⟨S50000x256, .f32⟩
  | 40 => ⟨S1x256, .f32⟩
  | 41 => ⟨S256, .f32⟩
  | 42 => ⟨S1x256, .f32⟩
  | 43 => ⟨S50000x256, .f32⟩
  | 44 => ⟨S50000x256, .f32⟩
  | 45 => ⟨S1, .f32⟩
  | 46 => ⟨S_, .f32⟩
  | 47 => ⟨S_, .f32⟩
  | 48 => ⟨S50000x256, .f32⟩
  | 49 => ⟨S50000x256, .i1⟩
  | 50 => ⟨S50000x256, .f32⟩
  | 51 => ⟨S50000x256, .f32⟩
  | 52 => ⟨S50000x256, .f32⟩
  | 53 => ⟨S1x256, .f32⟩
  | 54 => ⟨S256, .f32⟩
  | 55 => ⟨S1x256, .f32⟩
  | 56 => ⟨S256, .f32⟩
  | 57 => ⟨S1x256, .f32⟩
  | 58 => ⟨S256, .f32⟩
  | 59 => ⟨S1x256, .f32⟩
  | 60 => ⟨S256, .f32⟩
  | 61 => ⟨S1x256, .f32⟩
  | 62 => ⟨S50000x256, .f32⟩
  | 63 => ⟨S50000x256, .f32⟩
  | 64 => ⟨S_, .f32⟩
  | 65 => ⟨S256, .f32⟩
  | 66 => ⟨S256, .f32⟩
  | 67 => ⟨S256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S1x256x256, .f32⟩
  | 78 => ⟨S256x256, .f32⟩
  | 79 => ⟨S50000x256, .f32⟩
  | 80 => ⟨S1x256, .f32⟩
  | 81 => ⟨S256, .f32⟩
  | 82 => ⟨S1x256, .f32⟩
  | 83 => ⟨S50000x256, .f32⟩
  | 84 => ⟨S50000x256, .f32⟩
  | 85 => ⟨S1, .f32⟩
  | 86 => ⟨S_, .f32⟩
  | 87 => ⟨S_, .f32⟩
  | 88 => ⟨S50000x256, .f32⟩
  | 89 => ⟨S50000x256, .i1⟩
  | 90 => ⟨S50000x256, .f32⟩
  | 91 => ⟨S50000x256, .f32⟩
  | 92 => ⟨S50000x256, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x256, .f32⟩
  | 102 => ⟨S_, .f32⟩
  | 103 => ⟨S50000x256, .f32⟩
  | 104 => ⟨S800000x1, .i32⟩
  | 105 => ⟨S50000x256, .f32⟩
  | 106 => ⟨S50000x256, .f32⟩
  | 107 => ⟨S1x256x256, .f32⟩
  | 108 => ⟨S256x256, .f32⟩
  | 109 => ⟨S50000x256, .f32⟩
  | 110 => ⟨S1x256, .f32⟩
  | 111 => ⟨S256, .f32⟩
  | 112 => ⟨S1x256, .f32⟩
  | 113 => ⟨S50000x256, .f32⟩
  | 114 => ⟨S50000x256, .f32⟩
  | 115 => ⟨S1, .f32⟩
  | 116 => ⟨S_, .f32⟩
  | 117 => ⟨S_, .f32⟩
  | 118 => ⟨S50000x256, .f32⟩
  | 119 => ⟨S50000x256, .i1⟩
  | 120 => ⟨S50000x256, .f32⟩
  | 121 => ⟨S50000x256, .f32⟩
  | 122 => ⟨S50000x256, .f32⟩
  | 123 => ⟨S1x256, .f32⟩
  | 124 => ⟨S256, .f32⟩
  | 125 => ⟨S1x256, .f32⟩
  | 126 => ⟨S256, .f32⟩
  | 127 => ⟨S1x256, .f32⟩
  | _ => ⟨S50000x256, .f32⟩

abbrev hbmTy0_1 (i : Nat) : BufTy := match i % 128 with
  | 0 => ⟨S256, .f32⟩
  | 1 => ⟨S1x256, .f32⟩
  | 2 => ⟨S256, .f32⟩
  | 3 => ⟨S1x256, .f32⟩
  | 4 => ⟨S50000x256, .f32⟩
  | 5 => ⟨S50000x256, .f32⟩
  | 6 => ⟨S_, .f32⟩
  | 7 => ⟨S256, .f32⟩
  | 8 => ⟨S256, .f32⟩
  | 9 => ⟨S256, .f32⟩
  | 10 => ⟨S1x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S1x256x256, .f32⟩
  | 20 => ⟨S256x256, .f32⟩
  | 21 => ⟨S50000x256, .f32⟩
  | 22 => ⟨S1x256, .f32⟩
  | 23 => ⟨S256, .f32⟩
  | 24 => ⟨S1x256, .f32⟩
  | 25 => ⟨S50000x256, .f32⟩
  | 26 => ⟨S50000x256, .f32⟩
  | 27 => ⟨S1, .f32⟩
  | 28 => ⟨S_, .f32⟩
  | 29 => ⟨S_, .f32⟩
  | 30 => ⟨S50000x256, .f32⟩
  | 31 => ⟨S50000x256, .i1⟩
  | 32 => ⟨S50000x256, .f32⟩
  | 33 => ⟨S50000x256, .f32⟩
  | 34 => ⟨S50000x256, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x256, .f32⟩
  | 44 => ⟨S_, .f32⟩
  | 45 => ⟨S50000x256, .f32⟩
  | 46 => ⟨S800000x1, .i32⟩
  | 47 => ⟨S50000x256, .f32⟩
  | 48 => ⟨S50000x256, .f32⟩
  | 49 => ⟨S1x256x256, .f32⟩
  | 50 => ⟨S256x256, .f32⟩
  | 51 => ⟨S50000x256, .f32⟩
  | 52 => ⟨S1x256, .f32⟩
  | 53 => ⟨S256, .f32⟩
  | 54 => ⟨S1x256, .f32⟩
  | 55 => ⟨S50000x256, .f32⟩
  | 56 => ⟨S50000x256, .f32⟩
  | 57 => ⟨S1, .f32⟩
  | 58 => ⟨S_, .f32⟩
  | 59 => ⟨S_, .f32⟩
  | 60 => ⟨S50000x256, .f32⟩
  | 61 => ⟨S50000x256, .i1⟩
  | 62 => ⟨S50000x256, .f32⟩
  | 63 => ⟨S50000x256, .f32⟩
  | 64 => ⟨S50000x256, .f32⟩
  | 65 => ⟨S1x256, .f32⟩
  | 66 => ⟨S256, .f32⟩
  | 67 => ⟨S1x256, .f32⟩
  | 68 => ⟨S256, .f32⟩
  | 69 => ⟨S1x256, .f32⟩
  | 70 => ⟨S256, .f32⟩
  | 71 => ⟨S1x256, .f32⟩
  | 72 => ⟨S256, .f32⟩
  | 73 => ⟨S1x256, .f32⟩
  | 74 => ⟨S50000x256, .f32⟩
  | 75 => ⟨S50000x256, .f32⟩
  | 76 => ⟨S_, .f32⟩
  | 77 => ⟨S256, .f32⟩
  | 78 => ⟨S256, .f32⟩
  | 79 => ⟨S256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S1x256, .f32⟩
  | 87 => ⟨S50000x256, .f32⟩
  | 88 => ⟨S50000x256, .f32⟩
  | 89 => ⟨S1x256x256, .f32⟩
  | 90 => ⟨S256x256, .f32⟩
  | 91 => ⟨S50000x256, .f32⟩
  | 92 => ⟨S1x256, .f32⟩
  | 93 => ⟨S256, .f32⟩
  | 94 => ⟨S1x256, .f32⟩
  | 95 => ⟨S50000x256, .f32⟩
  | 96 => ⟨S50000x256, .f32⟩
  | 97 => ⟨S1, .f32⟩
  | 98 => ⟨S_, .f32⟩
  | 99 => ⟨S_, .f32⟩
  | 100 => ⟨S50000x256, .f32⟩
  | 101 => ⟨S50000x256, .i1⟩
  | 102 => ⟨S50000x256, .f32⟩
  | 103 => ⟨S50000x256, .f32⟩
  | 104 => ⟨S50000x256, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S50000x256, .f32⟩
  | 119 => ⟨S1x256x256, .f32⟩
  | 120 => ⟨S256x256, .f32⟩
  | 121 => ⟨S50000x256, .f32⟩
  | 122 => ⟨S1x256, .f32⟩
  | 123 => ⟨S256, .f32⟩
  | 124 => ⟨S1x256, .f32⟩
  | 125 => ⟨S50000x256, .f32⟩
  | 126 => ⟨S50000x256, .f32⟩
  | 127 => ⟨S1, .f32⟩
  | _ => ⟨S50000x256, .f32⟩

abbrev hbmTy0_2 (i : Nat) : BufTy := match i % 128 with
  | 0 => ⟨S_, .f32⟩
  | 1 => ⟨S_, .f32⟩
  | 2 => ⟨S50000x256, .f32⟩
  | 3 => ⟨S50000x256, .i1⟩
  | 4 => ⟨S50000x256, .f32⟩
  | 5 => ⟨S50000x256, .f32⟩
  | 6 => ⟨S50000x256, .f32⟩
  | 7 => ⟨S1x256, .f32⟩
  | 8 => ⟨S256, .f32⟩
  | 9 => ⟨S1x256, .f32⟩
  | 10 => ⟨S256, .f32⟩
  | 11 => ⟨S1x256, .f32⟩
  | 12 => ⟨S256, .f32⟩
  | 13 => ⟨S1x256, .f32⟩
  | 14 => ⟨S256, .f32⟩
  | 15 => ⟨S1x256, .f32⟩
  | 16 => ⟨S50000x256, .f32⟩
  | 17 => ⟨S50000x256, .f32⟩
  | 18 => ⟨S_, .f32⟩
  | 19 => ⟨S256, .f32⟩
  | 20 => ⟨S256, .f32⟩
  | 21 => ⟨S256, .f32⟩
  | 22 => ⟨S1x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S1x256x256, .f32⟩
  | 32 => ⟨S256x256, .f32⟩
  | 33 => ⟨S50000x256, .f32⟩
  | 34 => ⟨S1x256, .f32⟩
  | 35 => ⟨S256, .f32⟩
  | 36 => ⟨S1x256, .f32⟩
  | 37 => ⟨S50000x256, .f32⟩
  | 38 => ⟨S50000x256, .f32⟩
  | 39 => ⟨S1, .f32⟩
  | 40 => ⟨S_, .f32⟩
  | 41 => ⟨S_, .f32⟩
  | 42 => ⟨S50000x256, .f32⟩
  | 43 => ⟨S50000x256, .i1⟩
  | 44 => ⟨S50000x256, .f32⟩
  | 45 => ⟨S50000x256, .f32⟩
  | 46 => ⟨S50000x256, .f32⟩
  | 47 => ⟨S_, .f32⟩
  | 48 => ⟨S512x256, .f32⟩
  | 49 => ⟨S50000x1, .i32⟩
  | 50 => ⟨S512x256, .f32⟩
  | 51 => ⟨S1x256, .f32⟩
  | 52 => ⟨S512x256, .f32⟩
  | 53 => ⟨S512x256, .f32⟩
  | 54 => ⟨S_, .f32⟩
  | 55 => ⟨S256, .f32⟩
  | 56 => ⟨S256, .f32⟩
  | 57 => ⟨S256, .f32⟩
  | 58 => ⟨S1x256, .f32⟩
  | 59 => ⟨S512x256, .f32⟩
  | 60 => ⟨S512x256, .f32⟩
  | 61 => ⟨S1x256, .f32⟩
  | 62 => ⟨S512x256, .f32⟩
  | 63 => ⟨S512x256, .f32⟩
  | 64 => ⟨S1x256, .f32⟩
  | 65 => ⟨S512x256, .f32⟩
  | 66 => ⟨S512x256, .f32⟩
  | 67 => ⟨S512x128, .f32⟩
  | 68 => ⟨S1x128, .f32⟩
  | 69 => ⟨S512x128, .f32⟩
  | 70 => ⟨S512x128, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_3 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_4 : Ref sig .tc := ⟨.hbm, 93, rfl⟩
abbrev main_v68 : Ref sig .tc := ⟨.hbm, 94, rfl⟩
abbrev main_v69 : Ref sig .tc := ⟨.hbm, 95, rfl⟩
abbrev main_c_5 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_6 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_7 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_8 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_9 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_c_10 : Ref sig .tc := ⟨.hbm, 163, rfl⟩
abbrev main_v132 : Ref sig .tc := ⟨.hbm, 164, rfl⟩
abbrev main_v133 : Ref sig .tc := ⟨.hbm, 165, rfl⟩
abbrev main_c_11 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_12 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_13 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_cst_14 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_cst_15 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_c_16 : Ref sig .tc := ⟨.hbm, 233, rfl⟩
abbrev main_v196 : Ref sig .tc := ⟨.hbm, 234, rfl⟩
abbrev main_v197 : Ref sig .tc := ⟨.hbm, 235, rfl⟩
abbrev main_c_17 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_cst_18 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_cst_19 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_cst_20 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_cst_21 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_cst_22 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_cst_23 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S4_S1_0 : S4.Slices ![0] S1
  shapeCasts_S1_S_ : S1.ShapeCasts S_
  bcast_S_S256 : S_.BroadcastsInDim S256 (![] : Fin 0 → Fin S256.rank)
  slices_S4x256x256_S1x256x256_1_0_0 : S4x256x256.Slices ![1, 0, 0] S1x256x256
  slices_S4x256_S1x256_1_0 : S4x256.Slices ![1, 0] S1x256
  slices_S4_S1_1 : S4.Slices ![1] S1
  slices_S4x256x256_S1x256x256_2_0_0 : S4x256x256.Slices ![2, 0, 0] S1x256x256
  slices_S4x256_S1x256_2_0 : S4x256.Slices ![2, 0] S1x256
  slices_S4_S1_2 : S4.Slices ![2] S1
  slices_S4x256x256_S1x256x256_3_0_0 : S4x256x256.Slices ![3, 0, 0] S1x256x256
  slices_S4x256_S1x256_3_0 : S4x256.Slices ![3, 0] S1x256
  slices_S4_S1_3 : S4.Slices ![3] S1
  bcast_S_S512x256 : S_.BroadcastsInDim S512x256 (![] : Fin 0 → Fin S512x256.rank)
  bcast_S50000_S50000x1_0 : S50000.BroadcastsInDim S50000x1 (![0] : Fin 1 → Fin S50000x1.rank)
  bcast_S1x256_S512x256_0_1 : S1x256.BroadcastsInDim S512x256 (![0, 1] : Fin 2 → Fin S512x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S512x256_S50000x1_S50000x256_1_0_0_1_wf : ScatterDims.WF S512x256 S50000x1 S50000x256 [1] [0] [0] 1
  dot_S512x256_S256x128_S512x128_1_0_0_1_n_n_wf : DotDims.WF S512x256 S256x128 S512x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.RefDefs.lean ====
/-
  The reference program's stages as whole-array functions, in the reference's own host operations.

  One GIN layer of the reference is  h ↦ mlp (h + Σ_{e : src e → dst e} h[src e])  and the read-out is
  head (Σ_{n : batch n = g} h[n]).  The neighbour sum (`aggZ`) and the graph sum (`poolSum`) are a gather and a
  scatter-add; they are spelt once here and never opened: the kernel program performs the very same two operations
  on the host, so they ride through the proof as opaque functions.  The dense part (`refMlp`, `refHead`) takes the
  layer's parameters already cut out of their stacked arrays (`matAt`, `vecAt`, `scalAt`), so that one definition
  serves all four layers.
-/
import proofs.«129231_j12738873000058_1_alg».proof.Proof.Gen.ReferenceIdeal

noncomputable section

namespace Cert.Gin

open Idealize.ShloMosaic Cert.ReferenceIdeal Cert.ReferenceIdeal.Gen

variable {F : FTy → Type} [FloatOps F]

-- the layout operations' side conditions (a slice inside its array, a broadcast's extents, …) are the printed program's
-- stated facts, cited here in their proved form

/-! ## Layout helpers -/

/-- A length-256 vector laid along the rows of a 50000×256 array (every row is the vector). -/
def rows50000 (v : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 v)

/-- A length-256 vector laid along the rows of a 512×256 array. -/
def rows512 (v : (⟨S256, .f32⟩ : BufTy).Contents (Elt F)) : (⟨S512x256, .f32⟩ : BufTy).Contents (Elt F) :=
  broadcastInDim S512x256 ![0, 1] bcast_S1x256_S512x256_0_1 (broadcastInDim S1x256 ![1] bcast_S256_S1x256_1 v)

/-- A scalar filling a 50000×256 array. -/
def fill50000 (a : (⟨S_, .f32⟩ : BufTy).Contents (Elt F)) : (⟨S50000x256, .f32⟩ : BufTy).Contents (Elt F) :=
  broadcastInDim S50000x256 ![] bcast_S_S50000x256 a

/-- The 50000×256 array of zeros. -/
def zeros50000 : (⟨S50000x256, .f32⟩ : BufTy).Contents (Elt F) :=
  broadcastInDim S50000x256 ![] bcast_S_S50000x256 (constant S_ .f32 0x00000000#32)

/-! ## A layer's parameters cut out of the stacked arrays -/

/-- Layer `off 0`'s 256×256 weight matrix out of the stack of four. -/
def matAt (off : Fin S4x256x256.rank → Nat) (hs : S4x256x256.Slices off S1x256x256)
    (W : (⟨S4x256x256, .f32⟩ : BufTy).Contents (Elt F)) : (⟨S256x256, .f32⟩ : BufTy).Contents (Elt F) :=
  shapeCast S256x256 (extractStridedSlice S1x256x256 off W hs) shapeCasts_S1x256x256_S256x256

/-- Layer `off 0`'s length-256 vector out of the stack of four. -/
def vecAt (off : Fin S4x256.rank → Nat) (hs : S4x256.Slices off S1x256)
    (v : (⟨S4x256, .f32⟩ : BufTy).Contents (Elt F)) : (⟨S256, .f32⟩ : BufTy).Contents (Elt F) :=
  shapeCast S256 (extractStridedSlice S1x256 off v hs) shapeCasts_S1x256_S256

/-- Layer `off 0`'s scalar out of the stack of four. -/
def scalAt (off : Fin S4.rank → Nat) (hs : S4.Slices off S1)
    (a : (⟨S4, .f32⟩ : BufTy).Contents (Elt F)) : (⟨S_, .f32⟩ : BufTy).Contents (Elt F) :=
  shapeCast S_ (extractStridedSlice S1 off a hs) shapeCasts_S1_S_

/-! ## The neighbour sum and the graph sum (never opened) -/

/-- The edges' source nodes as a flat vector. -/
def srcRow (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' destination nodes as a flat vector. -/
def dstRow (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The source nodes as the gather's index column, a negative index counted from the end. -/
def srcCol (ei : (⟨S2x800000, .i32⟩ : BufTy).Contents (Elt F)) : (⟨S800000x1, .i32⟩ : BufTy).Contents (Elt F) :=
  broadcastInDim S800000x1 ![0] bcast_S800000_S800000x1_0
    (select (cmpi .slt (srcRow (F := F) ei) (broadcastInDim S800000 ![] bcast_S_S800000 (constantI S_ 32 0#32)))
      (addi (srcRow (F := F) ei) (broadcastInDim S800000 ![] bcast_S_S800000 (constantI S_ 32 50000#32)))
      (srcRow (F := F) ei))

/-- The destination nodes as the scatter's index column. -/
def dstCol (ei : (⟨S2x800000, .i32⟩ : BufTy).Contents (Elt F)) : (⟨S800000x1, .i32⟩ : BufTy).Contents (Elt F) :=
  broadcastInDim S800000x1 ![0] bcast_S800000_S800000x1_0 (dstRow (F := F) ei)

/-- A node's own features plus the sum of its in-neighbours' features. -/
def aggZ (ei : (⟨S2x800000, .i32⟩ : BufTy).Contents (Elt F)) (h : (⟨S50000x256, .f32⟩ : BufTy).Contents (Elt F)) :
    (⟨S50000x256, .f32⟩ : BufTy).Contents (Elt F) :=
  addf h (Host.scatterAdd scatter_S50000x256_S800000x1_S800000x256_1_0_0_1 (zeros50000 (F := F)) (dstCol (F := F) ei)
    (Host.gather gather_S50000x256_S800000x1_S800000x256_1_0_n_n_0_1_1256 h (srcCol (F := F) ei)))

/-- Each graph's sum of its nodes' features. -/
def poolSum (batch : (⟨S50000, .i32⟩ : BufTy).Contents (Elt F)) (h : (⟨S50000x256, .f32⟩ : BufTy).Contents (Elt F)) :
    (⟨S512x256, .f32⟩ : BufTy).Contents (Elt F) :=
  Host.scatterAdd scatter_S512x256_S50000x1_S50000x256_1_0_0_1
    (broadcastInDim S512x256 ![] bcast_S_S512x256 (constant S_ .f32 0x00000000#32))
    (broadcastInDim S50000x1 ![0] bcast_S50000_S50000x1_0 batch) h

/-! ## The dense part -/

/-- A linear layer on every row: `z · w + b`. -/
def refDense (z : (⟨S50000x256, .f32⟩ : BufTy).Contents (Elt F)) (w : (⟨S256x256, .f32⟩ : BufTy).Contents (Elt F))
    (b : (⟨S256, .f32⟩ : BufTy).Contents (Elt F)) : (⟨S50000x256, .f32⟩ : BufTy).Contents (Elt F) :=
  addf (Host.dotGeneral dot_S50000x256_S256x256_S50000x256_1_0_0_1_n_n none z w) (rows50000 (F := F) b)

/-- Parametric ReLU with the scalar slope `a`. -/
def refPrelu (a : (⟨S_, .f32⟩ : BufTy).Contents (Elt F)) (y : (⟨S50000x256, .f32⟩ : BufTy).Contents (Elt F)) :
    (⟨S50000x256, .f32⟩ : BufTy).Contents (Elt F) :=
  select (cmpf .ogt y (zeros50000 (F := F))) y (mulf (fill50000 (F := F) a) y)

/-- Batch normalisation of every row with running statistics. -/
def refBn (y : (⟨S50000x256, .f32⟩ : BufTy).Contents (Elt F)) (g be mu var : (⟨S256, .f32⟩ : BufTy).Contents (Elt F)) :
    (⟨S50000x256, .f32⟩ : BufTy).Contents (Elt F) :=
  addf (mulf (mulf (subf y (rows50000 (F := F) mu))
      (rows50000 (F := F) (Host.rsqrt (addf var (broadcastInDim S256 ![] bcast_S_S256 (constant S_ .f32 0x3727C5AC#32))))))
    (rows50000 (F := F) g)) (rows50000 (F := F) be)

/-- One layer's MLP on every row of `z`. -/
def refMlp (z : (⟨S50000x256, .f32⟩ : BufTy).Contents (Elt F)) (w1 : (⟨S256x256, .f32⟩ : BufTy).Contents (Elt F))
    (b1 : (⟨S256, .f32⟩ : BufTy).Contents (Elt F)) (a1 : (⟨S_, .f32⟩ : BufTy).Contents (Elt F))
    (g be mu var : (⟨S256, .f32⟩ : BufTy).Contents (Elt F)) (w2 : (⟨S256x256, .f32⟩ : BufTy).Contents (Elt F))
    (b2 : (⟨S256, .f32⟩ : BufTy).Contents (Elt F)) (a2 : (⟨S_, .f32⟩ : BufTy).Contents (Elt F)) :
    (⟨S50000x256, .f32⟩ : BufTy).Contents (Elt F) :=
  refPrelu (F := F) a2 (refDense (F := F) (refBn (F := F) (refPrelu (F := F) a1 (refDense (F := F) z w1 b1)) g be mu var) w2 b2)

/-- The read-out on every pooled row: batch normalisation, then a linear layer into 128 columns. -/
def refHead (p : (⟨S512x256, .f32⟩ : BufTy).Contents (Elt F)) (g be mu var : (⟨S256, .f32⟩ : BufTy).Contents (Elt F))
    (w : (⟨S256x128, .f32⟩ : BufTy).Contents (Elt F)) (b : (⟨S128, .f32⟩ : BufTy).Contents (Elt F)) :
    (⟨S512x128, .f32⟩ : BufTy).Contents (Elt F) :=
  addf (Host.dotGeneral dot_S512x256_S256x128_S512x128_1_0_0_1_n_n none
      (addf (mulf (mulf (subf p (rows512 (F := F) mu))
          (rows512 (F := F) (Host.rsqrt (addf var (broadcastInDim S256 ![] bcast_S_S256 (constant S_ .f32 0x3727C5AC#32))))))
        (rows512 (F := F) g)) (rows512 (F := F) be)) w)
    (broadcastInDim S512x128 ![0, 1] bcast_S1x128_S512x128_0_1 (broadcastInDim S1x128 ![1] bcast_S128_S1x128_1 b))

end Cert.Gin

end
-- ==== Proof.RefTotal.lean ====
/-
  The reference program's result as a composition of its stages.

  The reference computes  head (pool (layer₃ (layer₂ (layer₁ (layer₀ x)))))  where  layerᵢ h = mlpᵢ (h + neighbour sum of h)
  with layer i's parameters cut out of the stacked arrays.  The definitions only give names to the parts of that
  composition; nothing is computed.
-/
import proofs.«129231_j12738873000058_1_alg».proof.Proof.RefDefs

noncomputable section

namespace Cert.Gin

open Idealize.ShloMosaic Idealize.ShloMosaic.TcCoe Idealize.SL.Sem Cert.ReferenceIdeal Cert.ReferenceIdeal.Gen

variable {F : FTy → Type} [FloatOps F]

/-- One GIN layer of the reference on the node features `h`: the layer's parameters (at the offsets `o3`, `o2`, `o1`
    into the stacked arrays) and its MLP applied to every node's own features plus its in-neighbours' sum. -/
def refLayer (o3 : Fin S4x256x256.rank → Nat) (h3 : S4x256x256.Slices o3 S1x256x256)
    (o2 : Fin S4x256.rank → Nat) (h2 : S4x256.Slices o2 S1x256) (o1 : Fin S4.rank → Nat) (h1 : S4.Slices o1 S1)
    (ei : (⟨S2x800000, .i32⟩ : BufTy).Contents (Elt F))
    (W1 : (⟨S4x256x256, .f32⟩ : BufTy).Contents (Elt F)) (b1 : (⟨S4x256, .f32⟩ : BufTy).Contents (Elt F))
    (a1 : (⟨S4, .f32⟩ : BufTy).Contents (Elt F)) (g be mu var : (⟨S4x256, .f32⟩ : BufTy).Contents (Elt F))
    (W2 : (⟨S4x256x256, .f32⟩ : BufTy).Contents (Elt F)) (b2 : (⟨S4x256, .f32⟩ : BufTy).Contents (Elt F))
    (a2 : (⟨S4, .f32⟩ : BufTy).Contents (Elt F)) (h : (⟨S50000x256, .f32⟩ : BufTy).Contents (Elt F)) :
    (⟨S50000x256, .f32⟩ : BufTy).Contents (Elt F) :=
  refMlp (F := F) (aggZ (F := F) ei h) (matAt (F := F) o3 h3 W1) (vecAt (F := F) o2 h2 b1) (scalAt (F := F) o1 h1 a1)
    (vecAt (F := F) o2 h2 g) (vecAt (F := F) o2 h2 be) (vecAt (F := F) o2 h2 mu) (vecAt (F := F) o2 h2 var)
    (matAt (F := F) o3 h3 W2) (vecAt (F := F) o2 h2 b2) (scalAt (F := F) o1 h1 a2)

/-- The whole reference: four layers, the graph sum, the read-out. -/
def refTotal (x : (⟨S50000x256, .f32⟩ : BufTy).Contents (Elt F)) (ei : (⟨S2x800000, .i32⟩ : BufTy).Contents (Elt F))
    (batch : (⟨S50000, .i32⟩ : BufTy).Contents (Elt F))
    (W1 : (⟨S4x256x256, .f32⟩ : BufTy).Contents (Elt F)) (b1 : (⟨S4x256, .f32⟩ : BufTy).Contents (Elt F))
    (a1 : (⟨S4, .f32⟩ : BufTy).Contents (Elt F)) (g be mu var : (⟨S4x256, .f32⟩ : BufTy).Contents (Elt F))
    (W2 : (⟨S4x256x256, .f32⟩ : BufTy).Contents (Elt F)) (b2 : (⟨S4x256, .f32⟩ : BufTy).Contents (Elt F))
    (a2 : (⟨S4, .f32⟩ : BufTy).Contents (Elt F)) (fg fbe fmu fvar : (⟨S256, .f32⟩ : BufTy).Contents (Elt F))
    (fcW : (⟨S256x128, .f32⟩ : BufTy).Contents (Elt F)) (fcb : (⟨S128, .f32⟩ : BufTy).Contents (Elt F)) :
    (⟨S512x128, .f32⟩ : BufTy).Contents (Elt F) :=
  refHead (F := F) (poolSum (F := F) batch
    (refLayer (F := F) ![3, 0, 0] slices_S4x256x256_S1x256x256_3_0_0 ![3, 0] slices_S4x256_S1x256_3_0 ![3] slices_S4_S1_3 ei W1 b1 a1 g be mu var W2 b2 a2
      (refLayer (F := F) ![2, 0, 0] slices_S4x256x256_S1x256x256_2_0_0 ![2, 0] slices_S4x256_S1x256_2_0 ![2] slices_S4_S1_2 ei W1 b1 a1 g be mu var W2 b2 a2
        (refLayer (F := F) ![1, 0, 0] slices_S4x256x256_S1x256x256_1_0_0 ![1, 0] slices_S4x256_S1x256_1_0 ![1] slices_S4_S1_1 ei W1 b1 a1 g be mu var W2 b2 a2
          (refLayer (F := F) ![0, 0, 0] slices_S4x256x256_S1x256x256_0_0_0 ![0, 0] slices_S4x256_S1x256_0_0 ![0] slices_S4_S1_0 ei W1 b1 a1 g be mu var W2 b2 a2 x))))) fg fbe fmu fvar fcW fcb

end Cert.Gin

end
-- ==== Proof.LibAfter.lean ====
/-
  Host operations run one list after another are the concatenated list run once; so the contents after a list of host
  operations can be read in two steps, cut at any position.
-/
import Idealize.ShloMosaic.Lib.StableHlo.Run

noncomputable section

namespace Cert.LibAfter

open Idealize.ShloMosaic Idealize.ShloMosaic.StableHlo

theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-- The contents after a list: those after its first k operations, then the rest run from there. -/
theorem after_cut {τ : Topo} {sig : RefSig} {Val : EltTy → Type} (k : ℕ) (l : List (HloOp τ sig Val))
    (V : Valuation τ sig Val) : after l V = after (l.drop k) (after (l.take k) V) := by
  rw [← after_append, List.take_append_drop]

end Cert.LibAfter

end
-- ==== Proof.RefCut0.lean ====
/-
  Layer 0 of the reference read off its operations.

  Run from any contents of the buffers, the first 74 host operations leave at layer 0's output buffer the layer applied
  to the arguments' contents, and at two more buffers the edge list's two rows (the edges' source nodes and their
  destination nodes), which every later layer reads again. A buffer these operations do not write keeps its contents.
-/
import proofs.«129231_j12738873000058_1_alg».proof.Proof.RefOps
import proofs.«129231_j12738873000058_1_alg».proof.Proof.RefTotal

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Gin

variable {F : FTy → Type} [FloatOps F]

/-- The buffers the operations of `ops0` write, in order. -/
abbrev ops0_W : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_cst_1, main_v25, main_v26, main_v27, main_v28, main_v29, main_v30, main_v31, main_v32, main_v33, main_v34, main_v35, main_v36, main_v37, main_v38, main_v39, main_v40, main_cst_2, main_v41, main_v42, main_v43, main_v44, main_v45, main_v46, main_v47, main_v48, main_v49, main_v50, main_v51, main_v52, main_v53, main_v54, main_v55, main_v56, main_v57, main_v58, main_v59, main_v60, main_v61, main_v62, main_cst_3, main_v63, main_v64, main_v65, main_v66, main_v67]

theorem ops0_writes : (ops0 : List (HloOp τ sig (Elt F))).Forall fun op => op.writes ⊆ (ops0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that `ops0` does not write keeps its contents. -/
theorem keep0 (V : Valuation τ sig (Elt F)) {r : Ref sig .tc} (h : r ∉ ops0_W) :
    after ops0 V (Proc.devRef .tc r) = V (Proc.devRef .tc r) :=
  after_of_writes_sub ops0 V ops0_writes h

set_option maxHeartbeats 2000000 in
/-- Layer 0 read at its output buffer, from any entry contents. -/
theorem cut0_out (V : Valuation τ sig (Elt F)) :
    after ops0 V (Proc.devRef .tc main_v67)
      = refLayer (F := F) ![0, 0, 0] slices_S4x256x256_S1x256x256_0_0_0 ![0, 0] slices_S4x256_S1x256_0_0 ![0] slices_S4_S1_0 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg0)) := by
  after_results_simp <;> rfl

set_option maxHeartbeats 2000000 in
/-- The edges' source nodes, written once by layer 0's operations. -/
theorem cut0_src (V : Valuation τ sig (Elt F)) : after ops0 V (Proc.devRef .tc main_v1) = srcRow (F := F) (V (Proc.devRef .tc main_arg1)) := by
  after_results_simp <;> rfl

set_option maxHeartbeats 2000000 in
/-- The edges' destination nodes, written once by layer 0's operations. -/
theorem cut0_dst (V : Valuation τ sig (Elt F)) : after ops0 V (Proc.devRef .tc main_v3) = dstRow (F := F) (V (Proc.devRef .tc main_arg1)) := by
  after_results_simp <;> rfl

end Cert.ReferenceIdeal.ValueP

end
-- ==== Proof.RefCut1.lean ====
/-
  Layer 1 of the reference read off its operations.

  Run from any contents of the buffers, the layer's 70 host operations leave at its output buffer the layer applied to
  what the previous layer's output buffer held, its parameters read from the argument buffers and the edge list's two
  rows from the buffers layer 0 left them in. A buffer these operations do not write keeps its contents.
-/
import proofs.«129231_j12738873000058_1_alg».proof.Proof.RefOps
import proofs.«129231_j12738873000058_1_alg».proof.Proof.RefTotal

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Gin

variable {F : FTy → Type} [FloatOps F]

/-- A node's own features plus the sum of its in-neighbours' features, from the edge list's two rows
    (`src`: the edges' source nodes, `dst`: their destination nodes). -/
def aggRows (src dst : (⟨S800000, .i32⟩ : BufTy).Contents (Elt F)) (h : (⟨S50000x256, .f32⟩ : BufTy).Contents (Elt F)) :
    (⟨S50000x256, .f32⟩ : BufTy).Contents (Elt F) :=
  addf h (Host.scatterAdd scatter_S50000x256_S800000x1_S800000x256_1_0_0_1 (zeros50000 (F := F))
    (broadcastInDim S800000x1 ![0] bcast_S800000_S800000x1_0 dst)
    (Host.gather gather_S50000x256_S800000x1_S800000x256_1_0_n_n_0_1_1256 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))))

/-- The neighbour sum read off the edge list is the one read off its two rows. -/
theorem aggZ_eq_aggRows (ei : (⟨S2x800000, .i32⟩ : BufTy).Contents (Elt F)) (h : (⟨S50000x256, .f32⟩ : BufTy).Contents (Elt F)) :
    aggZ (F := F) ei h = aggRows (F := F) (srcRow (F := F) ei) (dstRow (F := F) ei) h := rfl

/-- One layer of the reference, from the edge list's two rows. -/
def refLayerRows (o3 : Fin S4x256x256.rank → Nat) (h3 : S4x256x256.Slices o3 S1x256x256)
    (o2 : Fin S4x256.rank → Nat) (h2 : S4x256.Slices o2 S1x256) (o1 : Fin S4.rank → Nat) (h1 : S4.Slices o1 S1)
    (src dst : (⟨S800000, .i32⟩ : BufTy).Contents (Elt F))
    (W1 : (⟨S4x256x256, .f32⟩ : BufTy).Contents (Elt F)) (b1 : (⟨S4x256, .f32⟩ : BufTy).Contents (Elt F))
    (a1 : (⟨S4, .f32⟩ : BufTy).Contents (Elt F)) (g be mu var : (⟨S4x256, .f32⟩ : BufTy).Contents (Elt F))
    (W2 : (⟨S4x256x256, .f32⟩ : BufTy).Contents (Elt F)) (b2 : (⟨S4x256, .f32⟩ : BufTy).Contents (Elt F))
    (a2 : (⟨S4, .f32⟩ : BufTy).Contents (Elt F)) (h : (⟨S50000x256, .f32⟩ : BufTy).Contents (Elt F)) :
    (⟨S50000x256, .f32⟩ : BufTy).Contents (Elt F) :=
  refMlp (F := F) (aggRows (F := F) src dst h) (matAt (F := F) o3 h3 W1) (vecAt (F := F) o2 h2 b1) (scalAt (F := F) o1 h1 a1)
    (vecAt (F := F) o2 h2 g) (vecAt (F := F) o2 h2 be) (vecAt (F := F) o2 h2 mu) (vecAt (F := F) o2 h2 var)
    (matAt (F := F) o3 h3 W2) (vecAt (F := F) o2 h2 b2) (scalAt (F := F) o1 h1 a2)

/-- A layer read off the edge list is the layer read off its two rows. -/
theorem refLayer_eq_rows (o3 : Fin S4x256x256.rank → Nat) (h3 : S4x256x256.Slices o3 S1x256x256)
    (o2 : Fin S4x256.rank → Nat) (h2 : S4x256.Slices o2 S1x256) (o1 : Fin S4.rank → Nat) (h1 : S4.Slices o1 S1)
    (ei : (⟨S2x800000, .i32⟩ : BufTy).Contents (Elt F))
    (W1 : (⟨S4x256x256, .f32⟩ : BufTy).Contents (Elt F)) (b1 : (⟨S4x256, .f32⟩ : BufTy).Contents (Elt F))
    (a1 : (⟨S4, .f32⟩ : BufTy).Contents (Elt F)) (g be mu var : (⟨S4x256, .f32⟩ : BufTy).Contents (Elt F))
    (W2 : (⟨S4x256x256, .f32⟩ : BufTy).Contents (Elt F)) (b2 : (⟨S4x256, .f32⟩ : BufTy).Contents (Elt F))
    (a2 : (⟨S4, .f32⟩ : BufTy).Contents (Elt F)) (h : (⟨S50000x256, .f32⟩ : BufTy).Contents (Elt F)) :
    refLayer (F := F) o3 h3 o2 h2 o1 h1 ei W1 b1 a1 g be mu var W2 b2 a2 h
      = refLayerRows (F := F) o3 h3 o2 h2 o1 h1 (srcRow (F := F) ei) (dstRow (F := F) ei) W1 b1 a1 g be mu var W2 b2 a2 h := rfl

/-- The buffers the operations of `ops1` write, in order. -/
abbrev ops1_W : List (Ref sig .tc) :=
  [main_c_4, main_v68, main_v69, main_c_5, main_v70, main_v71, main_v72, main_v73, main_v74, main_cst_6, main_v75, main_v76, main_v77, main_v78, main_v79, main_v80, main_v81, main_v82, main_v83, main_v84, main_v85, main_v86, main_v87, main_v88, main_cst_7, main_v89, main_v90, main_v91, main_v92, main_v93, main_v94, main_v95, main_v96, main_v97, main_v98, main_v99, main_v100, main_v101, main_v102, main_v103, main_v104, main_cst_8, main_v105, main_v106, main_v107, main_v108, main_v109, main_v110, main_v111, main_v112, main_v113, main_v114, main_v115, main_v116, main_v117, main_v118, main_v119, main_v120, main_v121, main_v122, main_v123, main_v124, main_v125, main_v126, main_cst_9, main_v127, main_v128, main_v129, main_v130, main_v131]

theorem ops1_writes : (ops1 : List (HloOp τ sig (Elt F))).Forall fun op => op.writes ⊆ (ops1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that `ops1` does not write keeps its contents. -/
theorem keep1 (V : Valuation τ sig (Elt F)) {r : Ref sig .tc} (h : r ∉ ops1_W) :
    after ops1 V (Proc.devRef .tc r) = V (Proc.devRef .tc r) :=
  after_of_writes_sub ops1 V ops1_writes h

set_option maxHeartbeats 2000000 in
/-- Layer 1 read at its output buffer, from any entry contents: the layer applied to what the previous layer's
    output buffer holds, with the edge list's two rows read from the buffers layer 0 left them in. -/
theorem cut1_out (V : Valuation τ sig (Elt F)) :
    after ops1 V (Proc.devRef .tc main_v131)
      = refLayerRows (F := F) ![1, 0, 0] slices_S4x256x256_S1x256x256_1_0_0 ![1, 0] slices_S4x256_S1x256_1_0 ![1] slices_S4_S1_1 (V (Proc.devRef .tc main_v1)) (V (Proc.devRef .tc main_v3)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_v67)) := by
  after_results_simp <;> rfl

end Cert.ReferenceIdeal.ValueP

end
-- ==== Proof.RefCut2.lean ====
/-
  Layer 2 of the reference read off its operations.

  Run from any contents of the buffers, the layer's 70 host operations leave at its output buffer the layer applied to
  what the previous layer's output buffer held, its parameters read from the argument buffers and the edge list's two
  rows from the buffers layer 0 left them in. A buffer these operations do not write keeps its contents.
-/
import proofs.«129231_j12738873000058_1_alg».proof.Proof.RefOps
import proofs.«129231_j12738873000058_1_alg».proof.Proof.RefTotal
import proofs.«129231_j12738873000058_1_alg».proof.Proof.RefCut1

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Gin

variable {F : FTy → Type} [FloatOps F]

/-- The buffers the operations of `ops2` write, in order. -/
abbrev ops2_W : List (Ref sig .tc) :=
  [main_c_10, main_v132, main_v133, main_c_11, main_v134, main_v135, main_v136, main_v137, main_v138, main_cst_12, main_v139, main_v140, main_v141, main_v142, main_v143, main_v144, main_v145, main_v146, main_v147, main_v148, main_v149, main_v150, main_v151, main_v152, main_cst_13, main_v153, main_v154, main_v155, main_v156, main_v157, main_v158, main_v159, main_v160, main_v161, main_v162, main_v163, main_v164, main_v165, main_v166, main_v167, main_v168, main_cst_14, main_v169, main_v170, main_v171, main_v172, main_v173, main_v174, main_v175, main_v176, main_v177, main_v178, main_v179, main_v180, main_v181, main_v182, main_v183, main_v184, main_v185, main_v186, main_v187, main_v188, main_v189, main_v190, main_cst_15, main_v191, main_v192, main_v193, main_v194, main_v195]

theorem ops2_writes : (ops2 : List (HloOp τ sig (Elt F))).Forall fun op => op.writes ⊆ (ops2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that `ops2` does not write keeps its contents. -/
theorem keep2 (V : Valuation τ sig (Elt F)) {r : Ref sig .tc} (h : r ∉ ops2_W) :
    after ops2 V (Proc.devRef .tc r) = V (Proc.devRef .tc r) :=
  after_of_writes_sub ops2 V ops2_writes h

set_option maxHeartbeats 2000000 in
/-- Layer 2 read at its output buffer, from any entry contents: the layer applied to what the previous layer's
    output buffer holds, with the edge list's two rows read from the buffers layer 0 left them in. -/
theorem cut2_out (V : Valuation τ sig (Elt F)) :
    after ops2 V (Proc.devRef .tc main_v195)
      = refLayerRows (F := F) ![2, 0, 0] slices_S4x256x256_S1x256x256_2_0_0 ![2, 0] slices_S4x256_S1x256_2_0 ![2] slices_S4_S1_2 (V (Proc.devRef .tc main_v1)) (V (Proc.devRef .tc main_v3)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_v131)) := by
  after_results_simp <;> rfl

end Cert.ReferenceIdeal.ValueP

end
-- ==== Proof.RefCut3.lean ====
/-
  Layer 3 of the reference read off its operations.

  Run from any contents of the buffers, the layer's 70 host operations leave at its output buffer the layer applied to
  what the previous layer's output buffer held, its parameters read from the argument buffers and the edge list's two
  rows from the buffers layer 0 left them in. A buffer these operations do not write keeps its contents.
-/
import proofs.«129231_j12738873000058_1_alg».proof.Proof.RefOps
import proofs.«129231_j12738873000058_1_alg».proof.Proof.RefTotal
import proofs.«129231_j12738873000058_1_alg».proof.Proof.RefCut1

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Gin

variable {F : FTy → Type} [FloatOps F]

/-- The buffers the operations of `ops3` write, in order. -/
abbrev ops3_W : List (Ref sig .tc) :=
  [main_c_16, main_v196, main_v197, main_c_17, main_v198, main_v199, main_v200, main_v201, main_v202, main_cst_18, main_v203, main_v204, main_v205, main_v206, main_v207, main_v208, main_v209, main_v210, main_v211, main_v212, main_v213, main_v214, main_v215, main_v216, main_cst_19, main_v217, main_v218, main_v219, main_v220, main_v221, main_v222, main_v223, main_v224, main_v225, main_v226, main_v227, main_v228, main_v229, main_v230, main_v231, main_v232, main_cst_20, main_v233, main_v234, main_v235, main_v236, main_v237, main_v238, main_v239, main_v240, main_v241, main_v242, main_v243, main_v244, main_v245, main_v246, main_v247, main_v248, main_v249, main_v250, main_v251, main_v252, main_v253, main_v254, main_cst_21, main_v255, main_v256, main_v257, main_v258, main_v259]

theorem ops3_writes : (ops3 : List (HloOp τ sig (Elt F))).Forall fun op => op.writes ⊆ (ops3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that `ops3` does not write keeps its contents. -/
theorem keep3 (V : Valuation τ sig (Elt F)) {r : Ref sig .tc} (h : r ∉ ops3_W) :
    after ops3 V (Proc.devRef .tc r) = V (Proc.devRef .tc r) :=
  after_of_writes_sub ops3 V ops3_writes h

set_option maxHeartbeats 2000000 in
/-- Layer 3 read at its output buffer, from any entry contents: the layer applied to what the previous layer's
    output buffer holds, with the edge list's two rows read from the buffers layer 0 left them in. -/
theorem cut3_out (V : Valuation τ sig (Elt F)) :
    after ops3 V (Proc.devRef .tc main_v259)
      = refLayerRows (F := F) ![3, 0, 0] slices_S4x256x256_S1x256x256_3_0_0 ![3, 0] slices_S4x256_S1x256_3_0 ![3] slices_S4_S1_3 (V (Proc.devRef .tc main_v1)) (V (Proc.devRef .tc main_v3)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_v195)) := by
  after_results_simp <;> rfl

end Cert.ReferenceIdeal.ValueP

end
-- ==== Proof.RefCut4.lean ====
/-
  The graph sum and the read-out of the reference read off their operations.

  Run from any contents of the buffers, the last 24 host operations leave at the result buffer the read-out of the
  graph sum of what layer 3's output buffer held. A buffer these operations do not write keeps its contents.
-/
import proofs.«129231_j12738873000058_1_alg».proof.Proof.RefOps
import proofs.«129231_j12738873000058_1_alg».proof.Proof.RefTotal

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Gin

variable {F : FTy → Type} [FloatOps F]

/-- The buffers the operations of `ops4` write, in order. -/
abbrev ops4_W : List (Ref sig .tc) :=
  [main_cst_22, main_v260, main_v261, main_v262, main_v263, main_v264, main_v265, main_cst_23, main_v266, main_v267, main_v268, main_v269, main_v270, main_v271, main_v272, main_v273, main_v274, main_v275, main_v276, main_v277, main_v278, main_v279, main_v280, main_v281]

theorem ops4_writes : (ops4 : List (HloOp τ sig (Elt F))).Forall fun op => op.writes ⊆ (ops4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that `ops4` does not write keeps its contents. -/
theorem keep4 (V : Valuation τ sig (Elt F)) {r : Ref sig .tc} (h : r ∉ ops4_W) :
    after ops4 V (Proc.devRef .tc r) = V (Proc.devRef .tc r) :=
  after_of_writes_sub ops4 V ops4_writes h

set_option maxHeartbeats 2000000 in
/-- The graph sum and the read-out read at the result buffer, from any entry contents. -/
theorem cut4_out (V : Valuation τ sig (Elt F)) :
    after ops4 V (Proc.devRef .tc main_v281)
      = refHead (F := F) (poolSum (F := F) (V (Proc.devRef .tc main_arg2)) (V (Proc.devRef .tc main_v259))) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  after_results_simp <;> rfl

end Cert.ReferenceIdeal.ValueP

end
-- ==== Proof.RefTotalOut.lean ====
/-
  The reference's result read off its 308 operations, layer by layer.

  The operations are five lists run one after the other. Each list has been read from arbitrary entry contents; here
  the readings are chained: what the operations of layers 0 … k−1 leave is what layer k's operations find, so the
  result buffer ends at the composition of the four layers, the graph sum and the read-out applied to the arguments,
  and a buffer no operation writes ends as it started.
-/
import proofs.«129231_j12738873000058_1_alg».proof.Proof.RefOps
import proofs.«129231_j12738873000058_1_alg».proof.Proof.RefTotal
import proofs.«129231_j12738873000058_1_alg».proof.Proof.LibAfter
import proofs.«129231_j12738873000058_1_alg».proof.Proof.RefCut0
import proofs.«129231_j12738873000058_1_alg».proof.Proof.RefCut1
import proofs.«129231_j12738873000058_1_alg».proof.Proof.RefCut2
import proofs.«129231_j12738873000058_1_alg».proof.Proof.RefCut3
import proofs.«129231_j12738873000058_1_alg».proof.Proof.RefCut4

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Gin Cert.LibAfter

variable {F : FTy → Type} [FloatOps F]

/-! ## What each layer's operations find on entry

Run from any contents `V`, the operations of layers 0 … k−1 leave every argument as it was, the edge list's two rows
where layer 0 wrote them, and layer k−1's output at its buffer. -/
theorem entry1_arg2 (V : Valuation τ sig (Elt F)) : (after ops0 V) (Proc.devRef .tc main_arg2) = V (Proc.devRef .tc main_arg2) :=
  keep0 V (r := main_arg2) (by decide)
theorem entry1_arg3 (V : Valuation τ sig (Elt F)) : (after ops0 V) (Proc.devRef .tc main_arg3) = V (Proc.devRef .tc main_arg3) :=
  keep0 V (r := main_arg3) (by decide)
theorem entry1_arg4 (V : Valuation τ sig (Elt F)) : (after ops0 V) (Proc.devRef .tc main_arg4) = V (Proc.devRef .tc main_arg4) :=
  keep0 V (r := main_arg4) (by decide)
theorem entry1_arg5 (V : Valuation τ sig (Elt F)) : (after ops0 V) (Proc.devRef .tc main_arg5) = V (Proc.devRef .tc main_arg5) :=
  keep0 V (r := main_arg5) (by decide)
theorem entry1_arg6 (V : Valuation τ sig (Elt F)) : (after ops0 V) (Proc.devRef .tc main_arg6) = V (Proc.devRef .tc main_arg6) :=
  keep0 V (r := main_arg6) (by decide)
theorem entry1_arg7 (V : Valuation τ sig (Elt F)) : (after ops0 V) (Proc.devRef .tc main_arg7) = V (Proc.devRef .tc main_arg7) :=
  keep0 V (r := main_arg7) (by decide)
theorem entry1_arg8 (V : Valuation τ sig (Elt F)) : (after ops0 V) (Proc.devRef .tc main_arg8) = V (Proc.devRef .tc main_arg8) :=
  keep0 V (r := main_arg8) (by decide)
theorem entry1_arg9 (V : Valuation τ sig (Elt F)) : (after ops0 V) (Proc.devRef .tc main_arg9) = V (Proc.devRef .tc main_arg9) :=
  keep0 V (r := main_arg9) (by decide)
theorem entry1_arg10 (V : Valuation τ sig (Elt F)) : (after ops0 V) (Proc.devRef .tc main_arg10) = V (Proc.devRef .tc main_arg10) :=
  keep0 V (r := main_arg10) (by decide)
theorem entry1_arg11 (V : Valuation τ sig (Elt F)) : (after ops0 V) (Proc.devRef .tc main_arg11) = V (Proc.devRef .tc main_arg11) :=
  keep0 V (r := main_arg11) (by decide)
theorem entry1_arg12 (V : Valuation τ sig (Elt F)) : (after ops0 V) (Proc.devRef .tc main_arg12) = V (Proc.devRef .tc main_arg12) :=
  keep0 V (r := main_arg12) (by decide)
theorem entry1_arg13 (V : Valuation τ sig (Elt F)) : (after ops0 V) (Proc.devRef .tc main_arg13) = V (Proc.devRef .tc main_arg13) :=
  keep0 V (r := main_arg13) (by decide)
theorem entry1_arg14 (V : Valuation τ sig (Elt F)) : (after ops0 V) (Proc.devRef .tc main_arg14) = V (Proc.devRef .tc main_arg14) :=
  keep0 V (r := main_arg14) (by decide)
theorem entry1_arg15 (V : Valuation τ sig (Elt F)) : (after ops0 V) (Proc.devRef .tc main_arg15) = V (Proc.devRef .tc main_arg15) :=
  keep0 V (r := main_arg15) (by decide)
theorem entry1_arg16 (V : Valuation τ sig (Elt F)) : (after ops0 V) (Proc.devRef .tc main_arg16) = V (Proc.devRef .tc main_arg16) :=
  keep0 V (r := main_arg16) (by decide)
theorem entry1_arg17 (V : Valuation τ sig (Elt F)) : (after ops0 V) (Proc.devRef .tc main_arg17) = V (Proc.devRef .tc main_arg17) :=
  keep0 V (r := main_arg17) (by decide)
theorem entry1_arg18 (V : Valuation τ sig (Elt F)) : (after ops0 V) (Proc.devRef .tc main_arg18) = V (Proc.devRef .tc main_arg18) :=
  keep0 V (r := main_arg18) (by decide)
theorem entry1_src (V : Valuation τ sig (Elt F)) : (after ops0 V) (Proc.devRef .tc main_v1) = srcRow (F := F) (V (Proc.devRef .tc main_arg1)) :=
  cut0_src V
theorem entry1_dst (V : Valuation τ sig (Elt F)) : (after ops0 V) (Proc.devRef .tc main_v3) = dstRow (F := F) (V (Proc.devRef .tc main_arg1)) :=
  cut0_dst V
theorem entry1_out (V : Valuation τ sig (Elt F)) :
    (after ops0 V) (Proc.devRef .tc main_v67)
      = refLayer (F := F) ![0, 0, 0] slices_S4x256x256_S1x256x256_0_0_0 ![0, 0] slices_S4x256_S1x256_0_0 ![0] slices_S4_S1_0 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg0)) :=
  cut0_out V

theorem entry2_arg2 (V : Valuation τ sig (Elt F)) : (after ops1 (after ops0 V)) (Proc.devRef .tc main_arg2) = V (Proc.devRef .tc main_arg2) :=
  (keep1 (after ops0 V) (r := main_arg2) (by decide)).trans (entry1_arg2 V)
theorem entry2_arg3 (V : Valuation τ sig (Elt F)) : (after ops1 (after ops0 V)) (Proc.devRef .tc main_arg3) = V (Proc.devRef .tc main_arg3) :=
  (keep1 (after ops0 V) (r := main_arg3) (by decide)).trans (entry1_arg3 V)
theorem entry2_arg4 (V : Valuation τ sig (Elt F)) : (after ops1 (after ops0 V)) (Proc.devRef .tc main_arg4) = V (Proc.devRef .tc main_arg4) :=
  (keep1 (after ops0 V) (r := main_arg4) (by decide)).trans (entry1_arg4 V)
theorem entry2_arg5 (V : Valuation τ sig (Elt F)) : (after ops1 (after ops0 V)) (Proc.devRef .tc main_arg5) = V (Proc.devRef .tc main_arg5) :=
  (keep1 (after ops0 V) (r := main_arg5) (by decide)).trans (entry1_arg5 V)
theorem entry2_arg6 (V : Valuation τ sig (Elt F)) : (after ops1 (after ops0 V)) (Proc.devRef .tc main_arg6) = V (Proc.devRef .tc main_arg6) :=
  (keep1 (after ops0 V) (r := main_arg6) (by decide)).trans (entry1_arg6 V)
theorem entry2_arg7 (V : Valuation τ sig (Elt F)) : (after ops1 (after ops0 V)) (Proc.devRef .tc main_arg7) = V (Proc.devRef .tc main_arg7) :=
  (keep1 (after ops0 V) (r := main_arg7) (by decide)).trans (entry1_arg7 V)
theorem entry2_arg8 (V : Valuation τ sig (Elt F)) : (after ops1 (after ops0 V)) (Proc.devRef .tc main_arg8) = V (Proc.devRef .tc main_arg8) :=
  (keep1 (after ops0 V) (r := main_arg8) (by decide)).trans (entry1_arg8 V)
theorem entry2_arg9 (V : Valuation τ sig (Elt F)) : (after ops1 (after ops0 V)) (Proc.devRef .tc main_arg9) = V (Proc.devRef .tc main_arg9) :=
  (keep1 (after ops0 V) (r := main_arg9) (by decide)).trans (entry1_arg9 V)
theorem entry2_arg10 (V : Valuation τ sig (Elt F)) : (after ops1 (after ops0 V)) (Proc.devRef .tc main_arg10) = V (Proc.devRef .tc main_arg10) :=
  (keep1 (after ops0 V) (r := main_arg10) (by decide)).trans (entry1_arg10 V)
theorem entry2_arg11 (V : Valuation τ sig (Elt F)) : (after ops1 (after ops0 V)) (Proc.devRef .tc main_arg11) = V (Proc.devRef .tc main_arg11) :=
  (keep1 (after ops0 V) (r := main_arg11) (by decide)).trans (entry1_arg11 V)
theorem entry2_arg12 (V : Valuation τ sig (Elt F)) : (after ops1 (after ops0 V)) (Proc.devRef .tc main_arg12) = V (Proc.devRef .tc main_arg12) :=
  (keep1 (after ops0 V) (r := main_arg12) (by decide)).trans (entry1_arg12 V)
theorem entry2_arg13 (V : Valuation τ sig (Elt F)) : (after ops1 (after ops0 V)) (Proc.devRef .tc main_arg13) = V (Proc.devRef .tc main_arg13) :=
  (keep1 (after ops0 V) (r := main_arg13) (by decide)).trans (entry1_arg13 V)
theorem entry2_arg14 (V : Valuation τ sig (Elt F)) : (after ops1 (after ops0 V)) (Proc.devRef .tc main_arg14) = V (Proc.devRef .tc main_arg14) :=
  (keep1 (after ops0 V) (r := main_arg14) (by decide)).trans (entry1_arg14 V)
theorem entry2_arg15 (V : Valuation τ sig (Elt F)) : (after ops1 (after ops0 V)) (Proc.devRef .tc main_arg15) = V (Proc.devRef .tc main_arg15) :=
  (keep1 (after ops0 V) (r := main_arg15) (by decide)).trans (entry1_arg15 V)
theorem entry2_arg16 (V : Valuation τ sig (Elt F)) : (after ops1 (after ops0 V)) (Proc.devRef .tc main_arg16) = V (Proc.devRef .tc main_arg16) :=
  (keep1 (after ops0 V) (r := main_arg16) (by decide)).trans (entry1_arg16 V)
theorem entry2_arg17 (V : Valuation τ sig (Elt F)) : (after ops1 (after ops0 V)) (Proc.devRef .tc main_arg17) = V (Proc.devRef .tc main_arg17) :=
  (keep1 (after ops0 V) (r := main_arg17) (by decide)).trans (entry1_arg17 V)
theorem entry2_arg18 (V : Valuation τ sig (Elt F)) : (after ops1 (after ops0 V)) (Proc.devRef .tc main_arg18) = V (Proc.devRef .tc main_arg18) :=
  (keep1 (after ops0 V) (r := main_arg18) (by decide)).trans (entry1_arg18 V)
theorem entry2_src (V : Valuation τ sig (Elt F)) : (after ops1 (after ops0 V)) (Proc.devRef .tc main_v1) = srcRow (F := F) (V (Proc.devRef .tc main_arg1)) :=
  (keep1 (after ops0 V) (r := main_v1) (by decide)).trans (entry1_src V)
theorem entry2_dst (V : Valuation τ sig (Elt F)) : (after ops1 (after ops0 V)) (Proc.devRef .tc main_v3) = dstRow (F := F) (V (Proc.devRef .tc main_arg1)) :=
  (keep1 (after ops0 V) (r := main_v3) (by decide)).trans (entry1_dst V)
theorem entry2_out (V : Valuation τ sig (Elt F)) :
    (after ops1 (after ops0 V)) (Proc.devRef .tc main_v131)
      = refLayer (F := F) ![1, 0, 0] slices_S4x256x256_S1x256x256_1_0_0 ![1, 0] slices_S4x256_S1x256_1_0 ![1] slices_S4_S1_1 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (refLayer (F := F) ![0, 0, 0] slices_S4x256x256_S1x256x256_0_0_0 ![0, 0] slices_S4x256_S1x256_0_0 ![0] slices_S4_S1_0 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg0))) :=
  (cut1_out (after ops0 V)).trans (by
    rw [entry1_src V, entry1_dst V, entry1_arg3 V, entry1_arg4 V, entry1_arg5 V, entry1_arg6 V, entry1_arg7 V, entry1_arg8 V, entry1_arg9 V, entry1_arg10 V, entry1_arg11 V, entry1_arg12 V, entry1_out V]
    exact (refLayer_eq_rows ..).symm)

theorem entry3_arg2 (V : Valuation τ sig (Elt F)) : (after ops2 (after ops1 (after ops0 V))) (Proc.devRef .tc main_arg2) = V (Proc.devRef .tc main_arg2) :=
  (keep2 (after ops1 (after ops0 V)) (r := main_arg2) (by decide)).trans (entry2_arg2 V)
theorem entry3_arg3 (V : Valuation τ sig (Elt F)) : (after ops2 (after ops1 (after ops0 V))) (Proc.devRef .tc main_arg3) = V (Proc.devRef .tc main_arg3) :=
  (keep2 (after ops1 (after ops0 V)) (r := main_arg3) (by decide)).trans (entry2_arg3 V)
theorem entry3_arg4 (V : Valuation τ sig (Elt F)) : (after ops2 (after ops1 (after ops0 V))) (Proc.devRef .tc main_arg4) = V (Proc.devRef .tc main_arg4) :=
  (keep2 (after ops1 (after ops0 V)) (r := main_arg4) (by decide)).trans (entry2_arg4 V)
theorem entry3_arg5 (V : Valuation τ sig (Elt F)) : (after ops2 (after ops1 (after ops0 V))) (Proc.devRef .tc main_arg5) = V (Proc.devRef .tc main_arg5) :=
  (keep2 (after ops1 (after ops0 V)) (r := main_arg5) (by decide)).trans (entry2_arg5 V)
theorem entry3_arg6 (V : Valuation τ sig (Elt F)) : (after ops2 (after ops1 (after ops0 V))) (Proc.devRef .tc main_arg6) = V (Proc.devRef .tc main_arg6) :=
  (keep2 (after ops1 (after ops0 V)) (r := main_arg6) (by decide)).trans (entry2_arg6 V)
theorem entry3_arg7 (V : Valuation τ sig (Elt F)) : (after ops2 (after ops1 (after ops0 V))) (Proc.devRef .tc main_arg7) = V (Proc.devRef .tc main_arg7) :=
  (keep2 (after ops1 (after ops0 V)) (r := main_arg7) (by decide)).trans (entry2_arg7 V)
theorem entry3_arg8 (V : Valuation τ sig (Elt F)) : (after ops2 (after ops1 (after ops0 V))) (Proc.devRef .tc main_arg8) = V (Proc.devRef .tc main_arg8) :=
  (keep2 (after ops1 (after ops0 V)) (r := main_arg8) (by decide)).trans (entry2_arg8 V)
theorem entry3_arg9 (V : Valuation τ sig (Elt F)) : (after ops2 (after ops1 (after ops0 V))) (Proc.devRef .tc main_arg9) = V (Proc.devRef .tc main_arg9) :=
  (keep2 (after ops1 (after ops0 V)) (r := main_arg9) (by decide)).trans (entry2_arg9 V)
theorem entry3_arg10 (V : Valuation τ sig (Elt F)) : (after ops2 (after ops1 (after ops0 V))) (Proc.devRef .tc main_arg10) = V (Proc.devRef .tc main_arg10) :=
  (keep2 (after ops1 (after ops0 V)) (r := main_arg10) (by decide)).trans (entry2_arg10 V)
theorem entry3_arg11 (V : Valuation τ sig (Elt F)) : (after ops2 (after ops1 (after ops0 V))) (Proc.devRef .tc main_arg11) = V (Proc.devRef .tc main_arg11) :=
  (keep2 (after ops1 (after ops0 V)) (r := main_arg11) (by decide)).trans (entry2_arg11 V)
theorem entry3_arg12 (V : Valuation τ sig (Elt F)) : (after ops2 (after ops1 (after ops0 V))) (Proc.devRef .tc main_arg12) = V (Proc.devRef .tc main_arg12) :=
  (keep2 (after ops1 (after ops0 V)) (r := main_arg12) (by decide)).trans (entry2_arg12 V)
theorem entry3_arg13 (V : Valuation τ sig (Elt F)) : (after ops2 (after ops1 (after ops0 V))) (Proc.devRef .tc main_arg13) = V (Proc.devRef .tc main_arg13) :=
  (keep2 (after ops1 (after ops0 V)) (r := main_arg13) (by decide)).trans (entry2_arg13 V)
theorem entry3_arg14 (V : Valuation τ sig (Elt F)) : (after ops2 (after ops1 (after ops0 V))) (Proc.devRef .tc main_arg14) = V (Proc.devRef .tc main_arg14) :=
  (keep2 (after ops1 (after ops0 V)) (r := main_arg14) (by decide)).trans (entry2_arg14 V)
theorem entry3_arg15 (V : Valuation τ sig (Elt F)) : (after ops2 (after ops1 (after ops0 V))) (Proc.devRef .tc main_arg15) = V (Proc.devRef .tc main_arg15) :=
  (keep2 (after ops1 (after ops0 V)) (r := main_arg15) (by decide)).trans (entry2_arg15 V)
theorem entry3_arg16 (V : Valuation τ sig (Elt F)) : (after ops2 (after ops1 (after ops0 V))) (Proc.devRef .tc main_arg16) = V (Proc.devRef .tc main_arg16) :=
  (keep2 (after ops1 (after ops0 V)) (r := main_arg16) (by decide)).trans (entry2_arg16 V)
theorem entry3_arg17 (V : Valuation τ sig (Elt F)) : (after ops2 (after ops1 (after ops0 V))) (Proc.devRef .tc main_arg17) = V (Proc.devRef .tc main_arg17) :=
  (keep2 (after ops1 (after ops0 V)) (r := main_arg17) (by decide)).trans (entry2_arg17 V)
theorem entry3_arg18 (V : Valuation τ sig (Elt F)) : (after ops2 (after ops1 (after ops0 V))) (Proc.devRef .tc main_arg18) = V (Proc.devRef .tc main_arg18) :=
  (keep2 (after ops1 (after ops0 V)) (r := main_arg18) (by decide)).trans (entry2_arg18 V)
theorem entry3_src (V : Valuation τ sig (Elt F)) : (after ops2 (after ops1 (after ops0 V))) (Proc.devRef .tc main_v1) = srcRow (F := F) (V (Proc.devRef .tc main_arg1)) :=
  (keep2 (after ops1 (after ops0 V)) (r := main_v1) (by decide)).trans (entry2_src V)
theorem entry3_dst (V : Valuation τ sig (Elt F)) : (after ops2 (after ops1 (after ops0 V))) (Proc.devRef .tc main_v3) = dstRow (F := F) (V (Proc.devRef .tc main_arg1)) :=
  (keep2 (after ops1 (after ops0 V)) (r := main_v3) (by decide)).trans (entry2_dst V)
theorem entry3_out (V : Valuation τ sig (Elt F)) :
    (after ops2 (after ops1 (after ops0 V))) (Proc.devRef .tc main_v195)
      = refLayer (F := F) ![2, 0, 0] slices_S4x256x256_S1x256x256_2_0_0 ![2, 0] slices_S4x256_S1x256_2_0 ![2] slices_S4_S1_2 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (refLayer (F := F) ![1, 0, 0] slices_S4x256x256_S1x256x256_1_0_0 ![1, 0] slices_S4x256_S1x256_1_0 ![1] slices_S4_S1_1 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (refLayer (F := F) ![0, 0, 0] slices_S4x256x256_S1x256x256_0_0_0 ![0, 0] slices_S4x256_S1x256_0_0 ![0] slices_S4_S1_0 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg0)))) :=
  (cut2_out (after ops1 (after ops0 V))).trans (by
    rw [entry2_src V, entry2_dst V, entry2_arg3 V, entry2_arg4 V, entry2_arg5 V, entry2_arg6 V, entry2_arg7 V, entry2_arg8 V, entry2_arg9 V, entry2_arg10 V, entry2_arg11 V, entry2_arg12 V, entry2_out V]
    exact (refLayer_eq_rows ..).symm)

theorem entry4_arg2 (V : Valuation τ sig (Elt F)) : (after ops3 (after ops2 (after ops1 (after ops0 V)))) (Proc.devRef .tc main_arg2) = V (Proc.devRef .tc main_arg2) :=
  (keep3 (after ops2 (after ops1 (after ops0 V))) (r := main_arg2) (by decide)).trans (entry3_arg2 V)
theorem entry4_arg3 (V : Valuation τ sig (Elt F)) : (after ops3 (after ops2 (after ops1 (after ops0 V)))) (Proc.devRef .tc main_arg3) = V (Proc.devRef .tc main_arg3) :=
  (keep3 (after ops2 (after ops1 (after ops0 V))) (r := main_arg3) (by decide)).trans (entry3_arg3 V)
theorem entry4_arg4 (V : Valuation τ sig (Elt F)) : (after ops3 (after ops2 (after ops1 (after ops0 V)))) (Proc.devRef .tc main_arg4) = V (Proc.devRef .tc main_arg4) :=
  (keep3 (after ops2 (after ops1 (after ops0 V))) (r := main_arg4) (by decide)).trans (entry3_arg4 V)
theorem entry4_arg5 (V : Valuation τ sig (Elt F)) : (after ops3 (after ops2 (after ops1 (after ops0 V)))) (Proc.devRef .tc main_arg5) = V (Proc.devRef .tc main_arg5) :=
  (keep3 (after ops2 (after ops1 (after ops0 V))) (r := main_arg5) (by decide)).trans (entry3_arg5 V)
theorem entry4_arg6 (V : Valuation τ sig (Elt F)) : (after ops3 (after ops2 (after ops1 (after ops0 V)))) (Proc.devRef .tc main_arg6) = V (Proc.devRef .tc main_arg6) :=
  (keep3 (after ops2 (after ops1 (after ops0 V))) (r := main_arg6) (by decide)).trans (entry3_arg6 V)
theorem entry4_arg7 (V : Valuation τ sig (Elt F)) : (after ops3 (after ops2 (after ops1 (after ops0 V)))) (Proc.devRef .tc main_arg7) = V (Proc.devRef .tc main_arg7) :=
  (keep3 (after ops2 (after ops1 (after ops0 V))) (r := main_arg7) (by decide)).trans (entry3_arg7 V)
theorem entry4_arg8 (V : Valuation τ sig (Elt F)) : (after ops3 (after ops2 (after ops1 (after ops0 V)))) (Proc.devRef .tc main_arg8) = V (Proc.devRef .tc main_arg8) :=
  (keep3 (after ops2 (after ops1 (after ops0 V))) (r := main_arg8) (by decide)).trans (entry3_arg8 V)
theorem entry4_arg9 (V : Valuation τ sig (Elt F)) : (after ops3 (after ops2 (after ops1 (after ops0 V)))) (Proc.devRef .tc main_arg9) = V (Proc.devRef .tc main_arg9) :=
  (keep3 (after ops2 (after ops1 (after ops0 V))) (r := main_arg9) (by decide)).trans (entry3_arg9 V)
theorem entry4_arg10 (V : Valuation τ sig (Elt F)) : (after ops3 (after ops2 (after ops1 (after ops0 V)))) (Proc.devRef .tc main_arg10) = V (Proc.devRef .tc main_arg10) :=
  (keep3 (after ops2 (after ops1 (after ops0 V))) (r := main_arg10) (by decide)).trans (entry3_arg10 V)
theorem entry4_arg11 (V : Valuation τ sig (Elt F)) : (after ops3 (after ops2 (after ops1 (after ops0 V)))) (Proc.devRef .tc main_arg11) = V (Proc.devRef .tc main_arg11) :=
  (keep3 (after ops2 (after ops1 (after ops0 V))) (r := main_arg11) (by decide)).trans (entry3_arg11 V)
theorem entry4_arg12 (V : Valuation τ sig (Elt F)) : (after ops3 (after ops2 (after ops1 (after ops0 V)))) (Proc.devRef .tc main_arg12) = V (Proc.devRef .tc main_arg12) :=
  (keep3 (after ops2 (after ops1 (after ops0 V))) (r := main_arg12) (by decide)).trans (entry3_arg12 V)
theorem entry4_arg13 (V : Valuation τ sig (Elt F)) : (after ops3 (after ops2 (after ops1 (after ops0 V)))) (Proc.devRef .tc main_arg13) = V (Proc.devRef .tc main_arg13) :=
  (keep3 (after ops2 (after ops1 (after ops0 V))) (r := main_arg13) (by decide)).trans (entry3_arg13 V)
theorem entry4_arg14 (V : Valuation τ sig (Elt F)) : (after ops3 (after ops2 (after ops1 (after ops0 V)))) (Proc.devRef .tc main_arg14) = V (Proc.devRef .tc main_arg14) :=
  (keep3 (after ops2 (after ops1 (after ops0 V))) (r := main_arg14) (by decide)).trans (entry3_arg14 V)
theorem entry4_arg15 (V : Valuation τ sig (Elt F)) : (after ops3 (after ops2 (after ops1 (after ops0 V)))) (Proc.devRef .tc main_arg15) = V (Proc.devRef .tc main_arg15) :=
  (keep3 (after ops2 (after ops1 (after ops0 V))) (r := main_arg15) (by decide)).trans (entry3_arg15 V)
theorem entry4_arg16 (V : Valuation τ sig (Elt F)) : (after ops3 (after ops2 (after ops1 (after ops0 V)))) (Proc.devRef .tc main_arg16) = V (Proc.devRef .tc main_arg16) :=
  (keep3 (after ops2 (after ops1 (after ops0 V))) (r := main_arg16) (by decide)).trans (entry3_arg16 V)
theorem entry4_arg17 (V : Valuation τ sig (Elt F)) : (after ops3 (after ops2 (after ops1 (after ops0 V)))) (Proc.devRef .tc main_arg17) = V (Proc.devRef .tc main_arg17) :=
  (keep3 (after ops2 (after ops1 (after ops0 V))) (r := main_arg17) (by decide)).trans (entry3_arg17 V)
theorem entry4_arg18 (V : Valuation τ sig (Elt F)) : (after ops3 (after ops2 (after ops1 (after ops0 V)))) (Proc.devRef .tc main_arg18) = V (Proc.devRef .tc main_arg18) :=
  (keep3 (after ops2 (after ops1 (after ops0 V))) (r := main_arg18) (by decide)).trans (entry3_arg18 V)
theorem entry4_out (V : Valuation τ sig (Elt F)) :
    (after ops3 (after ops2 (after ops1 (after ops0 V)))) (Proc.devRef .tc main_v259)
      = refLayer (F := F) ![3, 0, 0] slices_S4x256x256_S1x256x256_3_0_0 ![3, 0] slices_S4x256_S1x256_3_0 ![3] slices_S4_S1_3 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (refLayer (F := F) ![2, 0, 0] slices_S4x256x256_S1x256x256_2_0_0 ![2, 0] slices_S4x256_S1x256_2_0 ![2] slices_S4_S1_2 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (refLayer (F := F) ![1, 0, 0] slices_S4x256x256_S1x256x256_1_0_0 ![1, 0] slices_S4x256_S1x256_1_0 ![1] slices_S4_S1_1 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (refLayer (F := F) ![0, 0, 0] slices_S4x256x256_S1x256x256_0_0_0 ![0, 0] slices_S4x256_S1x256_0_0 ![0] slices_S4_S1_0 (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg0))))) :=
  (cut3_out (after ops2 (after ops1 (after ops0 V)))).trans (by
    rw [entry3_src V, entry3_dst V, entry3_arg3 V, entry3_arg4 V, entry3_arg5 V, entry3_arg6 V, entry3_arg7 V, entry3_arg8 V, entry3_arg9 V, entry3_arg10 V, entry3_arg11 V, entry3_arg12 V, entry3_out V]
    exact (refLayer_eq_rows ..).symm)

/-! ## The whole list -/

/-- The result buffer after all 308 operations, from any entry contents: the composition of the four layers, the graph
    sum and the read-out applied to the nineteen arguments. -/
theorem total_out (V : Valuation τ sig (Elt F)) :
    after ops V (Proc.devRef .tc main_v281)
      = refTotal (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  show after (ops0 ++ ops1 ++ ops2 ++ ops3 ++ ops4) V _ = _
  rw [after_append, after_append, after_append, after_append]
  refine (cut4_out (after ops3 (after ops2 (after ops1 (after ops0 V))))).trans ?_
  rw [entry4_arg2 V, entry4_out V, entry4_arg13 V, entry4_arg14 V, entry4_arg15 V, entry4_arg16 V, entry4_arg17 V, entry4_arg18 V]
  rfl

/-- A buffer none of the 308 operations writes keeps its contents. -/
theorem keep_all (V : Valuation τ sig (Elt F)) {r : Ref sig .tc} (h0 : r ∉ ops0_W) (h1 : r ∉ ops1_W) (h2 : r ∉ ops2_W) (h3 : r ∉ ops3_W)
    (h4 : r ∉ ops4_W) : after ops V (Proc.devRef .tc r) = V (Proc.devRef .tc r) := by
  show after (ops0 ++ ops1 ++ ops2 ++ ops3 ++ ops4) V _ = _
  rw [after_append, after_append, after_append, after_append, keep4 _ h4, keep3 _ h3, keep2 _ h2, keep1 _ h1, keep0 _ h0]

end Cert.ReferenceIdeal.ValueP

end
-- ==== Proof.RefRunSeq.lean ====
/-
  The reference program's run.

  On every device, from any memory with zero counters, every weakly fair execution of the reference's @main terminates
  with the result buffer at the composition of the reference's stages applied to the arguments' launch contents, and
  with the arguments unchanged: the library's run of a line of host operations, read at the result buffer and at the
  nineteen argument buffers.
-/
import proofs.«129231_j12738873000058_1_alg».proof.Proof.RefOpsFacts
import proofs.«129231_j12738873000058_1_alg».proof.Proof.RefTotalOut

noncomputable section

namespace Cert.ReferenceIdeal.ValueP

open Cert.ReferenceIdeal Cert.ReferenceIdeal.Gen Idealize.ShloMosaic Idealize.ShloMosaic.TcCoe Idealize.SL.Sem Idealize.ShloMosaic.StableHlo Cert.Gin

variable {F : FTy → Type} [FloatOps F]

set_option maxRecDepth 8192 in
/-- On every device, for any float values, from any memory with zero counters: every weakly fair execution of
    @main terminates with the result buffer at the composition of the reference's stages applied to the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v281)
        = Cert.Gin.refTotal (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v281).trans (total_out _),
      (h c main_arg0).trans (keep_all _ (by decide) (by decide) (by decide) (by decide) (by decide)),
      (h c main_arg1).trans (keep_all _ (by decide) (by decide) (by decide) (by decide) (by decide)),
      (h c main_arg2).trans (keep_all _ (by decide) (by decide) (by decide) (by decide) (by decide)),
      (h c main_arg3).trans (keep_all _ (by decide) (by decide) (by decide) (by decide) (by decide)),
      (h c main_arg4).trans (keep_all _ (by decide) (by decide) (by decide) (by decide) (by decide)),
      (h c main_arg5).trans (keep_all _ (by decide) (by decide) (by decide) (by decide) (by decide)),
      (h c main_arg6).trans (keep_all _ (by decide) (by decide) (by decide) (by decide) (by decide)),
      (h c main_arg7).trans (keep_all _ (by decide) (by decide) (by decide) (by decide) (by decide)),
      (h c main_arg8).trans (keep_all _ (by decide) (by decide) (by decide) (by decide) (by decide)),
      (h c main_arg9).trans (keep_all _ (by decide) (by decide) (by decide) (by decide) (by decide)),
      (h c main_arg10).trans (keep_all _ (by decide) (by decide) (by decide) (by decide) (by decide)),
      (h c main_arg11).trans (keep_all _ (by decide) (by decide) (by decide) (by decide) (by decide)),
      (h c main_arg12).trans (keep_all _ (by decide) (by decide) (by decide) (by decide) (by decide)),
      (h c main_arg13).trans (keep_all _ (by decide) (by decide) (by decide) (by decide) (by decide)),
      (h c main_arg14).trans (keep_all _ (by decide) (by decide) (by decide) (by decide) (by decide)),
      (h c main_arg15).trans (keep_all _ (by decide) (by decide) (by decide) (by decide) (by decide)),
      (h c main_arg16).trans (keep_all _ (by decide) (by decide) (by decide) (by decide) (by decide)),
      (h c main_arg17).trans (keep_all _ (by decide) (by decide) (by decide) (by decide) (by decide)),
      (h c main_arg18).trans (keep_all _ (by decide) (by decide) (by decide) (by decide) (by decide))⟩)
    (run_seq scopedRefs_eq scopedSems_eq defs main (fun _ => ops) main_eq (fun _ => ops_sub) m ρ (fun _ _ h => ops_fresh _ h))

end Cert.ReferenceIdeal.ValueP

end
-- ==== Proof.Spec.lean ====
/-
  The mathematics both programs compute, one output row at a time, on the extended reals.

  A node's new feature vector depends only on that node's aggregated row `z` (its own features plus the sum of its
  in-neighbours' features) and on the layer's parameters:
    dense z w b c   = (Σ_k z k · w k c) + b c                         -- a linear layer, column c
    prelu a y       = y if y > 0, else a · y                          -- parametric ReLU
    bnorm y μ v γ β = (y − μ) · rsqrt (v + ε) · γ + β                 -- batch normalisation with running statistics
    mlpRow          = prelu ∘ dense ∘ bnorm ∘ prelu ∘ dense           -- one GIN layer's MLP on one row
    headRow         = dense ∘ bnorm                                   -- the read-out on one pooled row
  Every float literal is kept as its word (`Ideal.ofBits`): the same word stands on both sides and is never evaluated.
  No algebraic law is used anywhere: the two programs perform the same operations in the same order, and differ only
  in how rows are grouped into blocks and in which layout operations carry the parameters to where they are used.
-/
import Idealize.ShloMosaic.PureOps.Ideal
import Idealize.ShloMosaic.Lib.ValueIdx

noncomputable section

namespace Cert.Gin

open Idealize.ShloMosaic

/-- The word of `0.0`. -/
def zeroW : EReal := Ideal.ofBits .f32 0x00000000#32

/-- The word of the variance guard `ε` (the f32 nearest `1e-5`), kept as a word. -/
def epsW : EReal := Ideal.ofBits .f32 0x3727C5AC#32

/-- Parametric ReLU with slope `a`: `y` where `y > 0`, else `a · y`. -/
def prelu (a y : EReal) : EReal :=
  Scalar.select (FloatOps.cmpf (F := Ideal) (φ := .f32) .ogt y zeroW) y (a * y)

/-- Batch normalisation with running mean `mu`, running variance `var`, scale `g` and shift `be`. -/
def bnorm (y mu var g be : EReal) : EReal :=
  (y - mu) * Ideal.rsqrt (var + epsW) * g + be

/-- Column `c` of a linear layer applied to the row `z`. -/
def dense {n : Nat} (z : Fin 256 → EReal) (w : Fin 256 → Fin n → EReal) (b : Fin n → EReal) (c : Fin n) : EReal :=
  (∑ k : Fin 256, z k * w k c) + b c

/-- Column `c` of one layer's MLP applied to the aggregated row `z`:
    linear, PReLU, batch normalisation, linear, PReLU. The slopes are given per column (both programs use one slope
    for all columns; the kernel carries it as a row of equal entries). -/
def mlpRow (z : Fin 256 → EReal) (w1 : Fin 256 → Fin 256 → EReal) (b1 a1 g be mu var : Fin 256 → EReal)
    (w2 : Fin 256 → Fin 256 → EReal) (b2 a2 : Fin 256 → EReal) (c : Fin 256) : EReal :=
  prelu (a2 c) (dense (fun k => bnorm (prelu (a1 k) (dense z w1 b1 k)) (mu k) (var k) (g k) (be k)) w2 b2 c)

/-- Column `c` of the read-out applied to the pooled row `p`: batch normalisation, then a linear layer. -/
def headRow (p : Fin 256 → EReal) (g be mu var : Fin 256 → EReal) (w : Fin 256 → Fin 128 → EReal)
    (b : Fin 128 → EReal) (c : Fin 128) : EReal :=
  dense (fun k => bnorm (p k) (mu k) (var k) (g k) (be k)) w b c

end Cert.Gin

end
-- ==== Proof.KernelBlock.lean ====
/-
  One block of a layer's MLP, and of the read-out, read at one element.

  A block's body is a single pure term over the arrays it loads: two matrix products into a zero accumulator, row
  vectors broadcast down the rows, and pointwise arithmetic. On the extended reals a change of float format is the
  identity, a reshape between equal shapes is the identity, a `[1, b]` row broadcast to `[a, b]` reads its one row at
  every `(p, c)`, and a matrix product into zero is, at `(p, q)`, the sum over `k` of left `(p, k)` times right
  `(k, q)`. Pushing the index `(p, q)` through the body with these four facts leaves exactly the row-wise functions
  of the specification applied to row `p` of the input block and to the parameters' single rows: the same operations
  in the same order, so no algebraic law is needed.
-/
import proofs.«129231_j12738873000058_1_alg».proof.Proof.Spec
import proofs.«129231_j12738873000058_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Gin

open Idealize.ShloMosaic Idealize.ShloMosaic.ValueIdx Cert.KernelIdeal Cert.KernelIdeal.Gen

/-! ## A matrix product into a zero accumulator, read at one element

For a plain rows-by-columns product the operand indices at output `(p, q)` and contraction coordinate `k`
are `(p, k)` on the left and `(k, q)` on the right; the contraction's index set is `Fin 256` through its one
coordinate, so the product's element is the sum over `k : Fin 256` of left `(p, k)` times right `(k, q)`. -/

section MlpDot
variable {φ₁ φ₂ : FTy}

theorem mlpDot_lhs0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem mlpDot_lhs1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c
theorem mlpDot_rhs0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c
theorem mlpDot_rhs1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The layer's 2000x256 by 256x256 product into the zero splat, at `(p, q)`. -/
theorem mlpDot_apply (a : FVec Ideal S2000x256 φ₁) (b : FVec Ideal S256x256 φ₂) (p : Fin 2000) (q : Fin 256) :
    matmul (F := Ideal) dot_S2000x256_S256x256_S2000x256_1_0_0_1_n_n none a b
        (constant (F := Ideal) S2000x256 .f32 0x00000000#32) (ix2 p q)
      = ∑ k : Fin 256, a (ix2 p k) * b (ix2 k q) := by
  refine (Ideal.matmul_constant_zero_apply dot_S2000x256_S256x256_S2000x256_1_0_0_1_n_n none a b (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q)
      ((ValueIdx.contrEquiv1 dot_S2000x256_S256x256_S2000x256_1_0_0_1_n_n 256 rfl rfl).symm k) = ix2 p k :=
    funext fun ax => Fin.ext (by
      match ax with
      | ⟨0, _⟩ => exact mlpDot_lhs0 _ _
      | ⟨1, _⟩ => exact (mlpDot_lhs1 _ _).trans hk)
  have er : dot_S2000x256_S256x256_S2000x256_1_0_0_1_n_n.rhsIdx (ix2 p q)
      ((ValueIdx.contrEquiv1 dot_S2000x256_S256x256_S2000x256_1_0_0_1_n_n 256 rfl rfl).symm k) = ix2 k q :=
    funext fun ax => Fin.ext (by
      match ax with
      | ⟨0, _⟩ => exact (mlpDot_rhs0 _ _).trans hk
      | ⟨1, _⟩ => exact mlpDot_rhs1 _ _)
  rw [el, er]

end MlpDot

section HeadDot
variable {φ₁ φ₂ : FTy}

theorem headDot_lhs0 (i : S512x128.Idx) (c : dot_S512x256_S256x128_S512x128_1_0_0_1_n_n.contr.Idx) :
    (dot_S512x256_S256x128_S512x128_1_0_0_1_n_n.lhsIdx i c 0).val = (i 0).val := by
  unfold DotDims.lhsIdx
  rw [dif_neg (show ¬(0 : Fin S512x256.rank) ∈ dot_S512x256_S256x128_S512x128_1_0_0_1_n_n.lhsBatch by decide),
    dif_pos (show (0 : Fin S512x256.rank) ∈ dot_S512x256_S256x128_S512x128_1_0_0_1_n_n.lhsNonContracting by decide)]
  rfl
theorem headDot_lhs1 (i : S512x128.Idx) (c : dot_S512x256_S256x128_S512x128_1_0_0_1_n_n.contr.Idx) :
    (dot_S512x256_S256x128_S512x128_1_0_0_1_n_n.lhsIdx i c 1).val = (c ⟨0, by decide⟩).val :=
  dot_S512x256_S256x128_S512x128_1_0_0_1_n_n.lhsIdx_val_of_single rfl i c
theorem headDot_rhs0 (i : S512x128.Idx) (c : dot_S512x256_S256x128_S512x128_1_0_0_1_n_n.contr.Idx) :
    (dot_S512x256_S256x128_S512x128_1_0_0_1_n_n.rhsIdx i c 0).val = (c ⟨0, by decide⟩).val :=
  dot_S512x256_S256x128_S512x128_1_0_0_1_n_n.rhsIdx_val_of_single rfl i c
theorem headDot_rhs1 (i : S512x128.Idx) (c : dot_S512x256_S256x128_S512x128_1_0_0_1_n_n.contr.Idx) :
    (dot_S512x256_S256x128_S512x128_1_0_0_1_n_n.rhsIdx i c 1).val = (i 1).val := by
  unfold DotDims.rhsIdx
  rw [dif_neg (show ¬(1 : Fin S256x128.rank) ∈ dot_S512x256_S256x128_S512x128_1_0_0_1_n_n.rhsBatch by decide),
    dif_pos (show (1 : Fin S256x128.rank) ∈ dot_S512x256_S256x128_S512x128_1_0_0_1_n_n.rhsNonContracting by decide)]
  rfl

/-- The read-out's 512x256 by 256x128 product into the zero splat, at `(p, q)`. -/
theorem headDot_apply (a : FVec Ideal S512x256 φ₁) (b : FVec Ideal S256x128 φ₂) (p : Fin 512) (q : Fin 128) :
    matmul (F := Ideal) dot_S512x256_S256x128_S512x128_1_0_0_1_n_n none a b
        (constant (F := Ideal) S512x128 .f32 0x00000000#32) (ix2 p q)
      = ∑ k : Fin 256, a (ix2 p k) * b (ix2 k q) := by
  refine (Ideal.matmul_constant_zero_apply dot_S512x256_S256x128_S512x128_1_0_0_1_n_n none a b (ix2 p q)).trans ?_
  rw [← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 p q)
      ((ValueIdx.contrEquiv1 dot_S512x256_S256x128_S512x128_1_0_0_1_n_n 256 rfl rfl).symm k) = ix2 p k :=
    funext fun ax => Fin.ext (by
      match ax with
      | ⟨0, _⟩ => exact headDot_lhs0 _ _
      | ⟨1, _⟩ => exact (headDot_lhs1 _ _).trans hk)
  have er : dot_S512x256_S256x128_S512x128_1_0_0_1_n_n.rhsIdx (ix2 p q)
      ((ValueIdx.contrEquiv1 dot_S512x256_S256x128_S512x128_1_0_0_1_n_n 256 rfl rfl).symm k) = ix2 k q :=
    funext fun ax => Fin.ext (by
      match ax with
      | ⟨0, _⟩ => exact (headDot_rhs0 _ _).trans hk
      | ⟨1, _⟩ => exact headDot_rhs1 _ _)
  rw [el, er]

end HeadDot

/-! ## The second half of the layer: linear, then PReLU -/

theorem pay1_apply (v : FVec Ideal S2000x256 .bf16) (x8 : Vec Ideal S256x256 .f32) (x9 x10 : Vec Ideal S1x256 .f32)
    (p : Fin 2000) (q : Fin 256) :
    k0_pay1 (F := Ideal) v x8 x9 x10 (ix2 p q)
      = prelu (x10 (ix2 0 q)) (dense (fun k => v (ix2 p k)) (fun k c => x8 (ix2 k c)) (fun c => x9 (ix2 0 c)) q) := by
  unfold k0_pay1
  simp only [select_apply, cmpf_apply, mulf_apply, addf_apply, broadcast_apply, shapeCast_self,
    broadcastTo_1b_ab_apply, mlpDot_apply, truncf_apply]
  rfl

/-! ## The first half of the layer: linear, PReLU, then batch normalisation -/

theorem pay2_apply (x0 : Vec Ideal S2000x256 .f32) (x1 : Vec Ideal S256x256 .f32) (x2 x3 x4 x5 x6 x7 : Vec Ideal S1x256 .f32)
    (p : Fin 2000) (k : Fin 256) :
    k0_pay2 (F := Ideal) x0 x1 x2 x3 x4 x5 x6 x7 (ix2 p k)
      = bnorm (prelu (x3 (ix2 0 k)) (dense (fun j => x0 (ix2 p j)) (fun j c => x1 (ix2 j c)) (fun c => x2 (ix2 0 c)) k))
          (x6 (ix2 0 k)) (x7 (ix2 0 k)) (x4 (ix2 0 k)) (x5 (ix2 0 k)) := by
  unfold k0_pay2
  simp only [select_apply, cmpf_apply, mulf_apply, addf_apply, subf_apply, broadcast_apply, shapeCast_self,
    broadcastTo_1b_ab_apply, mlpDot_apply, truncf_apply]
  rfl

/-! ## One block of a layer, and of the read-out, at one element -/

/-- One element of a layer's block is the row-wise MLP of that element's row. -/
theorem mlp_block (x0 : Vec Ideal S2000x256 .f32) (x1 : Vec Ideal S256x256 .f32) (x2 x3 x4 x5 x6 x7 : Vec Ideal S1x256 .f32)
    (x8 : Vec Ideal S256x256 .f32) (x9 x10 : Vec Ideal S1x256 .f32) (p : Fin 2000) (q : Fin 256) :
    k0_pay1 (F := Ideal) (k0_pay2 (F := Ideal) x0 x1 x2 x3 x4 x5 x6 x7) x8 x9 x10 (ix2 p q)
      = mlpRow (fun k => x0 (ix2 p k)) (fun k c => x1 (ix2 k c)) (fun c => x2 (ix2 0 c)) (fun c => x3 (ix2 0 c))
          (fun c => x4 (ix2 0 c)) (fun c => x5 (ix2 0 c)) (fun c => x6 (ix2 0 c)) (fun c => x7 (ix2 0 c))
          (fun k c => x8 (ix2 k c)) (fun c => x9 (ix2 0 c)) (fun c => x10 (ix2 0 c)) q := by
  refine (pay1_apply _ x8 x9 x10 p q).trans ?_
  simp only [pay2_apply]
  rfl

/-- One element of the read-out's block is the row-wise read-out of that element's pooled row. -/
theorem head_block (x0 : Vec Ideal S512x256 .f32) (x1 x2 x3 x4 : Vec Ideal S1x256 .f32) (x5 : Vec Ideal S256x128 .f32)
    (x6 : Vec Ideal S1x128 .f32) (p : Fin 512) (q : Fin 128) :
    k4_pay1 (F := Ideal) x0 x1 x2 x3 x4 x5 x6 (ix2 p q)
      = headRow (fun k => x0 (ix2 p k)) (fun c => x1 (ix2 0 c)) (fun c => x2 (ix2 0 c)) (fun c => x3 (ix2 0 c))
          (fun c => x4 (ix2 0 c)) (fun k c => x5 (ix2 k c)) (fun c => x6 (ix2 0 c)) q := by
  unfold k4_pay1
  simp only [mulf_apply, addf_apply, subf_apply, broadcast_apply, shapeCast_self,
    broadcastTo_1b_ab_apply, headDot_apply, truncf_apply]
  rfl

/-! ## The four layers' bodies are one text -/

theorem pay1_1 {F : FTy → Type} [FloatOps F] : @k1_pay1 F _ = @k0_pay1 F _ := rfl
theorem pay1_2 {F : FTy → Type} [FloatOps F] : @k2_pay1 F _ = @k0_pay1 F _ := rfl
theorem pay1_3 {F : FTy → Type} [FloatOps F] : @k3_pay1 F _ = @k0_pay1 F _ := rfl
theorem pay2_1 {F : FTy → Type} [FloatOps F] : @k1_pay2 F _ = @k0_pay2 F _ := rfl
theorem pay2_2 {F : FTy → Type} [FloatOps F] : @k2_pay2 F _ = @k0_pay2 F _ := rfl
theorem pay2_3 {F : FTy → Type} [FloatOps F] : @k3_pay2 F _ = @k0_pay2 F _ := rfl

end Cert.Gin

end
-- ==== Proof.KernelLayout.lean ====
/-
  Parameter rows as the layer bodies receive them.

  A length-`n` parameter vector reaches a block as the `[1, n]` row obtained by a reshape: both have the same
  row-major order, so the row at `(0, j)` is the vector at `j`. A scalar parameter reaches it as the `[1, 256]` row
  obtained by broadcasting along every axis: a scalar has no axis of its own, so the row at `(0, j)` is the scalar.
-/
import proofs.«129231_j12738873000058_1_alg».proof.Proof.Gen.KernelIdeal
import Idealize.ShloMosaic.Lib.ValueIdx
import Idealize.ShloMosaic.Lib.Pipeline.Value
import Idealize.ShloMosaic.Lib.ValueLayout

noncomputable section

namespace Cert.Gin

open Idealize.ShloMosaic Idealize.ShloMosaic.ValueIdx Cert.KernelIdeal Cert.KernelIdeal.Gen

/-- A length-256 vector reshaped to a `[1, 256]` row reads, at `(0, j)`, the vector at `j`. -/
theorem rowOfVec256_apply (v : (⟨S256, .f32⟩ : BufTy).Contents (Elt Ideal)) (j : Fin 256) :
    (shapeCast S1x256 v shapeCasts_S256_S1x256 : (⟨S1x256, .f32⟩ : BufTy).Contents (Elt Ideal)) (ix2 (0 : Fin 1) j)
      = v (ix1 j) :=
  shapeCast_a_1a_apply v shapeCasts_S256_S1x256 (0 : Fin 1) j

/-- A length-128 vector reshaped to a `[1, 128]` row reads, at `(0, j)`, the vector at `j`. -/
theorem rowOfVec128_apply (v : (⟨S128, .f32⟩ : BufTy).Contents (Elt Ideal)) (j : Fin 128) :
    (shapeCast S1x128 v shapeCasts_S128_S1x128 : (⟨S1x128, .f32⟩ : BufTy).Contents (Elt Ideal)) (ix2 (0 : Fin 1) j)
      = v (ix1 j) :=
  shapeCast_a_1a_apply v shapeCasts_S128_S1x128 (0 : Fin 1) j

/-- A scalar broadcast to a `[1, 256]` row reads, at `(0, j)`, the scalar. -/
theorem rowOfScalar_apply (a : (⟨S_, .f32⟩ : BufTy).Contents (Elt Ideal)) (j : Fin 256) :
    (broadcastInDim S1x256 ![] bcast_S_S1x256 a : (⟨S1x256, .f32⟩ : BufTy).Contents (Elt Ideal)) (ix2 (0 : Fin 1) j)
      = a ix0 :=
  broadcastInDim_apply _ bcast_S_S1x256 a _ ix0 fun ax => ax.elim0

end Cert.Gin

end
-- ==== Proof.RefLayers.lean ====
/-
  The reference program's dense stages read one element at a time.

  Each whole-array stage of the reference (a linear layer, the parametric ReLU, the batch normalisation, and their
  compositions `refMlp` and `refHead`) is, at row r and column q, the row-wise mathematics of the specification
  applied to row r of the stage's input. The layout operations only carry a parameter to the place where it is used
  (a vector's entry q on every row, a scalar everywhere); on the extended reals a contraction is the plain sum over
  the contracted axis; everything else acts element by element. No algebraic law is used: both sides are the same
  operations in the same order.
-/
import proofs.«129231_j12738873000058_1_alg».proof.Proof.Spec
import proofs.«129231_j12738873000058_1_alg».proof.Proof.RefDefs
import Idealize.ShloMosaic.Lib.ValueIdx
import Idealize.ShloMosaic.Lib.Pipeline.Value
import Idealize.ShloMosaic.Lib.ValueLayout
import Idealize.ShloMosaic.PureOps.Ideal.Laws

noncomputable section

namespace Cert.Gin

open Idealize.ShloMosaic Idealize.ShloMosaic.ValueIdx Cert.ReferenceIdeal Cert.ReferenceIdeal.Gen

/-! ## Layout operations read at an element

A parameter vector reaches the place where it is used through two broadcasts, [256] → [1,256] → [rows,256]; read at
(r, q) the result is the vector's entry q, whatever the row. A scalar filling an array reads as the scalar. -/

/-- Every row of `rows50000 v` is `v`. -/
theorem rows50000_apply (v : (⟨S256, .f32⟩ : BufTy).Contents (Elt Ideal)) (r : Fin 50000) (q : Fin 256) :
    rows50000 (F := Ideal) v (ix2 r q) = v (ix1 q) := by
  unfold rows50000
  refine (broadcastInDim_apply _ bcast_S1x256_S50000x256_0_1 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans ?_
  exact broadcastInDim_apply _ bcast_S256_S1x256_1 v (ix2 (0 : Fin 1) q) (ix1 q) (fun a => match a with
    | ⟨0, _⟩ => by show q.val = if (256 : Nat) = 1 then 0 else q.val; rw [if_neg (by decide)])

/-- Every row of `rows512 v` is `v`. -/
theorem rows512_apply (v : (⟨S256, .f32⟩ : BufTy).Contents (Elt Ideal)) (r : Fin 512) (q : Fin 256) :
    rows512 (F := Ideal) v (ix2 r q) = v (ix1 q) := by
  unfold rows512
  refine (broadcastInDim_apply _ bcast_S1x256_S512x256_0_1 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans ?_
  exact broadcastInDim_apply _ bcast_S256_S1x256_1 v (ix2 (0 : Fin 1) q) (ix1 q) (fun a => match a with
    | ⟨0, _⟩ => by show q.val = if (256 : Nat) = 1 then 0 else q.val; rw [if_neg (by decide)])

/-- The read-out's bias laid along the 512 pooled rows: every row is the bias. -/
theorem rows512x128_apply (b : (⟨S128, .f32⟩ : BufTy).Contents (Elt Ideal)) (r : Fin 512) (q : Fin 128) :
    broadcastInDim S512x128 ![0, 1] bcast_S1x128_S512x128_0_1 (broadcastInDim S1x128 ![1] bcast_S128_S1x128_1 b) (ix2 r q)
      = b (ix1 q) := by
  refine (broadcastInDim_apply _ bcast_S1x128_S512x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- A scalar filling the 50000×256 array reads as the scalar. -/
theorem fill50000_apply (a : (⟨S_, .f32⟩ : BufTy).Contents (Elt Ideal)) (r : Fin 50000) (q : Fin 256) :
    fill50000 (F := Ideal) a (ix2 r q) = a ix0 := by
  unfold fill50000
  exact broadcastInDim_apply _ bcast_S_S50000x256 a (ix2 r q) ix0 (fun a => a.elim0)

/-- The array of zeros reads as the word of `0.0`. -/
theorem zeros50000_apply (r : Fin 50000) (q : Fin 256) :
    zeros50000 (F := Ideal) (ix2 r q) = Ideal.ofBits .f32 0x00000000#32 := by
  unfold zeros50000
  exact broadcastInDim_apply _ bcast_S_S50000x256 (constant (F := Ideal) S_ .f32 0x00000000#32) (ix2 r q) ix0 (fun a => a.elim0)

/-- The variance guard filling a length-256 vector reads as its word. -/
theorem epsFill_apply (c : Fin 256) :
    broadcastInDim S256 ![] bcast_S_S256 (constant (F := Ideal) S_ .f32 0x3727C5AC#32) (ix1 c)
      = Ideal.ofBits .f32 0x3727C5AC#32 :=
  broadcastInDim_apply _ bcast_S_S256 (constant (F := Ideal) S_ .f32 0x3727C5AC#32) (ix1 c) ix0 (fun a => a.elim0)

/-! ## The two contractions -/

/-- The left operand's row coordinate under the contraction is the output's row. -/
theorem dot50000_lhs0 (i : S50000x256.Idx) (c : dot_S50000x256_S256x256_S50000x256_1_0_0_1_n_n.contr.Idx) :
    (dot_S50000x256_S256x256_S50000x256_1_0_0_1_n_n.lhsIdx i c 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
/-- The left operand's column coordinate is the contracted one. -/
theorem dot50000_lhs1 (i : S50000x256.Idx) (c : dot_S50000x256_S256x256_S50000x256_1_0_0_1_n_n.contr.Idx) :
    (dot_S50000x256_S256x256_S50000x256_1_0_0_1_n_n.lhsIdx i c 1).val = (c ⟨0, by decide⟩).val :=
  dot_S50000x256_S256x256_S50000x256_1_0_0_1_n_n.lhsIdx_val_of_single rfl i c
/-- The right operand's row coordinate is the contracted one. -/
theorem dot50000_rhs0 (i : S50000x256.Idx) (c : dot_S50000x256_S256x256_S50000x256_1_0_0_1_n_n.contr.Idx) :
    (dot_S50000x256_S256x256_S50000x256_1_0_0_1_n_n.rhsIdx i c 0).val = (c ⟨0, by decide⟩).val :=
  dot_S50000x256_S256x256_S50000x256_1_0_0_1_n_n.rhsIdx_val_of_single rfl i c
/-- The right operand's column coordinate is the output's column. -/
theorem dot50000_rhs1 (i : S50000x256.Idx) (c : dot_S50000x256_S256x256_S50000x256_1_0_0_1_n_n.contr.Idx) :
    (dot_S50000x256_S256x256_S50000x256_1_0_0_1_n_n.rhsIdx i c 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- On the extended reals the contraction of a [50000,256] array with a [256,256] array is the plain sum over the
    contracted axis: element (r, q) is Σ_k l[r,k] · w[k,q]. -/
theorem dot50000_apply (l : (⟨S50000x256, .f32⟩ : BufTy).Contents (Elt Ideal)) (w : (⟨S256x256, .f32⟩ : BufTy).Contents (Elt Ideal))
    (r : Fin 50000) (q : Fin 256) :
    Host.dotGeneral (F := Ideal) (φ₁ := .f32) (φ₂ := .f32) dot_S50000x256_S256x256_S50000x256_1_0_0_1_n_n none l w (ix2 r q) = ∑ k : Fin 256, l (ix2 r k) * w (ix2 k q) := by
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx (ix2 r q) ((contrEquiv1 dot_S50000x256_S256x256_S50000x256_1_0_0_1_n_n 256 rfl rfl).symm k) = ix2 r k := funext fun a => Fin.ext (by
    match a with
    | ⟨0, _⟩ => exact dot50000_lhs0 _ _
    | ⟨1, _⟩ => exact (dot50000_lhs1 _ _).trans hk)
  have er : dot_S50000x256_S256x256_S50000x256_1_0_0_1_n_n.rhsIdx (ix2 r q) ((contrEquiv1 dot_S50000x256_S256x256_S50000x256_1_0_0_1_n_n 256 rfl rfl).symm k) = ix2 k q := funext fun a => Fin.ext (by
    match a with
    | ⟨0, _⟩ => exact (dot50000_rhs0 _ _).trans hk
    | ⟨1, _⟩ => exact dot50000_rhs1 _ _)
  rw [el, er]

/-- The left operand's row coordinate under the contraction is the output's row. -/
theorem dot512_lhs0 (i : S512x128.Idx) (c : dot_S512x256_S256x128_S512x128_1_0_0_1_n_n.contr.Idx) :
    (dot_S512x256_S256x128_S512x128_1_0_0_1_n_n.lhsIdx i c 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
/-- The left operand's column coordinate is the contracted one. -/
theorem dot512_lhs1 (i : S512x128.Idx) (c : dot_S512x256_S256x128_S512x128_1_0_0_1_n_n.contr.Idx) :
    (dot_S512x256_S256x128_S512x128_1_0_0_1_n_n.lhsIdx i c 1).val = (c ⟨0, by decide⟩).val :=
  dot_S512x256_S256x128_S512x128_1_0_0_1_n_n.lhsIdx_val_of_single rfl i c
/-- The right operand's row coordinate is the contracted one. -/
theorem dot512_rhs0 (i : S512x128.Idx) (c : dot_S512x256_S256x128_S512x128_1_0_0_1_n_n.contr.Idx) :
    (dot_S512x256_S256x128_S512x128_1_0_0_1_n_n.rhsIdx i c 0).val = (c ⟨0, by decide⟩).val :=
  dot_S512x256_S256x128_S512x128_1_0_0_1_n_n.rhsIdx_val_of_single rfl i c
/-- The right operand's column coordinate is the output's column. -/
theorem dot512_rhs1 (i : S512x128.Idx) (c : dot_S512x256_S256x128_S512x128_1_0_0_1_n_n.contr.Idx) :
    (dot_S512x256_S256x128_S512x128_1_0_0_1_n_n.rhsIdx i c 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- On the extended reals the contraction of a [512,256] array with a [256,128] array is the plain sum over the
    contracted axis: element (r, q) is Σ_k l[r,k] · w[k,q]. -/
theorem dot512_apply (l : (⟨S512x256, .f32⟩ : BufTy).Contents (Elt Ideal)) (w : (⟨S256x128, .f32⟩ : BufTy).Contents (Elt Ideal))
    (r : Fin 512) (q : Fin 128) :
    Host.dotGeneral (F := Ideal) (φ₁ := .f32) (φ₂ := .f32) dot_S512x256_S256x128_S512x128_1_0_0_1_n_n none l w (ix2 r q) = ∑ k : Fin 256, l (ix2 r k) * w (ix2 k q) := by
  simp only [Host.dotGeneral]
  rw [Ideal.dotGeneral_apply, ← Equiv.sum_comp (contrEquiv1 dot_S512x256_S256x128_S512x128_1_0_0_1_n_n 256 rfl rfl).symm]
  refine Finset.sum_congr rfl fun k _ => ?_
  have hk := contrEquiv1_symm_val dot_S512x256_S256x128_S512x128_1_0_0_1_n_n 256 rfl rfl k
  have el : dot_S512x256_S256x128_S512x128_1_0_0_1_n_n.lhsIdx (ix2 r q) ((contrEquiv1 dot_S512x256_S256x128_S512x128_1_0_0_1_n_n 256 rfl rfl).symm k) = ix2 r k := funext fun a => Fin.ext (by
    match a with
    | ⟨0, _⟩ => exact dot512_lhs0 _ _
    | ⟨1, _⟩ => exact (dot512_lhs1 _ _).trans hk)
  have er : dot_S512x256_S256x128_S512x128_1_0_0_1_n_n.rhsIdx (ix2 r q) ((contrEquiv1 dot_S512x256_S256x128_S512x128_1_0_0_1_n_n 256 rfl rfl).symm k) = ix2 k q := funext fun a => Fin.ext (by
    match a with
    | ⟨0, _⟩ => exact (dot512_rhs0 _ _).trans hk
    | ⟨1, _⟩ => exact dot512_rhs1 _ _)
  rw [el, er]

/-! ## The stages read at an element -/

/-- A linear layer at (r, q): the contraction of row r with column q, plus the bias' entry q. -/
theorem refDense_apply (z : (⟨S50000x256, .f32⟩ : BufTy).Contents (Elt Ideal)) (w : (⟨S256x256, .f32⟩ : BufTy).Contents (Elt Ideal)) (b : (⟨S256, .f32⟩ : BufTy).Contents (Elt Ideal))
    (r : Fin 50000) (q : Fin 256) :
    refDense (F := Ideal) z w b (ix2 r q) = (∑ k : Fin 256, z (ix2 r k) * w (ix2 k q)) + b (ix1 q) := by
  unfold refDense
  show Host.dotGeneral (F := Ideal) (φ₁ := .f32) (φ₂ := .f32) dot_S50000x256_S256x256_S50000x256_1_0_0_1_n_n none z w (ix2 r q) + rows50000 (F := Ideal) b (ix2 r q) = _
  rw [dot50000_apply, rows50000_apply]

/-- The parametric ReLU at (r, q) is the scalar one applied to the element. -/
theorem refPrelu_apply (a : (⟨S_, .f32⟩ : BufTy).Contents (Elt Ideal)) (y : (⟨S50000x256, .f32⟩ : BufTy).Contents (Elt Ideal)) (r : Fin 50000) (q : Fin 256) :
    refPrelu (F := Ideal) a y (ix2 r q) = prelu (a ix0) (y (ix2 r q)) := by
  unfold refPrelu prelu zeroW
  show Scalar.select (FloatOps.cmpf (F := Ideal) (φ := .f32) .ogt (y (ix2 r q)) (zeros50000 (F := Ideal) (ix2 r q)))
      (y (ix2 r q)) (fill50000 (F := Ideal) a (ix2 r q) * y (ix2 r q)) = _
  rw [zeros50000_apply, fill50000_apply]

/-- The batch normalisation at (r, q) is the scalar one with the statistics' and parameters' entries q. -/
theorem refBn_apply (y : (⟨S50000x256, .f32⟩ : BufTy).Contents (Elt Ideal)) (g be mu var : (⟨S256, .f32⟩ : BufTy).Contents (Elt Ideal)) (r : Fin 50000) (q : Fin 256) :
    refBn (F := Ideal) y g be mu var (ix2 r q)
      = bnorm (y (ix2 r q)) (mu (ix1 q)) (var (ix1 q)) (g (ix1 q)) (be (ix1 q)) := by
  unfold refBn bnorm epsW
  show (y (ix2 r q) - rows50000 (F := Ideal) mu (ix2 r q))
        * rows50000 (F := Ideal) (Host.rsqrt (addf var (broadcastInDim S256 ![] bcast_S_S256 (constant (F := Ideal) S_ .f32 0x3727C5AC#32)))) (ix2 r q)
        * rows50000 (F := Ideal) g (ix2 r q) + rows50000 (F := Ideal) be (ix2 r q) = _
  rw [rows50000_apply, rows50000_apply, rows50000_apply, rows50000_apply]
  show (y (ix2 r q) - mu (ix1 q))
        * Ideal.rsqrt (var (ix1 q) + broadcastInDim S256 ![] bcast_S_S256 (constant (F := Ideal) S_ .f32 0x3727C5AC#32) (ix1 q))
        * g (ix1 q) + be (ix1 q) = _
  rw [epsFill_apply]

/-! ## One layer's MLP and the read-out -/

/-- One layer's MLP at (r, q) is the specification's row-wise MLP applied to row r of `z`, at column q. -/
theorem refMlp_apply (z : (⟨S50000x256, .f32⟩ : BufTy).Contents (Elt Ideal)) (w1 : (⟨S256x256, .f32⟩ : BufTy).Contents (Elt Ideal)) (b1 : (⟨S256, .f32⟩ : BufTy).Contents (Elt Ideal)) (a1 : (⟨S_, .f32⟩ : BufTy).Contents (Elt Ideal)) (g be mu var : (⟨S256, .f32⟩ : BufTy).Contents (Elt Ideal)) (w2 : (⟨S256x256, .f32⟩ : BufTy).Contents (Elt Ideal)) (b2 : (⟨S256, .f32⟩ : BufTy).Contents (Elt Ideal)) (a2 : (⟨S_, .f32⟩ : BufTy).Contents (Elt Ideal)) (r : Fin 50000) (q : Fin 256) :
    refMlp (F := Ideal) z w1 b1 a1 g be mu var w2 b2 a2 (ix2 r q)
      = mlpRow (fun k => z (ix2 r k)) (fun k c => w1 (ix2 k c)) (fun c => b1 (ix1 c)) (fun _ => a1 ix0) (fun c => g (ix1 c)) (fun c => be (ix1 c)) (fun c => mu (ix1 c)) (fun c => var (ix1 c)) (fun k c => w2 (ix2 k c)) (fun c => b2 (ix1 c)) (fun _ => a2 ix0) q := by
  unfold refMlp mlpRow
  rw [refPrelu_apply, refDense_apply]
  refine congrArg (prelu (a2 ix0)) ?_
  unfold dense
  refine congrArg (· + b2 (ix1 q)) (Finset.sum_congr rfl fun k _ => ?_)
  rw [refBn_apply, refPrelu_apply, refDense_apply]

/-- The read-out at (r, q) is the specification's row-wise read-out applied to the pooled row r, at column q. -/
theorem refHead_apply (p : (⟨S512x256, .f32⟩ : BufTy).Contents (Elt Ideal)) (g be mu var : (⟨S256, .f32⟩ : BufTy).Contents (Elt Ideal)) (w : (⟨S256x128, .f32⟩ : BufTy).Contents (Elt Ideal)) (b : (⟨S128, .f32⟩ : BufTy).Contents (Elt Ideal)) (r : Fin 512) (q : Fin 128) :
    refHead (F := Ideal) p g be mu var w b (ix2 r q)
      = headRow (fun k => p (ix2 r k)) (fun c => g (ix1 c)) (fun c => be (ix1 c)) (fun c => mu (ix1 c)) (fun c => var (ix1 c)) (fun k c => w (ix2 k c)) (fun c => b (ix1 c)) q := by
  unfold refHead headRow dense
  show Host.dotGeneral (F := Ideal) (φ₁ := .f32) (φ₂ := .f32) dot_S512x256_S256x128_S512x128_1_0_0_1_n_n none _ w (ix2 r q)
      + broadcastInDim S512x128 ![0, 1] bcast_S1x128_S512x128_0_1 (broadcastInDim S1x128 ![1] bcast_S128_S1x128_1 b) (ix2 r q) = _
  rw [dot512_apply, rows512x128_apply]
  refine congrArg (· + b (ix1 q)) (Finset.sum_congr rfl fun k _ => ?_)
  refine congrArg (· * w (ix2 k q)) ?_
  unfold bnorm epsW
  show (p (ix2 r k) - rows512 (F := Ideal) mu (ix2 r k))
        * rows512 (F := Ideal) (Host.rsqrt (addf var (broadcastInDim S256 ![] bcast_S_S256 (constant (F := Ideal) S_ .f32 0x3727C5AC#32)))) (ix2 r k)
        * rows512 (F := Ideal) g (ix2 r k) + rows512 (F := Ideal) be (ix2 r k) = _
  rw [rows512_apply, rows512_apply, rows512_apply, rows512_apply]
  show (p (ix2 r k) - mu (ix1 k))
        * Ideal.rsqrt (var (ix1 k) + broadcastInDim S256 ![] bcast_S_S256 (constant (F := Ideal) S_ .f32 0x3727C5AC#32) (ix1 k))
        * g (ix1 k) + be (ix1 k) = _
  rw [epsFill_apply]

end Cert.Gin

end
-- ==== Proof.Region0.lean ====
/-
  Region 0 (one GIN layer's MLP, 25 blocks of 2000 rows): the array it leaves, index by index.

  Grid point `t` stages rows `2000·t … 2000·t + 1999` of the aggregated features (window 0), the layer's parameters
  whole (windows 1–10: their index maps are constantly the first block), runs the body on them and writes the result
  back to the same rows of the output array (window 11).  The body's result at row `p` of the block depends on row `p`
  of the staged block only, so what point `t` writes back is the block of ONE whole-array function `layerOut`: at row
  `r`, the row-wise MLP of row `r` of the input.  The 25 blocks tile the 50000 rows, so after the region the output array
  IS `layerOut`.  Everything is stated at the parameter `V`, the buffers' contents when the region is entered.
-/
import proofs.«129231_j12738873000058_1_alg».proof.Proof.Gen.KernelIdeal.Frame
import proofs.«129231_j12738873000058_1_alg».proof.Proof.KernelBlock
import proofs.«129231_j12738873000058_1_alg».proof.Proof.KernelLayout
import proofs.«129231_j12738873000058_1_alg».proof.Proof.RefLayers
import Idealize.ShloMosaic.Lib.Pipeline.Value
import Idealize.ShloMosaic.Lib.ValueIdx

set_option maxRecDepth 16384

noncomputable section

namespace Cert.KernelIdeal.GinRegion0

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region: at row `i 0`, column `i 1`, the layer's row-wise MLP of that row of
    the aggregated features, with the parameters as the region finds them. -/
def layerOut (c : Dev nD) : S50000x256.Idx → EReal := fun i =>
  mlpRow (fun k => V c main_v14 (ix2 (⟨(i 0).val, (i 0).isLt⟩ : Fin 50000) k))
    (fun k j => V c main_v16 (ix2 k j)) (fun j => V c main_v35 (ix2 (0 : Fin 1) j)) (fun j => V c main_v36 (ix2 (0 : Fin 1) j))
    (fun j => V c main_v37 (ix2 (0 : Fin 1) j)) (fun j => V c main_v38 (ix2 (0 : Fin 1) j)) (fun j => V c main_v39 (ix2 (0 : Fin 1) j))
    (fun j => V c main_v40 (ix2 (0 : Fin 1) j)) (fun k j => V c main_v30 (ix2 k j)) (fun j => V c main_v41 (ix2 (0 : Fin 1) j))
    (fun j => V c main_v42 (ix2 (0 : Fin 1) j)) (⟨(i 1).val, (i 1).isLt⟩ : Fin 256)

/-- The printed index maps, decided over the 25 grid points: the input rows move with the output rows, block `t` at
    point `t`; every parameter window stays at its first block. -/
theorem idx_facts : ∀ t : Fin cfg0.N,
    win0_0.index t (0 : Fin 2) = win0_11.index t (0 : Fin 2) ∧ win0_0.index t (1 : Fin 2) = 0
    ∧ win0_11.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) ≤ 24 :=
  (by decide +kernel : ∀ t : Fin grid0.N, _)

/-- Every one of the 25 row blocks is some point's. -/
theorem idx_onto : ∀ q0 : Fin 25, ∃ t : Fin cfg0.N, win0_11.index t = ![q0.val, 0] :=
  (by decide +kernel : ∀ q0 : Fin 25, ∃ t : Fin grid0.N, win0_11.index t = ![q0.val, 0])

/-- Row `p` of the block of aggregated features staged at point `t` is row `2000·t + p` of the array, where `t` is the
    output window's block index too. -/
theorem blk_0 (c : Dev nD) (t : Fin cfg0.N) (p : Fin 2000) (k : Fin 256) (r : Fin 50000)
    (hr : r.val = win0_11.index t (0 : Fin 2) * 2000 + p.val) :
    iblk0 V c 0 t (ix2 p k) = V c main_v14 (ix2 r k) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v14 (((cfg0.win 0).blk t).view.emb (ix2 p k)) = V c main_v14 (ix2 r k)
  refine congrArg (V c main_v14) ?_
  funext d; apply Fin.ext
  match d with
  | ⟨0, _⟩ => show win0_0.index t (0 : Fin 2) * 2000 + 1 * p.val = r.val; omega
  | ⟨1, _⟩ => show win0_0.index t (1 : Fin 2) * 256 + 1 * k.val = k.val; omega

/-- Window 1's block is its whole array at every point: its index map is constantly the first block. -/
theorem blk_1 (c : Dev nD) (t : Fin cfg0.N) (a : Fin 256) (b : Fin 256) :
    iblk0 V c 1 t (ix2 a b) = V c main_v16 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v16 (((cfg0.win 1).blk t).view.emb (ix2 a b)) = V c main_v16 (ix2 a b)
  refine congrArg (V c main_v16) ?_
  funext d; apply Fin.ext
  match d with
  | ⟨0, _⟩ => show win0_1.index t (0 : Fin 2) * 256 + 1 * a.val = a.val; omega
  | ⟨1, _⟩ => show win0_1.index t (1 : Fin 2) * 256 + 1 * b.val = b.val; omega

/-- Window 2's block is its whole array at every point: its index map is constantly the first block. -/
theorem blk_2 (c : Dev nD) (t : Fin cfg0.N) (a : Fin 1) (b : Fin 256) :
    iblk0 V c 2 t (ix2 a b) = V c main_v35 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v35 (((cfg0.win 2).blk t).view.emb (ix2 a b)) = V c main_v35 (ix2 a b)
  refine congrArg (V c main_v35) ?_
  funext d; apply Fin.ext
  match d with
  | ⟨0, _⟩ => show win0_2.index t (0 : Fin 2) * 1 + 1 * a.val = a.val; omega
  | ⟨1, _⟩ => show win0_2.index t (1 : Fin 2) * 256 + 1 * b.val = b.val; omega

/-- Window 3's block is its whole array at every point: its index map is constantly the first block. -/
theorem blk_3 (c : Dev nD) (t : Fin cfg0.N) (a : Fin 1) (b : Fin 256) :
    iblk0 V c 3 t (ix2 a b) = V c main_v36 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v36 (((cfg0.win 3).blk t).view.emb (ix2 a b)) = V c main_v36 (ix2 a b)
  refine congrArg (V c main_v36) ?_
  funext d; apply Fin.ext
  match d with
  | ⟨0, _⟩ => show win0_3.index t (0 : Fin 2) * 1 + 1 * a.val = a.val; omega
  | ⟨1, _⟩ => show win0_3.index t (1 : Fin 2) * 256 + 1 * b.val = b.val; omega

/-- Window 4's block is its whole array at every point: its index map is constantly the first block. -/
theorem blk_4 (c : Dev nD) (t : Fin cfg0.N) (a : Fin 1) (b : Fin 256) :
    iblk0 V c 4 t (ix2 a b) = V c main_v37 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v37 (((cfg0.win 4).blk t).view.emb (ix2 a b)) = V c main_v37 (ix2 a b)
  refine congrArg (V c main_v37) ?_
  funext d; apply Fin.ext
  match d with
  | ⟨0, _⟩ => show win0_4.index t (0 : Fin 2) * 1 + 1 * a.val = a.val; omega
  | ⟨1, _⟩ => show win0_4.index t (1 : Fin 2) * 256 + 1 * b.val = b.val; omega

/-- Window 5's block is its whole array at every point: its index map is constantly the first block. -/
theorem blk_5 (c : Dev nD) (t : Fin cfg0.N) (a : Fin 1) (b : Fin 256) :
    iblk0 V c 5 t (ix2 a b) = V c main_v38 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v38 (((cfg0.win 5).blk t).view.emb (ix2 a b)) = V c main_v38 (ix2 a b)
  refine congrArg (V c main_v38) ?_
  funext d; apply Fin.ext
  match d with
  | ⟨0, _⟩ => show win0_5.index t (0 : Fin 2) * 1 + 1 * a.val = a.val; omega
  | ⟨1, _⟩ => show win0_5.index t (1 : Fin 2) * 256 + 1 * b.val = b.val; omega

/-- Window 6's block is its whole array at every point: its index map is constantly the first block. -/
theorem blk_6 (c : Dev nD) (t : Fin cfg0.N) (a : Fin 1) (b : Fin 256) :
    iblk0 V c 6 t (ix2 a b) = V c main_v39 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v39 (((cfg0.win 6).blk t).view.emb (ix2 a b)) = V c main_v39 (ix2 a b)
  refine congrArg (V c main_v39) ?_
  funext d; apply Fin.ext
  match d with
  | ⟨0, _⟩ => show win0_6.index t (0 : Fin 2) * 1 + 1 * a.val = a.val; omega
  | ⟨1, _⟩ => show win0_6.index t (1 : Fin 2) * 256 + 1 * b.val = b.val; omega

/-- Window 7's block is its whole array at every point: its index map is constantly the first block. -/
theorem blk_7 (c : Dev nD) (t : Fin cfg0.N) (a : Fin 1) (b : Fin 256) :
    iblk0 V c 7 t (ix2 a b) = V c main_v40 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v40 (((cfg0.win 7).blk t).view.emb (ix2 a b)) = V c main_v40 (ix2 a b)
  refine congrArg (V c main_v40) ?_
  funext d; apply Fin.ext
  match d with
  | ⟨0, _⟩ => show win0_7.index t (0 : Fin 2) * 1 + 1 * a.val = a.val; omega
  | ⟨1, _⟩ => show win0_7.index t (1 : Fin 2) * 256 + 1 * b.val = b.val; omega

/-- Window 8's block is its whole array at every point: its index map is constantly the first block. -/
theorem blk_8 (c : Dev nD) (t : Fin cfg0.N) (a : Fin 256) (b : Fin 256) :
    iblk0 V c 8 t (ix2 a b) = V c main_v30 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v30 (((cfg0.win 8).blk t).view.emb (ix2 a b)) = V c main_v30 (ix2 a b)
  refine congrArg (V c main_v30) ?_
  funext d; apply Fin.ext
  match d with
  | ⟨0, _⟩ => show win0_8.index t (0 : Fin 2) * 256 + 1 * a.val = a.val; omega
  | ⟨1, _⟩ => show win0_8.index t (1 : Fin 2) * 256 + 1 * b.val = b.val; omega

/-- Window 9's block is its whole array at every point: its index map is constantly the first block. -/
theorem blk_9 (c : Dev nD) (t : Fin cfg0.N) (a : Fin 1) (b : Fin 256) :
    iblk0 V c 9 t (ix2 a b) = V c main_v41 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v41 (((cfg0.win 9).blk t).view.emb (ix2 a b)) = V c main_v41 (ix2 a b)
  refine congrArg (V c main_v41) ?_
  funext d; apply Fin.ext
  match d with
  | ⟨0, _⟩ => show win0_9.index t (0 : Fin 2) * 1 + 1 * a.val = a.val; omega
  | ⟨1, _⟩ => show win0_9.index t (1 : Fin 2) * 256 + 1 * b.val = b.val; omega

/-- Window 10's block is its whole array at every point: its index map is constantly the first block. -/
theorem blk_10 (c : Dev nD) (t : Fin cfg0.N) (a : Fin 1) (b : Fin 256) :
    iblk0 V c 10 t (ix2 a b) = V c main_v42 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v42 (((cfg0.win 10).blk t).view.emb (ix2 a b)) = V c main_v42 (ix2 a b)
  refine congrArg (V c main_v42) ?_
  funext d; apply Fin.ext
  match d with
  | ⟨0, _⟩ => show win0_10.index t (0 : Fin 2) * 1 + 1 * a.val = a.val; omega
  | ⟨1, _⟩ => show win0_10.index t (1 : Fin 2) * 256 + 1 * b.val = b.val; omega

/-- WHAT POINT `t` WRITES BACK is block `t` of `layerOut`: the body's payload at row `p`, column `q` of the block is the
    row-wise MLP of row `p` of the staged input block, which is row `2000·t + p` of the array. -/
theorem flushed_eq (c : Dev nD) (t : Fin cfg0.N) :
    (dat0 V c).flushed 11 t = ((cfg0.win 11).blk t).view.read (Elt Ideal) (layerOut V c) := by
  show (cfg0.win 11).cut (grid0.coords t) ((dat0 V c).after 11 t) = _
  rw [after0_11]
  unfold out0_11
  rw [View.canon_unit_zero hz]
  simp only [View.ld_unit_zero (S := S2000x256) hz, View.ld_unit_zero (S := S256x256) hz, View.ld_unit_zero (S := S1x256) hz]
  obtain ⟨e0a, e0b, e11b, e1a, e1b, e2a, e2b, e3a, e3b, e4a, e4b, e5a, e5b, e6a, e6b, e7a, e7b, e8a, e8b, e9a, e9b, e10a, e10b, hle⟩ := idx_facts t
  funext j
  obtain ⟨p, q, rfl⟩ : ∃ (p : Fin 2000) (q : Fin 256), j = ix2 p q := ⟨j 0, j 1, eq_ix2 j⟩
  have hrow : win0_11.index t (0 : Fin 2) * 2000 + p.val < 50000 := by have := p.isLt; omega
  have hemb : ((cfg0.win 11).blk t).view.emb (ix2 p q)
      = ix2 (⟨win0_11.index t (0 : Fin 2) * 2000 + p.val, hrow⟩ : Fin 50000) q := by
    funext d; apply Fin.ext
    match d with
    | ⟨0, _⟩ => show win0_11.index t (0 : Fin 2) * 2000 + 1 * p.val = win0_11.index t (0 : Fin 2) * 2000 + p.val; omega
    | ⟨1, _⟩ => show win0_11.index t (1 : Fin 2) * 256 + 1 * q.val = q.val; omega
  show k0_pay1 (F := Ideal) (k0_pay2 (F := Ideal) (iblk0 V c 0 t) (iblk0 V c 1 t) (iblk0 V c 2 t) (iblk0 V c 3 t) (iblk0 V c 4 t) (iblk0 V c 5 t) (iblk0 V c 6 t) (iblk0 V c 7 t)) (iblk0 V c 8 t) (iblk0 V c 9 t) (iblk0 V c 10 t) (ix2 p q)
    = layerOut V c (((cfg0.win 11).blk t).view.emb (ix2 p q))
  rw [hemb]
  refine (mlp_block (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  unfold layerOut
  simp only [blk_0 V c t p _ ⟨win0_11.index t (0 : Fin 2) * 2000 + p.val, hrow⟩ rfl, blk_1 V c t, blk_2 V c t, blk_3 V c t, blk_4 V c t,
    blk_5 V c t, blk_6 V c t, blk_7 V c t, blk_8 V c t, blk_9 V c t, blk_10 V c t]

/-- An index of the array is in point `t`'s block iff each coordinate is in the block's range on its axis. -/
theorem mem_blk (t : Fin cfg0.N) (i : S50000x256.Idx) :
    i ∈ ((cfg0.win 11).blk t).view.set ↔ ∀ a : Fin 2, win0_11.index t a * S2000x256.size a ≤ (i a).val ∧ (i a).val < win0_11.index t a * S2000x256.size a + S2000x256.size a := by
  show i ∈ ((View.whole main_v43).slice (win0_11.rect t)).set ↔ _
  rw [View.set_slice_whole, Rect.mem_set_unit]
  exact Iff.rfl

/-- Every row of the array lies in the block of the point whose index is the row divided by 2000. -/
theorem cover (i : S50000x256.Idx) :
    ∃ t : Fin cfg0.N, (cfg0.win 11).flush t = true ∧ i ∈ ((cfg0.win 11).blk t).view.set := by
  have hi0 : (i 0).val < 50000 := (i 0).isLt
  have hi1 : (i 1).val < 256 := (i 1).isLt
  obtain ⟨t, ht⟩ := idx_onto ⟨(i 0).val / 2000, by omega⟩
  have q0 : win0_11.index t (0 : Fin 2) = (i 0).val / 2000 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 256 ≤ (i 1).val ∧ (i 1).val < win0_11.index t (1 : Fin 2) * 256 + 256; omega

/-- THE OUTPUT ARRAY after the region is `layerOut`. -/
theorem out_eq (c : Dev nD) : (dat0 V c).arrAt 11 cfg0.N = layerOut V c :=
  (dat0 V c).arrAt_eq_of_cover 11 (layerOut V c) (fun t _ => flushed_eq V c t) (cover)

/-- THE REGION COMPUTES THE REFERENCE'S LAYER.  If, when the region is entered, its input array holds `z`, its two
    weight windows `w1`, `w2`, its vector windows the length-256 vectors `b1, g, be, mu, var, b2` laid as [1,256] rows,
    and its slope windows the scalars `a1`, `a2` spread over a [1,256] row, then the array it leaves is the reference's
    MLP of `z` with those parameters: both are the row-wise function `mlpRow` of the same rows. -/
theorem layer_eq (c : Dev nD)
    (z : (⟨Cert.ReferenceIdeal.S50000x256, .f32⟩ : BufTy).Contents (Elt Ideal))
    (w1 : (⟨Cert.ReferenceIdeal.S256x256, .f32⟩ : BufTy).Contents (Elt Ideal))
    (b1 : (⟨Cert.ReferenceIdeal.S256, .f32⟩ : BufTy).Contents (Elt Ideal))
    (a1 : (⟨Cert.ReferenceIdeal.S_, .f32⟩ : BufTy).Contents (Elt Ideal))
    (g be mu var : (⟨Cert.ReferenceIdeal.S256, .f32⟩ : BufTy).Contents (Elt Ideal))
    (w2 : (⟨Cert.ReferenceIdeal.S256x256, .f32⟩ : BufTy).Contents (Elt Ideal))
    (b2 : (⟨Cert.ReferenceIdeal.S256, .f32⟩ : BufTy).Contents (Elt Ideal))
    (a2 : (⟨Cert.ReferenceIdeal.S_, .f32⟩ : BufTy).Contents (Elt Ideal))
    (hz : V c main_v14 = z) (hw1 : V c main_v16 = w1)
    (hb1 : V c main_v35 = shapeCast S1x256 b1 shapeCasts_S256_S1x256)
    (ha1 : V c main_v36 = broadcastInDim S1x256 ![] bcast_S_S1x256 a1)
    (hg : V c main_v37 = shapeCast S1x256 g shapeCasts_S256_S1x256)
    (hbe : V c main_v38 = shapeCast S1x256 be shapeCasts_S256_S1x256)
    (hmu : V c main_v39 = shapeCast S1x256 mu shapeCasts_S256_S1x256)
    (hvar : V c main_v40 = shapeCast S1x256 var shapeCasts_S256_S1x256)
    (hw2 : V c main_v30 = w2)
    (hb2 : V c main_v41 = shapeCast S1x256 b2 shapeCasts_S256_S1x256)
    (ha2 : V c main_v42 = broadcastInDim S1x256 ![] bcast_S_S1x256 a2) :
    layerOut V c = refMlp (F := Ideal) z w1 b1 a1 g be mu var w2 b2 a2 := by
  funext i
  obtain ⟨r, q, rfl⟩ : ∃ (r : Fin 50000) (q : Fin 256), i = ix2 r q := ⟨i 0, i 1, eq_ix2 i⟩
  rw [refMlp_apply]
  unfold layerOut
  rw [hz, hw1, hb1, ha1, hg, hbe, hmu, hvar, hw2, hb2, ha2]
  have hrow : ∀ (v : (⟨Cert.ReferenceIdeal.S256, .f32⟩ : BufTy).Contents (Elt Ideal)) (j : Fin 256),
      shapeCast S1x256 v shapeCasts_S256_S1x256 (ix2 (0 : Fin 1) j) = v (ix1 j) := fun v j => rowOfVec256_apply v j
  have hfill : ∀ (a : (⟨Cert.ReferenceIdeal.S_, .f32⟩ : BufTy).Contents (Elt Ideal)) (j : Fin 256),
      broadcastInDim S1x256 ![] bcast_S_S1x256 a (ix2 (0 : Fin 1) j) = a ix0 := fun a j => rowOfScalar_apply a j
  simp only [hrow, hfill]

end Cert.KernelIdeal.GinRegion0

end
-- ==== Proof.Region1.lean ====
/-
  Region 1 (one GIN layer's MLP, 25 blocks of 2000 rows): the array it leaves, index by index.

  Grid point `t` stages rows `2000·t … 2000·t + 1999` of the aggregated features (window 0), the layer's parameters
  whole (windows 1–10: their index maps are constantly the first block), runs the body on them and writes the result
  back to the same rows of the output array (window 11).  The body's result at row `p` of the block depends on row `p`
  of the staged block only, so what point `t` writes back is the block of ONE whole-array function `layerOut`: at row
  `r`, the row-wise MLP of row `r` of the input.  The 25 blocks tile the 50000 rows, so after the region the output array
  IS `layerOut`.  Everything is stated at the parameter `V`, the buffers' contents when the region is entered.
-/
import proofs.«129231_j12738873000058_1_alg».proof.Proof.Gen.KernelIdeal.Frame
import proofs.«129231_j12738873000058_1_alg».proof.Proof.KernelBlock
import proofs.«129231_j12738873000058_1_alg».proof.Proof.KernelLayout
import proofs.«129231_j12738873000058_1_alg».proof.Proof.RefLayers
import Idealize.ShloMosaic.Lib.Pipeline.Value
import Idealize.ShloMosaic.Lib.ValueIdx

set_option maxRecDepth 16384

noncomputable section

namespace Cert.KernelIdeal.GinRegion1

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region: at row `i 0`, column `i 1`, the layer's row-wise MLP of that row of
    the aggregated features, with the parameters as the region finds them. -/
def layerOut (c : Dev nD) : S50000x256.Idx → EReal := fun i =>
  mlpRow (fun k => V c main_v54 (ix2 (⟨(i 0).val, (i 0).isLt⟩ : Fin 50000) k))
    (fun k j => V c main_v56 (ix2 k j)) (fun j => V c main_v75 (ix2 (0 : Fin 1) j)) (fun j => V c main_v76 (ix2 (0 : Fin 1) j))
    (fun j => V c main_v77 (ix2 (0 : Fin 1) j)) (fun j => V c main_v78 (ix2 (0 : Fin 1) j)) (fun j => V c main_v79 (ix2 (0 : Fin 1) j))
    (fun j => V c main_v80 (ix2 (0 : Fin 1) j)) (fun k j => V c main_v70 (ix2 k j)) (fun j => V c main_v81 (ix2 (0 : Fin 1) j))
    (fun j => V c main_v82 (ix2 (0 : Fin 1) j)) (⟨(i 1).val, (i 1).isLt⟩ : Fin 256)

/-- The printed index maps, decided over the 25 grid points: the input rows move with the output rows, block `t` at
    point `t`; every parameter window stays at its first block. -/
theorem idx_facts : ∀ t : Fin cfg1.N,
    win1_0.index t (0 : Fin 2) = win1_11.index t (0 : Fin 2) ∧ win1_0.index t (1 : Fin 2) = 0
    ∧ win1_11.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) ≤ 24 :=
  (by decide +kernel : ∀ t : Fin grid1.N, _)

/-- Every one of the 25 row blocks is some point's. -/
theorem idx_onto : ∀ q0 : Fin 25, ∃ t : Fin cfg1.N, win1_11.index t = ![q0.val, 0] :=
  (by decide +kernel : ∀ q0 : Fin 25, ∃ t : Fin grid1.N, win1_11.index t = ![q0.val, 0])

/-- Row `p` of the block of aggregated features staged at point `t` is row `2000·t + p` of the array, where `t` is the
    output window's block index too. -/
theorem blk_0 (c : Dev nD) (t : Fin cfg1.N) (p : Fin 2000) (k : Fin 256) (r : Fin 50000)
    (hr : r.val = win1_11.index t (0 : Fin 2) * 2000 + p.val) :
    iblk1 V c 0 t (ix2 p k) = V c main_v54 (ix2 r k) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v54 (((cfg1.win 0).blk t).view.emb (ix2 p k)) = V c main_v54 (ix2 r k)
  refine congrArg (V c main_v54) ?_
  funext d; apply Fin.ext
  match d with
  | ⟨0, _⟩ => show win1_0.index t (0 : Fin 2) * 2000 + 1 * p.val = r.val; omega
  | ⟨1, _⟩ => show win1_0.index t (1 : Fin 2) * 256 + 1 * k.val = k.val; omega

/-- Window 1's block is its whole array at every point: its index map is constantly the first block. -/
theorem blk_1 (c : Dev nD) (t : Fin cfg1.N) (a : Fin 256) (b : Fin 256) :
    iblk1 V c 1 t (ix2 a b) = V c main_v56 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v56 (((cfg1.win 1).blk t).view.emb (ix2 a b)) = V c main_v56 (ix2 a b)
  refine congrArg (V c main_v56) ?_
  funext d; apply Fin.ext
  match d with
  | ⟨0, _⟩ => show win1_1.index t (0 : Fin 2) * 256 + 1 * a.val = a.val; omega
  | ⟨1, _⟩ => show win1_1.index t (1 : Fin 2) * 256 + 1 * b.val = b.val; omega

/-- Window 2's block is its whole array at every point: its index map is constantly the first block. -/
theorem blk_2 (c : Dev nD) (t : Fin cfg1.N) (a : Fin 1) (b : Fin 256) :
    iblk1 V c 2 t (ix2 a b) = V c main_v75 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v75 (((cfg1.win 2).blk t).view.emb (ix2 a b)) = V c main_v75 (ix2 a b)
  refine congrArg (V c main_v75) ?_
  funext d; apply Fin.ext
  match d with
  | ⟨0, _⟩ => show win1_2.index t (0 : Fin 2) * 1 + 1 * a.val = a.val; omega
  | ⟨1, _⟩ => show win1_2.index t (1 : Fin 2) * 256 + 1 * b.val = b.val; omega

/-- Window 3's block is its whole array at every point: its index map is constantly the first block. -/
theorem blk_3 (c : Dev nD) (t : Fin cfg1.N) (a : Fin 1) (b : Fin 256) :
    iblk1 V c 3 t (ix2 a b) = V c main_v76 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v76 (((cfg1.win 3).blk t).view.emb (ix2 a b)) = V c main_v76 (ix2 a b)
  refine congrArg (V c main_v76) ?_
  funext d; apply Fin.ext
  match d with
  | ⟨0, _⟩ => show win1_3.index t (0 : Fin 2) * 1 + 1 * a.val = a.val; omega
  | ⟨1, _⟩ => show win1_3.index t (1 : Fin 2) * 256 + 1 * b.val = b.val; omega

/-- Window 4's block is its whole array at every point: its index map is constantly the first block. -/
theorem blk_4 (c : Dev nD) (t : Fin cfg1.N) (a : Fin 1) (b : Fin 256) :
    iblk1 V c 4 t (ix2 a b) = V c main_v77 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v77 (((cfg1.win 4).blk t).view.emb (ix2 a b)) = V c main_v77 (ix2 a b)
  refine congrArg (V c main_v77) ?_
  funext d; apply Fin.ext
  match d with
  | ⟨0, _⟩ => show win1_4.index t (0 : Fin 2) * 1 + 1 * a.val = a.val; omega
  | ⟨1, _⟩ => show win1_4.index t (1 : Fin 2) * 256 + 1 * b.val = b.val; omega

/-- Window 5's block is its whole array at every point: its index map is constantly the first block. -/
theorem blk_5 (c : Dev nD) (t : Fin cfg1.N) (a : Fin 1) (b : Fin 256) :
    iblk1 V c 5 t (ix2 a b) = V c main_v78 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v78 (((cfg1.win 5).blk t).view.emb (ix2 a b)) = V c main_v78 (ix2 a b)
  refine congrArg (V c main_v78) ?_
  funext d; apply Fin.ext
  match d with
  | ⟨0, _⟩ => show win1_5.index t (0 : Fin 2) * 1 + 1 * a.val = a.val; omega
  | ⟨1, _⟩ => show win1_5.index t (1 : Fin 2) * 256 + 1 * b.val = b.val; omega

/-- Window 6's block is its whole array at every point: its index map is constantly the first block. -/
theorem blk_6 (c : Dev nD) (t : Fin cfg1.N) (a : Fin 1) (b : Fin 256) :
    iblk1 V c 6 t (ix2 a b) = V c main_v79 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v79 (((cfg1.win 6).blk t).view.emb (ix2 a b)) = V c main_v79 (ix2 a b)
  refine congrArg (V c main_v79) ?_
  funext d; apply Fin.ext
  match d with
  | ⟨0, _⟩ => show win1_6.index t (0 : Fin 2) * 1 + 1 * a.val = a.val; omega
  | ⟨1, _⟩ => show win1_6.index t (1 : Fin 2) * 256 + 1 * b.val = b.val; omega

/-- Window 7's block is its whole array at every point: its index map is constantly the first block. -/
theorem blk_7 (c : Dev nD) (t : Fin cfg1.N) (a : Fin 1) (b : Fin 256) :
    iblk1 V c 7 t (ix2 a b) = V c main_v80 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v80 (((cfg1.win 7).blk t).view.emb (ix2 a b)) = V c main_v80 (ix2 a b)
  refine congrArg (V c main_v80) ?_
  funext d; apply Fin.ext
  match d with
  | ⟨0, _⟩ => show win1_7.index t (0 : Fin 2) * 1 + 1 * a.val = a.val; omega
  | ⟨1, _⟩ => show win1_7.index t (1 : Fin 2) * 256 + 1 * b.val = b.val; omega

/-- Window 8's block is its whole array at every point: its index map is constantly the first block. -/
theorem blk_8 (c : Dev nD) (t : Fin cfg1.N) (a : Fin 256) (b : Fin 256) :
    iblk1 V c 8 t (ix2 a b) = V c main_v70 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v70 (((cfg1.win 8).blk t).view.emb (ix2 a b)) = V c main_v70 (ix2 a b)
  refine congrArg (V c main_v70) ?_
  funext d; apply Fin.ext
  match d with
  | ⟨0, _⟩ => show win1_8.index t (0 : Fin 2) * 256 + 1 * a.val = a.val; omega
  | ⟨1, _⟩ => show win1_8.index t (1 : Fin 2) * 256 + 1 * b.val = b.val; omega

/-- Window 9's block is its whole array at every point: its index map is constantly the first block. -/
theorem blk_9 (c : Dev nD) (t : Fin cfg1.N) (a : Fin 1) (b : Fin 256) :
    iblk1 V c 9 t (ix2 a b) = V c main_v81 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v81 (((cfg1.win 9).blk t).view.emb (ix2 a b)) = V c main_v81 (ix2 a b)
  refine congrArg (V c main_v81) ?_
  funext d; apply Fin.ext
  match d with
  | ⟨0, _⟩ => show win1_9.index t (0 : Fin 2) * 1 + 1 * a.val = a.val; omega
  | ⟨1, _⟩ => show win1_9.index t (1 : Fin 2) * 256 + 1 * b.val = b.val; omega

/-- Window 10's block is its whole array at every point: its index map is constantly the first block. -/
theorem blk_10 (c : Dev nD) (t : Fin cfg1.N) (a : Fin 1) (b : Fin 256) :
    iblk1 V c 10 t (ix2 a b) = V c main_v82 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v82 (((cfg1.win 10).blk t).view.emb (ix2 a b)) = V c main_v82 (ix2 a b)
  refine congrArg (V c main_v82) ?_
  funext d; apply Fin.ext
  match d with
  | ⟨0, _⟩ => show win1_10.index t (0 : Fin 2) * 1 + 1 * a.val = a.val; omega
  | ⟨1, _⟩ => show win1_10.index t (1 : Fin 2) * 256 + 1 * b.val = b.val; omega

/-- WHAT POINT `t` WRITES BACK is block `t` of `layerOut`: the body's payload at row `p`, column `q` of the block is the
    row-wise MLP of row `p` of the staged input block, which is row `2000·t + p` of the array. -/
theorem flushed_eq (c : Dev nD) (t : Fin cfg1.N) :
    (dat1 V c).flushed 11 t = ((cfg1.win 11).blk t).view.read (Elt Ideal) (layerOut V c) := by
  show (cfg1.win 11).cut (grid1.coords t) ((dat1 V c).after 11 t) = _
  rw [after1_11]
  unfold out1_11
  rw [View.canon_unit_zero hz]
  simp only [View.ld_unit_zero (S := S2000x256) hz, View.ld_unit_zero (S := S256x256) hz, View.ld_unit_zero (S := S1x256) hz]
  obtain ⟨e0a, e0b, e11b, e1a, e1b, e2a, e2b, e3a, e3b, e4a, e4b, e5a, e5b, e6a, e6b, e7a, e7b, e8a, e8b, e9a, e9b, e10a, e10b, hle⟩ := idx_facts t
  funext j
  obtain ⟨p, q, rfl⟩ : ∃ (p : Fin 2000) (q : Fin 256), j = ix2 p q := ⟨j 0, j 1, eq_ix2 j⟩
  have hrow : win1_11.index t (0 : Fin 2) * 2000 + p.val < 50000 := by have := p.isLt; omega
  have hemb : ((cfg1.win 11).blk t).view.emb (ix2 p q)
      = ix2 (⟨win1_11.index t (0 : Fin 2) * 2000 + p.val, hrow⟩ : Fin 50000) q := by
    funext d; apply Fin.ext
    match d with
    | ⟨0, _⟩ => show win1_11.index t (0 : Fin 2) * 2000 + 1 * p.val = win1_11.index t (0 : Fin 2) * 2000 + p.val; omega
    | ⟨1, _⟩ => show win1_11.index t (1 : Fin 2) * 256 + 1 * q.val = q.val; omega
  show k1_pay1 (F := Ideal) (k1_pay2 (F := Ideal) (iblk1 V c 0 t) (iblk1 V c 1 t) (iblk1 V c 2 t) (iblk1 V c 3 t) (iblk1 V c 4 t) (iblk1 V c 5 t) (iblk1 V c 6 t) (iblk1 V c 7 t)) (iblk1 V c 8 t) (iblk1 V c 9 t) (iblk1 V c 10 t) (ix2 p q)
    = layerOut V c (((cfg1.win 11).blk t).view.emb (ix2 p q))
  rw [hemb]
  rw [pay1_1, pay2_1]
  refine (mlp_block (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p q).trans ?_
  unfold layerOut
  simp only [blk_0 V c t p _ ⟨win1_11.index t (0 : Fin 2) * 2000 + p.val, hrow⟩ rfl, blk_1 V c t, blk_2 V c t, blk_3 V c t, blk_4 V c t,
    blk_5 V c t, blk_6 V c t, blk_7 V c t, blk_8 V c t, blk_9 V c t, blk_10 V c t]

/-- An index of the array is in point `t`'s block iff each coordinate is in the block's range on its axis. -/
theorem mem_blk (t : Fin cfg1.N) (i : S50000x256.Idx) :
    i ∈ ((cfg1.win 11).blk t).view.set ↔ ∀ a : Fin 2, win1_11.index t a * S2000x256.size a ≤ (i a).val ∧ (i a).val < win1_11.index t a * S2000x256.size a + S2000x256.size a := by
  show i ∈ ((View.whole main_v83).slice (win1_11.rect t)).set ↔ _
  rw [View.set_slice_whole, Rect.mem_set_unit]
  exact Iff.rfl

/-- Every row of the array lies in the block of the point whose index is the row divided by 2000. -/
theorem cover (i : S50000x256.Idx) :
    ∃ t : Fin cfg1.N, (cfg1.win 11).flush t = true ∧ i ∈ ((cfg1.win 11).blk t).view.set := by
  have hi0 : (i 0).val < 50000 := (i 0).isLt
  have hi1 : (i 1).val < 256 := (i 1).isLt
  obtain ⟨t, ht⟩ := idx_onto ⟨(i 0).val / 2000, by omega⟩
  have q0 : win1_11.index t (0 : Fin 2) = (i 0).val / 2000 := congrFun ht 0
  have q1 : win1_11.index t (1 : Fin 2) = 0 := congrFun ht 1
  refine ⟨t, flush1_11 t, ?_⟩
  rw [mem_blk]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 256 ≤ (i 1).val ∧ (i 1).val < win1_11.index t (1 : Fin 2) * 256 + 256; omega

/-- THE OUTPUT ARRAY after the region is `layerOut`. -/
theorem out_eq (c : Dev nD) : (dat1 V c).arrAt 11 cfg1.N = layerOut V c :=
  (dat1 V c).arrAt_eq_of_cover 11 (layerOut V c) (fun t _ => flushed_eq V c t) (cover)

/-- THE REGION COMPUTES THE REFERENCE'S LAYER.  If, when the region is entered, its input array holds `z`, its two
    weight windows `w1`, `w2`, its vector windows the length-256 vectors `b1, g, be, mu, var, b2` laid as [1,256] rows,
    and its slope windows the scalars `a1`, `a2` spread over a [1,256] row, then the array it leaves is the reference's
    MLP of `z` with those parameters: both are the row-wise function `mlpRow` of the same rows. -/
theorem layer_eq (c : Dev nD)
    (z : (⟨Cert.ReferenceIdeal.S50000x256, .f32⟩ : BufTy).Contents (Elt Ideal))
    (w1 : (⟨Cert.ReferenceIdeal.S256x256, .f32⟩ : BufTy).Contents (Elt Ideal))
    (b1 : (⟨Cert.ReferenceIdeal.S256, .f32⟩ : BufTy).Contents (Elt Ideal))
    (a1 : (⟨Cert.ReferenceIdeal.S_, .f32⟩ : BufTy).Contents (Elt Ideal))
    (g be mu var : (⟨Cert.ReferenceIdeal.S256, .f32⟩ : BufTy).Contents (Elt Ideal))
    (w2 : (⟨Cert.ReferenceIdeal.S256x256, .f32⟩ : BufTy).Contents (Elt Ideal))
    (b2 : (⟨Cert.ReferenceIdeal.S256, .f32⟩ : BufTy).Contents (Elt Ideal))
    (a2 : (⟨Cert.ReferenceIdeal.S_, .f32⟩ : BufTy).Contents (Elt Ideal))
    (hz : V c main_v54 = z) (hw1 : V c main_v56 = w1)
    (hb1 : V c main_v75 = shapeCast S1x256 b1 shapeCasts_S256_S1x256)
    (ha1 : V c main_v76 = broadcastInDim S1x256 ![] bcast_S_S1x256 a1)
    (hg : V c main_v77 = shapeCast S1x256 g shapeCasts_S256_S1x256)
    (hbe : V c main_v78 = shapeCast S1x256 be shapeCasts_S256_S1x256)
    (hmu : V c main_v79 = shapeCast S1x256 mu shapeCasts_S256_S1x256)
    (hvar : V c main_v80 = shapeCast S1x256 var shapeCasts_S256_S1x256)
    (hw2 : V c main_v70 = w2)
    (hb2 : V c main_v81 = shapeCast S1x256 b2 shapeCasts_S256_S1x256)
    (ha2 : V c main_v82 = broadcastInDim S1x256 ![] bcast_S_S1x256 a2) :
    layerOut V c = refMlp (F := Ideal) z w1 b1 a1 g be mu var w2 b2 a2 := by
  funext i
  obtain ⟨r, q, rfl⟩ : ∃ (r : Fin 50000) (q : Fin 256), i = ix2 r q := ⟨i 0, i 1, eq_ix2 i⟩
  rw [refMlp_apply]
  unfold layerOut
  rw [hz, hw1, hb1, ha1, hg, hbe, hmu, hvar, hw2, hb2, ha2]
  have hrow : ∀ (v : (⟨Cert.ReferenceIdeal.S256, .f32⟩ : BufTy).Contents (Elt Ideal)) (j : Fin 256),
      shapeCast S1x256 v shapeCasts_S256_S1x256 (ix2 (0 : Fin 1) j) = v (ix1 j) := fun v j => rowOfVec256_apply v j
  have hfill : ∀ (a : (⟨Cert.ReferenceIdeal.S_, .f32⟩ : BufTy).Contents (Elt Ideal)) (j : Fin 256),
      broadcastInDim S1x256 ![] bcast_S_S1x256 a (ix2 (0 : Fin 1) j) = a ix0 := fun a j => rowOfScalar_apply a j
  simp only [hrow, hfill]

end Cert.KernelIdeal.GinRegion1

end
-- ==== Proof.Region2.lean ====
/-
  Region 2 (one GIN layer's MLP, 25 blocks of 2000 rows): the array it leaves, index by index.

  Grid point `t` stages rows `2000·t … 2000·t + 1999` of the aggregated features (window 0), the layer's parameters
  whole (windows 1–10: their index maps are constantly the first block), runs the body on them and writes the result
  back to the same rows of the output array (window 11).  The body's result at row `p` of the block depends on row `p`
  of the staged block only, so what point `t` writes back is the block of ONE whole-array function `layerOut`: at row
  `r`, the row-wise MLP of row `r` of the input.  The 25 blocks tile the 50000 rows, so after the region the output array
  IS `layerOut`.  Everything is stated at the parameter `V`, the buffers' contents when the region is entered.
-/
import proofs.«129231_j12738873000058_1_alg».proof.Proof.Gen.KernelIdeal.Frame
import proofs.«129231_j12738873000058_1_alg».proof.Proof.KernelBlock
import proofs.«129231_j12738873000058_1_alg».proof.Proof.KernelLayout
import proofs.«129231_j12738873000058_1_alg».proof.Proof.RefLayers
import Idealize.ShloMosaic.Lib.Pipeline.Value
import Idealize.ShloMosaic.Lib.ValueIdx

set_option maxRecDepth 16384

noncomputable section

namespace Cert.KernelIdeal.GinRegion2

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region: at row `i 0`, column `i 1`, the layer's row-wise MLP of that row of
    the aggregated features, with the parameters as the region finds them. -/
def layerOut (c : Dev nD) : S50000x256.Idx → EReal := fun i =>
  mlpRow (fun k => V c main_v94 (ix2 (⟨(i 0).val, (i 0).isLt⟩ : Fin 50000) k))
    (fun k j => V c main_v96 (ix2 k j)) (fun j => V c main_v115 (ix2 (0 : Fin 1) j)) (fun j => V c main_v116 (ix2 (0 : Fin 1) j))
    (fun j => V c main_v117 (ix2 (0 : Fin 1) j)) (fun j => V c main_v118 (ix2 (0 : Fin 1) j)) (fun j => V c main_v119 (ix2 (0 : Fin 1) j))
    (fun j => V c main_v120 (ix2 (0 : Fin 1) j)) (fun k j => V c main_v110 (ix2 k j)) (fun j => V c main_v121 (ix2 (0 : Fin 1) j))
    (fun j => V c main_v122 (ix2 (0 : Fin 1) j)) (⟨(i 1).val, (i 1).isLt⟩ : Fin 256)

/-- The printed index maps, decided over the 25 grid points: the input rows move with the output rows, block `t` at
    point `t`; every parameter window stays at its first block. -/
theorem idx_facts : ∀ t : Fin cfg2.N,
    win2_0.index t (0 : Fin 2) = win2_11.index t (0 : Fin 2) ∧ win2_0.index t (1 : Fin 2) = 0
    ∧ win2_11.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) ≤ 24 :=
  (by decide +kernel : ∀ t : Fin grid2.N, _)

/-- Every one of the 25 row blocks is some point's. -/
theorem idx_onto : ∀ q0 : Fin 25, ∃ t : Fin cfg2.N, win2_11.index t = ![q0.val, 0] :=
  (by decide +kernel : ∀ q0 : Fin 25, ∃ t : Fin grid2.N, win2_11.index t = ![q0.val, 0])

/-- Row `p` of the block of aggregated features staged at point `t` is row `2000·t + p` of the array, where `t` is the
    output window's block index too. -/
theorem blk_0 (c : Dev nD) (t : Fin cfg2.N) (p : Fin 2000) (k : Fin 256) (r : Fin 50000)
    (hr : r.val = win2_11.index t (0 : Fin 2) * 2000 + p.val) :
    iblk2 V c 0 t (ix2 p k) = V c main_v94 (ix2 r k) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v94 (((cfg2.win 0).blk t).view.emb (ix2 p k)) = V c main_v94 (ix2 r k)
  refine congrArg (V c main_v94) ?_
  funext d; apply Fin.ext
  match d with
  | ⟨0, _⟩ => show win2_0.index t (0 : Fin 2) * 2000 + 1 * p.val = r.val; omega
  | ⟨1, _⟩ => show win2_0.index t (1 : Fin 2) * 256 + 1 * k.val = k.val; omega

/-- Window 1's block is its whole array at every point: its index map is constantly the first block. -/
theorem blk_1 (c : Dev nD) (t : Fin cfg2.N) (a : Fin 256) (b : Fin 256) :
    iblk2 V c 1 t (ix2 a b) = V c main_v96 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v96 (((cfg2.win 1).blk t).view.emb (ix2 a b)) = V c main_v96 (ix2 a b)
  refine congrArg (V c main_v96) ?_
  funext d; apply Fin.ext
  match d with
  | ⟨0, _⟩ => show win2_1.index t (0 : Fin 2) * 256 + 1 * a.val = a.val; omega
  | ⟨1, _⟩ => show win2_1.index t (1 : Fin 2) * 256 + 1 * b.val = b.val; omega

/-- Window 2's block is its whole array at every point: its index map is constantly the first block. -/
theorem blk_2 (c : Dev nD) (t : Fin cfg2.N) (a : Fin 1) (b : Fin 256) :
    iblk2 V c 2 t (ix2 a b) = V c main_v115 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v115 (((cfg2.win 2).blk t).view.emb (ix2 a b)) = V c main_v115 (ix2 a b)
  refine congrArg (V c main_v115) ?_
  funext d; apply Fin.ext
  match d with
  | ⟨0, _⟩ => show win2_2.index t (0 : Fin 2) * 1 + 1 * a.val = a.val; omega
  | ⟨1, _⟩ => show win2_2.index t (1 : Fin 2) * 256 + 1 * b.val = b.val; omega

/-- Window 3's block is its whole array at every point: its index map is constantly the first block. -/
theorem blk_3 (c : Dev nD) (t : Fin cfg2.N) (a : Fin 1) (b : Fin 256) :
    iblk2 V c 3 t (ix2 a b) = V c main_v116 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v116 (((cfg2.win 3).blk t).view.emb (ix2 a b)) = V c main_v116 (ix2 a b)
  refine congrArg (V c main_v116) ?_
  funext d; apply Fin.ext
  match d with
  | ⟨0, _⟩ => show win2_3.index t (0 : Fin 2) * 1 + 1 * a.val = a.val; omega
  | ⟨1, _⟩ => show win2_3.index t (1 : Fin 2) * 256 + 1 * b.val = b.val; omega

/-- Window 4's block is its whole array at every point: its index map is constantly the first block. -/
theorem blk_4 (c : Dev nD) (t : Fin cfg2.N) (a : Fin 1) (b : Fin 256) :
    iblk2 V c 4 t (ix2 a b) = V c main_v117 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v117 (((cfg2.win 4).blk t).view.emb (ix2 a b)) = V c main_v117 (ix2 a b)
  refine congrArg (V c main_v117) ?_
  funext d; apply Fin.ext
  match d with
  | ⟨0, _⟩ => show win2_4.index t (0 : Fin 2) * 1 + 1 * a.val = a.val; omega
  | ⟨1, _⟩ => show win2_4.index t (1 : Fin 2) * 256 + 1 * b.val = b.val; omega

/-- Window 5's block is its whole array at every point: its index map is constantly the first block. -/
theorem blk_5 (c : Dev nD) (t : Fin cfg2.N) (a : Fin 1) (b : Fin 256) :
    iblk2 V c 5 t (ix2 a b) = V c main_v118 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v118 (((cfg2.win 5).blk t).view.emb (ix2 a b)) = V c main_v118 (ix2 a b)
  refine congrArg (V c main_v118) ?_
  funext d; apply Fin.ext
  match d with
  | ⟨0, _⟩ => show win2_5.index t (0 : Fin 2) * 1 + 1 * a.val = a.val; omega
  | ⟨1, _⟩ => show win2_5.index t (1 : Fin 2) * 256 + 1 * b.val = b.val; omega

/-- Window 6's block is its whole array at every point: its index map is constantly the first block. -/
theorem blk_6 (c : Dev nD) (t : Fin cfg2.N) (a : Fin 1) (b : Fin 256) :
    iblk2 V c 6 t (ix2 a b) = V c main_v119 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v119 (((cfg2.win 6).blk t).view.emb (ix2 a b)) = V c main_v119 (ix2 a b)
  refine congrArg (V c main_v119) ?_
  funext d; apply Fin.ext
  match d with
  | ⟨0, _⟩ => show win2_6.index t (0 : Fin 2) * 1 + 1 * a.val = a.val; omega
  | ⟨1, _⟩ => show win2_6.index t (1 : Fin 2) * 256 + 1 * b.val = b.val; omega

/-- Window 7's block is its whole array at every point: its index map is constantly the first block. -/
theorem blk_7 (c : Dev nD) (t : Fin cfg2.N) (a : Fin 1) (b : Fin 256) :
    iblk2 V c 7 t (ix2 a b) = V c main_v120 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v120 (((cfg2.win 7).blk t).view.emb (ix2 a b)) = V c main_v120 (ix2 a b)
  refine congrArg (V c main_v120) ?_
  funext d; apply Fin.ext
  match d with
  | ⟨0, _⟩ => show win2_7.index t (0 : Fin 2) * 1 + 1 * a.val = a.val; omega
  | ⟨1, _⟩ => show win2_7.index t (1 : Fin 2) * 256 + 1 * b.val = b.val; omega

/-- Window 8's block is its whole array at every point: its index map is constantly the first block. -/
theorem blk_8 (c : Dev nD) (t : Fin cfg2.N) (a : Fin 256) (b : Fin 256) :
    iblk2 V c 8 t (ix2 a b) = V c main_v110 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v110 (((cfg2.win 8).blk t).view.emb (ix2 a b)) = V c main_v110 (ix2 a b)
  refine congrArg (V c main_v110) ?_
  funext d; apply Fin.ext
  match d with
  | ⟨0, _⟩ => show win2_8.index t (0 : Fin 2) * 256 + 1 * a.val = a.val; omega
  | ⟨1, _⟩ => show win2_8.index t (1 : Fin 2) * 256 + 1 * b.val = b.val; omega

/-- Window 9's block is its whole array at every point: its index map is constantly the first block. -/
theorem blk_9 (c : Dev nD) (t : Fin cfg2.N) (a : Fin 1) (b : Fin 256) :
    iblk2 V c 9 t (ix2 a b) = V c main_v121 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v121 (((cfg2.win 9).blk t).view.emb (ix2 a b)) = V c main_v121 (ix2 a b)
  refine congrArg (V c main_v121) ?_
  funext d; apply Fin.ext
  match d with
  | ⟨0, _⟩ => show win2_9.index t (0 : Fin 2) * 1 + 1 * a.val = a.val; omega
  | ⟨1, _⟩ => show win2_9.index t (1 : Fin 2) * 256 + 1 * b.val = b.val; omega

/-- Window 10's block is its whole array at every point: its index map is constantly the first block. -/
theorem blk_10 (c : Dev nD) (t : Fin cfg2.N) (a : Fin 1) (b : Fin 256) :
    iblk2 V c 10 t (ix2 a b) = V c main_v122 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v122 (((cfg2.win 10).blk t).view.emb (ix2 a b)) = V c main_v122 (ix2 a b)
  refine congrArg (V c main_v122) ?_
  funext d; apply Fin.ext
  match d with
  | ⟨0, _⟩ => show win2_10.index t (0 : Fin 2) * 1 + 1 * a.val = a.val; omega
  | ⟨1, _⟩ => show win2_10.index t (1 : Fin 2) * 256 + 1 * b.val = b.val; omega

/-- WHAT POINT `t` WRITES BACK is block `t` of `layerOut`: the body's payload at row `p`, column `q` of the block is the
    row-wise MLP of row `p` of the staged input block, which is row `2000·t + p` of the array. -/
theorem flushed_eq (c : Dev nD) (t : Fin cfg2.N) :
    (dat2 V c).flushed 11 t = ((cfg2.win 11).blk t).view.read (Elt Ideal) (layerOut V c) := by
  show (cfg2.win 11).cut (grid2.coords t) ((dat2 V c).after 11 t) = _
  rw [after2_11]
  unfold out2_11
  rw [View.canon_unit_zero hz]
  simp only [View.ld_unit_zero (S := S2000x256) hz, View.ld_unit_zero (S := S256x256) hz, View.ld_unit_zero (S := S1x256) hz]
  obtain ⟨e0a, e0b, e11b, e1a, e1b, e2a, e2b, e3a, e3b, e4a, e4b, e5a, e5b, e6a, e6b, e7a, e7b, e8a, e8b, e9a, e9b, e10a, e10b, hle⟩ := idx_facts t
  funext j
  obtain ⟨p, q, rfl⟩ : ∃ (p : Fin 2000) (q : Fin 256), j = ix2 p q := ⟨j 0, j 1, eq_ix2 j⟩
  have hrow : win2_11.index t (0 : Fin 2) * 2000 + p.val < 50000 := by have := p.isLt; omega
  have hemb : ((cfg2.win 11).blk t).view.emb (ix2 p q)
      = ix2 (⟨win2_11.index t (0 : Fin 2) * 2000 + p.val, hrow⟩ : Fin 50000) q := by
    funext d; apply Fin.ext
    match d with
    | ⟨0, _⟩ => show win2_11.index t (0 : Fin 2) * 2000 + 1 * p.val = win2_11.index t (0 : Fin 2) * 2000 + p.val; omega
    | ⟨1, _⟩ => show win2_11.index t (1 : Fin 2) * 256 + 1 * q.val = q.val; omega
  show k2_pay1 (F := Ideal) (k2_pay2 (F := Ideal) (iblk2 V c 0 t) (iblk2 V c 1 t) (iblk2 V c 2 t) (iblk2 V c 3 t) (iblk2 V c 4 t) (iblk2 V c 5 t) (iblk2 V c 6 t) (iblk2 V c 7 t)) (iblk2 V c 8 t) (iblk2 V c 9 t) (iblk2 V c 10 t) (ix2 p q)
    = layerOut V c (((cfg2.win 11).blk t).view.emb (ix2 p q))
  rw [hemb]
  rw [pay1_2, pay2_2]
  refine (mlp_block (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) p q).trans ?_
  unfold layerOut
  simp only [blk_0 V c t p _ ⟨win2_11.index t (0 : Fin 2) * 2000 + p.val, hrow⟩ rfl, blk_1 V c t, blk_2 V c t, blk_3 V c t, blk_4 V c t,
    blk_5 V c t, blk_6 V c t, blk_7 V c t, blk_8 V c t, blk_9 V c t, blk_10 V c t]

/-- An index of the array is in point `t`'s block iff each coordinate is in the block's range on its axis. -/
theorem mem_blk (t : Fin cfg2.N) (i : S50000x256.Idx) :
    i ∈ ((cfg2.win 11).blk t).view.set ↔ ∀ a : Fin 2, win2_11.index t a * S2000x256.size a ≤ (i a).val ∧ (i a).val < win2_11.index t a * S2000x256.size a + S2000x256.size a := by
  show i ∈ ((View.whole main_v123).slice (win2_11.rect t)).set ↔ _
  rw [View.set_slice_whole, Rect.mem_set_unit]
  exact Iff.rfl

/-- Every row of the array lies in the block of the point whose index is the row divided by 2000. -/
theorem cover (i : S50000x256.Idx) :
    ∃ t : Fin cfg2.N, (cfg2.win 11).flush t = true ∧ i ∈ ((cfg2.win 11).blk t).view.set := by
  have hi0 : (i 0).val < 50000 := (i 0).isLt
  have hi1 : (i 1).val < 256 := (i 1).isLt
  obtain ⟨t, ht⟩ := idx_onto ⟨(i 0).val / 2000, by omega⟩
  have q0 : win2_11.index t (0 : Fin 2) = (i 0).val / 2000 := congrFun ht 0
  have q1 : win2_11.index t (1 : Fin 2) = 0 := congrFun ht 1
  refine ⟨t, flush2_11 t, ?_⟩
  rw [mem_blk]
  intro a
  match a with
  | ⟨0, _⟩ => show win2_11.index t (0 : Fin 2) * 2000 ≤ (i 0).val ∧ (i 0).val < win2_11.index t (0 : Fin 2) * 2000 + 2000; omega
  | ⟨1, _⟩ => show win2_11.index t (1 : Fin 2) * 256 ≤ (i 1).val ∧ (i 1).val < win2_11.index t (1 : Fin 2) * 256 + 256; omega

/-- THE OUTPUT ARRAY after the region is `layerOut`. -/
theorem out_eq (c : Dev nD) : (dat2 V c).arrAt 11 cfg2.N = layerOut V c :=
  (dat2 V c).arrAt_eq_of_cover 11 (layerOut V c) (fun t _ => flushed_eq V c t) (cover)

/-- THE REGION COMPUTES THE REFERENCE'S LAYER.  If, when the region is entered, its input array holds `z`, its two
    weight windows `w1`, `w2`, its vector windows the length-256 vectors `b1, g, be, mu, var, b2` laid as [1,256] rows,
    and its slope windows the scalars `a1`, `a2` spread over a [1,256] row, then the array it leaves is the reference's
    MLP of `z` with those parameters: both are the row-wise function `mlpRow` of the same rows. -/
theorem layer_eq (c : Dev nD)
    (z : (⟨Cert.ReferenceIdeal.S50000x256, .f32⟩ : BufTy).Contents (Elt Ideal))
    (w1 : (⟨Cert.ReferenceIdeal.S256x256, .f32⟩ : BufTy).Contents (Elt Ideal))
    (b1 : (⟨Cert.ReferenceIdeal.S256, .f32⟩ : BufTy).Contents (Elt Ideal))
    (a1 : (⟨Cert.ReferenceIdeal.S_, .f32⟩ : BufTy).Contents (Elt Ideal))
    (g be mu var : (⟨Cert.ReferenceIdeal.S256, .f32⟩ : BufTy).Contents (Elt Ideal))
    (w2 : (⟨Cert.ReferenceIdeal.S256x256, .f32⟩ : BufTy).Contents (Elt Ideal))
    (b2 : (⟨Cert.ReferenceIdeal.S256, .f32⟩ : BufTy).Contents (Elt Ideal))
    (a2 : (⟨Cert.ReferenceIdeal.S_, .f32⟩ : BufTy).Contents (Elt Ideal))
    (hz : V c main_v94 = z) (hw1 : V c main_v96 = w1)
    (hb1 : V c main_v115 = shapeCast S1x256 b1 shapeCasts_S256_S1x256)
    (ha1 : V c main_v116 = broadcastInDim S1x256 ![] bcast_S_S1x256 a1)
    (hg : V c main_v117 = shapeCast S1x256 g shapeCasts_S256_S1x256)
    (hbe : V c main_v118 = shapeCast S1x256 be shapeCasts_S256_S1x256)
    (hmu : V c main_v119 = shapeCast S1x256 mu shapeCasts_S256_S1x256)
    (hvar : V c main_v120 = shapeCast S1x256 var shapeCasts_S256_S1x256)
    (hw2 : V c main_v110 = w2)
    (hb2 : V c main_v121 = shapeCast S1x256 b2 shapeCasts_S256_S1x256)
    (ha2 : V c main_v122 = broadcastInDim S1x256 ![] bcast_S_S1x256 a2) :
    layerOut V c = refMlp (F := Ideal) z w1 b1 a1 g be mu var w2 b2 a2 := by
  funext i
  obtain ⟨r, q, rfl⟩ : ∃ (r : Fin 50000) (q : Fin 256), i = ix2 r q := ⟨i 0, i 1, eq_ix2 i⟩
  rw [refMlp_apply]
  unfold layerOut
  rw [hz, hw1, hb1, ha1, hg, hbe, hmu, hvar, hw2, hb2, ha2]
  have hrow : ∀ (v : (⟨Cert.ReferenceIdeal.S256, .f32⟩ : BufTy).Contents (Elt Ideal)) (j : Fin 256),
      shapeCast S1x256 v shapeCasts_S256_S1x256 (ix2 (0 : Fin 1) j) = v (ix1 j) := fun v j => rowOfVec256_apply v j
  have hfill : ∀ (a : (⟨Cert.ReferenceIdeal.S_, .f32⟩ : BufTy).Contents (Elt Ideal)) (j : Fin 256),
      broadcastInDim S1x256 ![] bcast_S_S1x256 a (ix2 (0 : Fin 1) j) = a ix0 := fun a j => rowOfScalar_apply a j
  simp only [hrow, hfill]

end Cert.KernelIdeal.GinRegion2

end
-- ==== Proof.Region3.lean ====
/-
  Region 3 (one GIN layer's MLP, 25 blocks of 2000 rows): the array it leaves, index by index.

  Grid point `t` stages rows `2000·t … 2000·t + 1999` of the aggregated features (window 0), the layer's parameters
  whole (windows 1–10: their index maps are constantly the first block), runs the body on them and writes the result
  back to the same rows of the output array (window 11).  The body's result at row `p` of the block depends on row `p`
  of the staged block only, so what point `t` writes back is the block of ONE whole-array function `layerOut`: at row
  `r`, the row-wise MLP of row `r` of the input.  The 25 blocks tile the 50000 rows, so after the region the output array
  IS `layerOut`.  Everything is stated at the parameter `V`, the buffers' contents when the region is entered.
-/
import proofs.«129231_j12738873000058_1_alg».proof.Proof.Gen.KernelIdeal.Frame
import proofs.«129231_j12738873000058_1_alg».proof.Proof.KernelBlock
import proofs.«129231_j12738873000058_1_alg».proof.Proof.KernelLayout
import proofs.«129231_j12738873000058_1_alg».proof.Proof.RefLayers
import Idealize.ShloMosaic.Lib.Pipeline.Value
import Idealize.ShloMosaic.Lib.ValueIdx

set_option maxRecDepth 16384

noncomputable section

namespace Cert.KernelIdeal.GinRegion3

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region: at row `i 0`, column `i 1`, the layer's row-wise MLP of that row of
    the aggregated features, with the parameters as the region finds them. -/
def layerOut (c : Dev nD) : S50000x256.Idx → EReal := fun i =>
  mlpRow (fun k => V c main_v134 (ix2 (⟨(i 0).val, (i 0).isLt⟩ : Fin 50000) k))
    (fun k j => V c main_v136 (ix2 k j)) (fun j => V c main_v155 (ix2 (0 : Fin 1) j)) (fun j => V c main_v156 (ix2 (0 : Fin 1) j))
    (fun j => V c main_v157 (ix2 (0 : Fin 1) j)) (fun j => V c main_v158 (ix2 (0 : Fin 1) j)) (fun j => V c main_v159 (ix2 (0 : Fin 1) j))
    (fun j => V c main_v160 (ix2 (0 : Fin 1) j)) (fun k j => V c main_v150 (ix2 k j)) (fun j => V c main_v161 (ix2 (0 : Fin 1) j))
    (fun j => V c main_v162 (ix2 (0 : Fin 1) j)) (⟨(i 1).val, (i 1).isLt⟩ : Fin 256)

/-- The printed index maps, decided over the 25 grid points: the input rows move with the output rows, block `t` at
    point `t`; every parameter window stays at its first block. -/
theorem idx_facts : ∀ t : Fin cfg3.N,
    win3_0.index t (0 : Fin 2) = win3_11.index t (0 : Fin 2) ∧ win3_0.index t (1 : Fin 2) = 0
    ∧ win3_11.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) ≤ 24 :=
  (by decide +kernel : ∀ t : Fin grid3.N, _)

/-- Every one of the 25 row blocks is some point's. -/
theorem idx_onto : ∀ q0 : Fin 25, ∃ t : Fin cfg3.N, win3_11.index t = ![q0.val, 0] :=
  (by decide +kernel : ∀ q0 : Fin 25, ∃ t : Fin grid3.N, win3_11.index t = ![q0.val, 0])

/-- Row `p` of the block of aggregated features staged at point `t` is row `2000·t + p` of the array, where `t` is the
    output window's block index too. -/
theorem blk_0 (c : Dev nD) (t : Fin cfg3.N) (p : Fin 2000) (k : Fin 256) (r : Fin 50000)
    (hr : r.val = win3_11.index t (0 : Fin 2) * 2000 + p.val) :
    iblk3 V c 0 t (ix2 p k) = V c main_v134 (ix2 r k) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v134 (((cfg3.win 0).blk t).view.emb (ix2 p k)) = V c main_v134 (ix2 r k)
  refine congrArg (V c main_v134) ?_
  funext d; apply Fin.ext
  match d with
  | ⟨0, _⟩ => show win3_0.index t (0 : Fin 2) * 2000 + 1 * p.val = r.val; omega
  | ⟨1, _⟩ => show win3_0.index t (1 : Fin 2) * 256 + 1 * k.val = k.val; omega

/-- Window 1's block is its whole array at every point: its index map is constantly the first block. -/
theorem blk_1 (c : Dev nD) (t : Fin cfg3.N) (a : Fin 256) (b : Fin 256) :
    iblk3 V c 1 t (ix2 a b) = V c main_v136 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v136 (((cfg3.win 1).blk t).view.emb (ix2 a b)) = V c main_v136 (ix2 a b)
  refine congrArg (V c main_v136) ?_
  funext d; apply Fin.ext
  match d with
  | ⟨0, _⟩ => show win3_1.index t (0 : Fin 2) * 256 + 1 * a.val = a.val; omega
  | ⟨1, _⟩ => show win3_1.index t (1 : Fin 2) * 256 + 1 * b.val = b.val; omega

/-- Window 2's block is its whole array at every point: its index map is constantly the first block. -/
theorem blk_2 (c : Dev nD) (t : Fin cfg3.N) (a : Fin 1) (b : Fin 256) :
    iblk3 V c 2 t (ix2 a b) = V c main_v155 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v155 (((cfg3.win 2).blk t).view.emb (ix2 a b)) = V c main_v155 (ix2 a b)
  refine congrArg (V c main_v155) ?_
  funext d; apply Fin.ext
  match d with
  | ⟨0, _⟩ => show win3_2.index t (0 : Fin 2) * 1 + 1 * a.val = a.val; omega
  | ⟨1, _⟩ => show win3_2.index t (1 : Fin 2) * 256 + 1 * b.val = b.val; omega

/-- Window 3's block is its whole array at every point: its index map is constantly the first block. -/
theorem blk_3 (c : Dev nD) (t : Fin cfg3.N) (a : Fin 1) (b : Fin 256) :
    iblk3 V c 3 t (ix2 a b) = V c main_v156 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v156 (((cfg3.win 3).blk t).view.emb (ix2 a b)) = V c main_v156 (ix2 a b)
  refine congrArg (V c main_v156) ?_
  funext d; apply Fin.ext
  match d with
  | ⟨0, _⟩ => show win3_3.index t (0 : Fin 2) * 1 + 1 * a.val = a.val; omega
  | ⟨1, _⟩ => show win3_3.index t (1 : Fin 2) * 256 + 1 * b.val = b.val; omega

/-- Window 4's block is its whole array at every point: its index map is constantly the first block. -/
theorem blk_4 (c : Dev nD) (t : Fin cfg3.N) (a : Fin 1) (b : Fin 256) :
    iblk3 V c 4 t (ix2 a b) = V c main_v157 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v157 (((cfg3.win 4).blk t).view.emb (ix2 a b)) = V c main_v157 (ix2 a b)
  refine congrArg (V c main_v157) ?_
  funext d; apply Fin.ext
  match d with
  | ⟨0, _⟩ => show win3_4.index t (0 : Fin 2) * 1 + 1 * a.val = a.val; omega
  | ⟨1, _⟩ => show win3_4.index t (1 : Fin 2) * 256 + 1 * b.val = b.val; omega

/-- Window 5's block is its whole array at every point: its index map is constantly the first block. -/
theorem blk_5 (c : Dev nD) (t : Fin cfg3.N) (a : Fin 1) (b : Fin 256) :
    iblk3 V c 5 t (ix2 a b) = V c main_v158 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v158 (((cfg3.win 5).blk t).view.emb (ix2 a b)) = V c main_v158 (ix2 a b)
  refine congrArg (V c main_v158) ?_
  funext d; apply Fin.ext
  match d with
  | ⟨0, _⟩ => show win3_5.index t (0 : Fin 2) * 1 + 1 * a.val = a.val; omega
  | ⟨1, _⟩ => show win3_5.index t (1 : Fin 2) * 256 + 1 * b.val = b.val; omega

/-- Window 6's block is its whole array at every point: its index map is constantly the first block. -/
theorem blk_6 (c : Dev nD) (t : Fin cfg3.N) (a : Fin 1) (b : Fin 256) :
    iblk3 V c 6 t (ix2 a b) = V c main_v159 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v159 (((cfg3.win 6).blk t).view.emb (ix2 a b)) = V c main_v159 (ix2 a b)
  refine congrArg (V c main_v159) ?_
  funext d; apply Fin.ext
  match d with
  | ⟨0, _⟩ => show win3_6.index t (0 : Fin 2) * 1 + 1 * a.val = a.val; omega
  | ⟨1, _⟩ => show win3_6.index t (1 : Fin 2) * 256 + 1 * b.val = b.val; omega

/-- Window 7's block is its whole array at every point: its index map is constantly the first block. -/
theorem blk_7 (c : Dev nD) (t : Fin cfg3.N) (a : Fin 1) (b : Fin 256) :
    iblk3 V c 7 t (ix2 a b) = V c main_v160 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v160 (((cfg3.win 7).blk t).view.emb (ix2 a b)) = V c main_v160 (ix2 a b)
  refine congrArg (V c main_v160) ?_
  funext d; apply Fin.ext
  match d with
  | ⟨0, _⟩ => show win3_7.index t (0 : Fin 2) * 1 + 1 * a.val = a.val; omega
  | ⟨1, _⟩ => show win3_7.index t (1 : Fin 2) * 256 + 1 * b.val = b.val; omega

/-- Window 8's block is its whole array at every point: its index map is constantly the first block. -/
theorem blk_8 (c : Dev nD) (t : Fin cfg3.N) (a : Fin 256) (b : Fin 256) :
    iblk3 V c 8 t (ix2 a b) = V c main_v150 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v150 (((cfg3.win 8).blk t).view.emb (ix2 a b)) = V c main_v150 (ix2 a b)
  refine congrArg (V c main_v150) ?_
  funext d; apply Fin.ext
  match d with
  | ⟨0, _⟩ => show win3_8.index t (0 : Fin 2) * 256 + 1 * a.val = a.val; omega
  | ⟨1, _⟩ => show win3_8.index t (1 : Fin 2) * 256 + 1 * b.val = b.val; omega

/-- Window 9's block is its whole array at every point: its index map is constantly the first block. -/
theorem blk_9 (c : Dev nD) (t : Fin cfg3.N) (a : Fin 1) (b : Fin 256) :
    iblk3 V c 9 t (ix2 a b) = V c main_v161 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v161 (((cfg3.win 9).blk t).view.emb (ix2 a b)) = V c main_v161 (ix2 a b)
  refine congrArg (V c main_v161) ?_
  funext d; apply Fin.ext
  match d with
  | ⟨0, _⟩ => show win3_9.index t (0 : Fin 2) * 1 + 1 * a.val = a.val; omega
  | ⟨1, _⟩ => show win3_9.index t (1 : Fin 2) * 256 + 1 * b.val = b.val; omega

/-- Window 10's block is its whole array at every point: its index map is constantly the first block. -/
theorem blk_10 (c : Dev nD) (t : Fin cfg3.N) (a : Fin 1) (b : Fin 256) :
    iblk3 V c 10 t (ix2 a b) = V c main_v162 (ix2 a b) := by
  obtain ⟨e0a, e0b, e11b, e1a, e1b, e2a, e2b, e3a, e3b, e4a, e4b, e5a, e5b, e6a, e6b, e7a, e7b, e8a, e8b, e9a, e9b, e10a, e10b, hle⟩ := idx_facts t
  show V c main_v162 (((cfg3.win 10).blk t).view.emb (ix2 a b)) = V c main_v162 (ix2 a b)
  refine congrArg (V c main_v162) ?_
  funext d; apply Fin.ext
  match d with
  | ⟨0, _⟩ => show win3_10.index t (0 : Fin 2) * 1 + 1 * a.val = a.val; omega
  | ⟨1, _⟩ => show win3_10.index t (1 : Fin 2) * 256 + 1 * b.val = b.val; omega

/-- WHAT POINT `t` WRITES BACK is block `t` of `layerOut`: the body's payload at row `p`, column `q` of the block is the
    row-wise MLP of row `p` of the staged input block, which is row `2000·t + p` of the array. -/
theorem flushed_eq (c : Dev nD) (t : Fin cfg3.N) :
    (dat3 V c).flushed 11 t = ((cfg3.win 11).blk t).view.read (Elt Ideal) (layerOut V c) := by
  show (cfg3.win 11).cut (grid3.coords t) ((dat3 V c).after 11 t) = _
  rw [after3_11]
  unfold out3_11
  rw [View.canon_unit_zero hz]
  simp only [View.ld_unit_zero (S := S2000x256) hz, View.ld_unit_zero (S := S256x256) hz, View.ld_unit_zero (S := S1x256) hz]
  obtain ⟨e0a, e0b, e11b, e1a, e1b, e2a, e2b, e3a, e3b, e4a, e4b, e5a, e5b, e6a, e6b, e7a, e7b, e8a, e8b, e9a, e9b, e10a, e10b, hle⟩ := idx_facts t
  funext j
  obtain ⟨p, q, rfl⟩ : ∃ (p : Fin 2000) (q : Fin 256), j = ix2 p q := ⟨j 0, j 1, eq_ix2 j⟩
  have hrow : win3_11.index t (0 : Fin 2) * 2000 + p.val < 50000 := by have := p.isLt; omega
  have hemb : ((cfg3.win 11).blk t).view.emb (ix2 p q)
      = ix2 (⟨win3_11.index t (0 : Fin 2) * 2000 + p.val, hrow⟩ : Fin 50000) q := by
    funext d; apply Fin.ext
    match d with
    | ⟨0, _⟩ => show win3_11.index t (0 : Fin 2) * 2000 + 1 * p.val = win3_11.index t (0 : Fin 2) * 2000 + p.val; omega
    | ⟨1, _⟩ => show win3_11.index t (1 : Fin 2) * 256 + 1 * q.val = q.val; omega
  show k3_pay1 (F := Ideal) (k3_pay2 (F := Ideal) (iblk3 V c 0 t) (iblk3 V c 1 t) (iblk3 V c 2 t) (iblk3 V c 3 t) (iblk3 V c 4 t) (iblk3 V c 5 t) (iblk3 V c 6 t) (iblk3 V c 7 t)) (iblk3 V c 8 t) (iblk3 V c 9 t) (iblk3 V c 10 t) (ix2 p q)
    = layerOut V c (((cfg3.win 11).blk t).view.emb (ix2 p q))
  rw [hemb]
  rw [pay1_3, pay2_3]
  refine (mlp_block (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) p q).trans ?_
  unfold layerOut
  simp only [blk_0 V c t p _ ⟨win3_11.index t (0 : Fin 2) * 2000 + p.val, hrow⟩ rfl, blk_1 V c t, blk_2 V c t, blk_3 V c t, blk_4 V c t,
    blk_5 V c t, blk_6 V c t, blk_7 V c t, blk_8 V c t, blk_9 V c t, blk_10 V c t]

/-- An index of the array is in point `t`'s block iff each coordinate is in the block's range on its axis. -/
theorem mem_blk (t : Fin cfg3.N) (i : S50000x256.Idx) :
    i ∈ ((cfg3.win 11).blk t).view.set ↔ ∀ a : Fin 2, win3_11.index t a * S2000x256.size a ≤ (i a).val ∧ (i a).val < win3_11.index t a * S2000x256.size a + S2000x256.size a := by
  show i ∈ ((View.whole main_v163).slice (win3_11.rect t)).set ↔ _
  rw [View.set_slice_whole, Rect.mem_set_unit]
  exact Iff.rfl

/-- Every row of the array lies in the block of the point whose index is the row divided by 2000. -/
theorem cover (i : S50000x256.Idx) :
    ∃ t : Fin cfg3.N, (cfg3.win 11).flush t = true ∧ i ∈ ((cfg3.win 11).blk t).view.set := by
  have hi0 : (i 0).val < 50000 := (i 0).isLt
  have hi1 : (i 1).val < 256 := (i 1).isLt
  obtain ⟨t, ht⟩ := idx_onto ⟨(i 0).val / 2000, by omega⟩
  have q0 : win3_11.index t (0 : Fin 2) = (i 0).val / 2000 := congrFun ht 0
  have q1 : win3_11.index t (1 : Fin 2) = 0 := congrFun ht 1
  refine ⟨t, flush3_11 t, ?_⟩
  rw [mem_blk]
  intro a
  match a with
  | ⟨0, _⟩ => show win3_11.index t (0 : Fin 2) * 2000 ≤ (i 0).val ∧ (i 0).val < win3_11.index t (0 : Fin 2) * 2000 + 2000; omega
  | ⟨1, _⟩ => show win3_11.index t (1 : Fin 2) * 256 ≤ (i 1).val ∧ (i 1).val < win3_11.index t (1 : Fin 2) * 256 + 256; omega

/-- THE OUTPUT ARRAY after the region is `layerOut`. -/
theorem out_eq (c : Dev nD) : (dat3 V c).arrAt 11 cfg3.N = layerOut V c :=
  (dat3 V c).arrAt_eq_of_cover 11 (layerOut V c) (fun t _ => flushed_eq V c t) (cover)

/-- THE REGION COMPUTES THE REFERENCE'S LAYER.  If, when the region is entered, its input array holds `z`, its two
    weight windows `w1`, `w2`, its vector windows the length-256 vectors `b1, g, be, mu, var, b2` laid as [1,256] rows,
    and its slope windows the scalars `a1`, `a2` spread over a [1,256] row, then the array it leaves is the reference's
    MLP of `z` with those parameters: both are the row-wise function `mlpRow` of the same rows. -/
theorem layer_eq (c : Dev nD)
    (z : (⟨Cert.ReferenceIdeal.S50000x256, .f32⟩ : BufTy).Contents (Elt Ideal))
    (w1 : (⟨Cert.ReferenceIdeal.S256x256, .f32⟩ : BufTy).Contents (Elt Ideal))
    (b1 : (⟨Cert.ReferenceIdeal.S256, .f32⟩ : BufTy).Contents (Elt Ideal))
    (a1 : (⟨Cert.ReferenceIdeal.S_, .f32⟩ : BufTy).Contents (Elt Ideal))
    (g be mu var : (⟨Cert.ReferenceIdeal.S256, .f32⟩ : BufTy).Contents (Elt Ideal))
    (w2 : (⟨Cert.ReferenceIdeal.S256x256, .f32⟩ : BufTy).Contents (Elt Ideal))
    (b2 : (⟨Cert.ReferenceIdeal.S256, .f32⟩ : BufTy).Contents (Elt Ideal))
    (a2 : (⟨Cert.ReferenceIdeal.S_, .f32⟩ : BufTy).Contents (Elt Ideal))
    (hz : V c main_v134 = z) (hw1 : V c main_v136 = w1)
    (hb1 : V c main_v155 = shapeCast S1x256 b1 shapeCasts_S256_S1x256)
    (ha1 : V c main_v156 = broadcastInDim S1x256 ![] bcast_S_S1x256 a1)
    (hg : V c main_v157 = shapeCast S1x256 g shapeCasts_S256_S1x256)
    (hbe : V c main_v158 = shapeCast S1x256 be shapeCasts_S256_S1x256)
    (hmu : V c main_v159 = shapeCast S1x256 mu shapeCasts_S256_S1x256)
    (hvar : V c main_v160 = shapeCast S1x256 var shapeCasts_S256_S1x256)
    (hw2 : V c main_v150 = w2)
    (hb2 : V c main_v161 = shapeCast S1x256 b2 shapeCasts_S256_S1x256)
    (ha2 : V c main_v162 = broadcastInDim S1x256 ![] bcast_S_S1x256 a2) :
    layerOut V c = refMlp (F := Ideal) z w1 b1 a1 g be mu var w2 b2 a2 := by
  funext i
  obtain ⟨r, q, rfl⟩ : ∃ (r : Fin 50000) (q : Fin 256), i = ix2 r q := ⟨i 0, i 1, eq_ix2 i⟩
  rw [refMlp_apply]
  unfold layerOut
  rw [hz, hw1, hb1, ha1, hg, hbe, hmu, hvar, hw2, hb2, ha2]
  have hrow : ∀ (v : (⟨Cert.ReferenceIdeal.S256, .f32⟩ : BufTy).Contents (Elt Ideal)) (j : Fin 256),
      shapeCast S1x256 v shapeCasts_S256_S1x256 (ix2 (0 : Fin 1) j) = v (ix1 j) := fun v j => rowOfVec256_apply v j
  have hfill : ∀ (a : (⟨Cert.ReferenceIdeal.S_, .f32⟩ : BufTy).Contents (Elt Ideal)) (j : Fin 256),
      broadcastInDim S1x256 ![] bcast_S_S1x256 a (ix2 (0 : Fin 1) j) = a ix0 := fun a j => rowOfScalar_apply a j
  simp only [hrow, hfill]

end Cert.KernelIdeal.GinRegion3

end
-- ==== Proof.Region4.lean ====
/-
  Region 4 (the read-out, one block): the array it leaves, index by index.

  The region has a single grid point. Every window's block is its whole array: the 512 pooled rows (window 0), the
  batch normalisation's scale, shift, running mean and running variance as rows (windows 1–4), the read-out's weight
  matrix (window 5), its bias row (window 6) and the 512 by 128 output (window 7). The point stages them, runs the body
  and writes its result back over the whole output array. The body's result at row `p`, column `q` depends on row `p`
  of the pooled rows only, so what the point writes back is the whole-array function `headOut`: at row `r`, the
  row-wise read-out of pooled row `r`. The one block is the whole array, so after the region the output array IS
  `headOut`. Everything is stated at the parameter `V`, the buffers' contents when the region is entered. Last, when
  the region's windows hold the reference's read-out operands (the parameter vectors as one-row arrays), `headOut` is
  the reference's read-out: both are the row-wise function `headRow` of the same rows.
-/
import proofs.«129231_j12738873000058_1_alg».proof.Proof.Gen.KernelIdeal.Frame
import proofs.«129231_j12738873000058_1_alg».proof.Proof.KernelBlock
import proofs.«129231_j12738873000058_1_alg».proof.Proof.KernelLayout
import proofs.«129231_j12738873000058_1_alg».proof.Proof.RefLayers
import Idealize.ShloMosaic.Lib.Pipeline.Value
import Idealize.ShloMosaic.Lib.ValueIdx

set_option maxRecDepth 16384

noncomputable section

namespace Cert.KernelIdeal.GinRegion4

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region: at row `i 0`, column `i 1`, the row-wise read-out of that pooled
    row, with the parameters as the region finds them. -/
def headOut (c : Dev nD) : S512x128.Idx → EReal := fun i =>
  headRow (fun k => V c main_v166 (ix2 (⟨(i 0).val, (i 0).isLt⟩ : Fin 512) k))
    (fun j => V c main_v167 (ix2 (0 : Fin 1) j)) (fun j => V c main_v168 (ix2 (0 : Fin 1) j))
    (fun j => V c main_v169 (ix2 (0 : Fin 1) j)) (fun j => V c main_v170 (ix2 (0 : Fin 1) j))
    (fun k j => V c main_arg17 (ix2 k j)) (fun j => V c main_v171 (ix2 (0 : Fin 1) j))
    (⟨(i 1).val, (i 1).isLt⟩ : Fin 128)

/-- The printed index maps, decided over the one grid point: every window stays at its first block. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Window 0 (the pooled rows) stages its whole array: its block at `(a, b)` is the array at `(a, b)`. -/
theorem blk_0 (c : Dev nD) (t : Fin cfg4.N) (a : Fin 512) (b : Fin 256) :
    iblk4 V c 0 t (ix2 a b) = V c main_v166 (ix2 a b) := by
  obtain ⟨e0a, e0b, e1a, e1b, e2a, e2b, e3a, e3b, e4a, e4b, e5a, e5b, e6a, e6b, e7a, e7b⟩ := idx_facts t
  show V c main_v166 (((cfg4.win 0).blk t).view.emb (ix2 a b)) = V c main_v166 (ix2 a b)
  refine congrArg (V c main_v166) ?_
  funext d; apply Fin.ext
  match d with
  | ⟨0, _⟩ => show win4_0.index t (0 : Fin 2) * 512 + 1 * a.val = a.val; omega
  | ⟨1, _⟩ => show win4_0.index t (1 : Fin 2) * 256 + 1 * b.val = b.val; omega

/-- Window 1 (the scale row) stages its whole array: its block at `(a, b)` is the array at `(a, b)`. -/
theorem blk_1 (c : Dev nD) (t : Fin cfg4.N) (a : Fin 1) (b : Fin 256) :
    iblk4 V c 1 t (ix2 a b) = V c main_v167 (ix2 a b) := by
  obtain ⟨e0a, e0b, e1a, e1b, e2a, e2b, e3a, e3b, e4a, e4b, e5a, e5b, e6a, e6b, e7a, e7b⟩ := idx_facts t
  show V c main_v167 (((cfg4.win 1).blk t).view.emb (ix2 a b)) = V c main_v167 (ix2 a b)
  refine congrArg (V c main_v167) ?_
  funext d; apply Fin.ext
  match d with
  | ⟨0, _⟩ => show win4_1.index t (0 : Fin 2) * 1 + 1 * a.val = a.val; omega
  | ⟨1, _⟩ => show win4_1.index t (1 : Fin 2) * 256 + 1 * b.val = b.val; omega

/-- Window 2 (the shift row) stages its whole array: its block at `(a, b)` is the array at `(a, b)`. -/
theorem blk_2 (c : Dev nD) (t : Fin cfg4.N) (a : Fin 1) (b : Fin 256) :
    iblk4 V c 2 t (ix2 a b) = V c main_v168 (ix2 a b) := by
  obtain ⟨e0a, e0b, e1a, e1b, e2a, e2b, e3a, e3b, e4a, e4b, e5a, e5b, e6a, e6b, e7a, e7b⟩ := idx_facts t
  show V c main_v168 (((cfg4.win 2).blk t).view.emb (ix2 a b)) = V c main_v168 (ix2 a b)
  refine congrArg (V c main_v168) ?_
  funext d; apply Fin.ext
  match d with
  | ⟨0, _⟩ => show win4_2.index t (0 : Fin 2) * 1 + 1 * a.val = a.val; omega
  | ⟨1, _⟩ => show win4_2.index t (1 : Fin 2) * 256 + 1 * b.val = b.val; omega

/-- Window 3 (the running-mean row) stages its whole array: its block at `(a, b)` is the array at `(a, b)`. -/
theorem blk_3 (c : Dev nD) (t : Fin cfg4.N) (a : Fin 1) (b : Fin 256) :
    iblk4 V c 3 t (ix2 a b) = V c main_v169 (ix2 a b) := by
  obtain ⟨e0a, e0b, e1a, e1b, e2a, e2b, e3a, e3b, e4a, e4b, e5a, e5b, e6a, e6b, e7a, e7b⟩ := idx_facts t
  show V c main_v169 (((cfg4.win 3).blk t).view.emb (ix2 a b)) = V c main_v169 (ix2 a b)
  refine congrArg (V c main_v169) ?_
  funext d; apply Fin.ext
  match d with
  | ⟨0, _⟩ => show win4_3.index t (0 : Fin 2) * 1 + 1 * a.val = a.val; omega
  | ⟨1, _⟩ => show win4_3.index t (1 : Fin 2) * 256 + 1 * b.val = b.val; omega

/-- Window 4 (the running-variance row) stages its whole array: its block at `(a, b)` is the array at `(a, b)`. -/
theorem blk_4 (c : Dev nD) (t : Fin cfg4.N) (a : Fin 1) (b : Fin 256) :
    iblk4 V c 4 t (ix2 a b) = V c main_v170 (ix2 a b) := by
  obtain ⟨e0a, e0b, e1a, e1b, e2a, e2b, e3a, e3b, e4a, e4b, e5a, e5b, e6a, e6b, e7a, e7b⟩ := idx_facts t
  show V c main_v170 (((cfg4.win 4).blk t).view.emb (ix2 a b)) = V c main_v170 (ix2 a b)
  refine congrArg (V c main_v170) ?_
  funext d; apply Fin.ext
  match d with
  | ⟨0, _⟩ => show win4_4.index t (0 : Fin 2) * 1 + 1 * a.val = a.val; omega
  | ⟨1, _⟩ => show win4_4.index t (1 : Fin 2) * 256 + 1 * b.val = b.val; omega

/-- Window 5 (the read-out's weight matrix) stages its whole array: its block at `(a, b)` is the array at `(a, b)`. -/
theorem blk_5 (c : Dev nD) (t : Fin cfg4.N) (a : Fin 256) (b : Fin 128) :
    iblk4 V c 5 t (ix2 a b) = V c main_arg17 (ix2 a b) := by
  obtain ⟨e0a, e0b, e1a, e1b, e2a, e2b, e3a, e3b, e4a, e4b, e5a, e5b, e6a, e6b, e7a, e7b⟩ := idx_facts t
  show V c main_arg17 (((cfg4.win 5).blk t).view.emb (ix2 a b)) = V c main_arg17 (ix2 a b)
  refine congrArg (V c main_arg17) ?_
  funext d; apply Fin.ext
  match d with
  | ⟨0, _⟩ => show win4_5.index t (0 : Fin 2) * 256 + 1 * a.val = a.val; omega
  | ⟨1, _⟩ => show win4_5.index t (1 : Fin 2) * 128 + 1 * b.val = b.val; omega

/-- Window 6 (the bias row) stages its whole array: its block at `(a, b)` is the array at `(a, b)`. -/
theorem blk_6 (c : Dev nD) (t : Fin cfg4.N) (a : Fin 1) (b : Fin 128) :
    iblk4 V c 6 t (ix2 a b) = V c main_v171 (ix2 a b) := by
  obtain ⟨e0a, e0b, e1a, e1b, e2a, e2b, e3a, e3b, e4a, e4b, e5a, e5b, e6a, e6b, e7a, e7b⟩ := idx_facts t
  show V c main_v171 (((cfg4.win 6).blk t).view.emb (ix2 a b)) = V c main_v171 (ix2 a b)
  refine congrArg (V c main_v171) ?_
  funext d; apply Fin.ext
  match d with
  | ⟨0, _⟩ => show win4_6.index t (0 : Fin 2) * 1 + 1 * a.val = a.val; omega
  | ⟨1, _⟩ => show win4_6.index t (1 : Fin 2) * 128 + 1 * b.val = b.val; omega

/-- WHAT THE POINT WRITES BACK is the block of `headOut`: the body's payload at row `p`, column `q` is the row-wise
    read-out of row `p` of the staged pooled rows, which is row `p` of the array. -/
theorem flushed_eq (c : Dev nD) (t : Fin cfg4.N) :
    (dat4 V c).flushed 7 t = ((cfg4.win 7).blk t).view.read (Elt Ideal) (headOut V c) := by
  show (cfg4.win 7).cut (grid4.coords t) ((dat4 V c).after 7 t) = _
  rw [after4_7]
  unfold out4_7
  rw [View.canon_unit_zero hz]
  simp only [View.ld_unit_zero (S := S512x256) hz, View.ld_unit_zero (S := S1x256) hz, View.ld_unit_zero (S := S256x128) hz,
    View.ld_unit_zero (S := S1x128) hz]
  obtain ⟨e0a, e0b, e1a, e1b, e2a, e2b, e3a, e3b, e4a, e4b, e5a, e5b, e6a, e6b, e7a, e7b⟩ := idx_facts t
  funext j
  obtain ⟨p, q, rfl⟩ : ∃ (p : Fin 512) (q : Fin 128), j = ix2 p q := ⟨j 0, j 1, eq_ix2 j⟩
  have hemb : ((cfg4.win 7).blk t).view.emb (ix2 p q) = ix2 p q := by
    funext d; apply Fin.ext
    match d with
    | ⟨0, _⟩ => show win4_7.index t (0 : Fin 2) * 512 + 1 * p.val = p.val; omega
    | ⟨1, _⟩ => show win4_7.index t (1 : Fin 2) * 128 + 1 * q.val = q.val; omega
  show k4_pay1 (F := Ideal) (iblk4 V c 0 t) (iblk4 V c 1 t) (iblk4 V c 2 t) (iblk4 V c 3 t) (iblk4 V c 4 t) (iblk4 V c 5 t) (iblk4 V c 6 t) (ix2 p q)
    = headOut V c (((cfg4.win 7).blk t).view.emb (ix2 p q))
  rw [hemb]
  refine (head_block (iblk4 V c 0 t) (iblk4 V c 1 t) (iblk4 V c 2 t) (iblk4 V c 3 t) (iblk4 V c 4 t) (iblk4 V c 5 t) (iblk4 V c 6 t) p q).trans ?_
  unfold headOut
  simp only [blk_0 V c t, blk_1 V c t, blk_2 V c t, blk_3 V c t, blk_4 V c t, blk_5 V c t, blk_6 V c t]

/-- An index of the array is in point `t`'s block iff each coordinate is in the block's range on its axis. -/
theorem mem_blk (t : Fin cfg4.N) (i : S512x128.Idx) :
    i ∈ ((cfg4.win 7).blk t).view.set ↔ ∀ a : Fin 2, win4_7.index t a * S512x128.size a ≤ (i a).val ∧ (i a).val < win4_7.index t a * S512x128.size a + S512x128.size a := by
  show i ∈ ((View.whole main_v172).slice (win4_7.rect t)).set ↔ _
  rw [View.set_slice_whole, Rect.mem_set_unit]
  exact Iff.rfl

/-- Every index of the array lies in the one point's block, which is the whole array. -/
theorem cover (i : S512x128.Idx) :
    ∃ t : Fin cfg4.N, (cfg4.win 7).flush t = true ∧ i ∈ ((cfg4.win 7).blk t).view.set := by
  have hi0 : (i 0).val < 512 := (i 0).isLt
  have hi1 : (i 1).val < 128 := (i 1).isLt
  have t : Fin cfg4.N := t4_0
  obtain ⟨e0a, e0b, e1a, e1b, e2a, e2b, e3a, e3b, e4a, e4b, e5a, e5b, e6a, e6b, e7a, e7b⟩ := idx_facts t
  refine ⟨t, flush4_7 t, ?_⟩
  rw [mem_blk]
  intro a
  match a with
  | ⟨0, _⟩ => show win4_7.index t (0 : Fin 2) * 512 ≤ (i 0).val ∧ (i 0).val < win4_7.index t (0 : Fin 2) * 512 + 512; omega
  | ⟨1, _⟩ => show win4_7.index t (1 : Fin 2) * 128 ≤ (i 1).val ∧ (i 1).val < win4_7.index t (1 : Fin 2) * 128 + 128; omega

/-- THE OUTPUT ARRAY after the region is `headOut`. -/
theorem out_eq (c : Dev nD) : (dat4 V c).arrAt 7 cfg4.N = headOut V c :=
  (dat4 V c).arrAt_eq_of_cover 7 (headOut V c) (fun t _ => flushed_eq V c t) (cover)

/-- THE REGION COMPUTES THE REFERENCE'S READ-OUT. If, when the region is entered, its input array holds the pooled rows
    `p`, its weight window `w`, and its vector windows the length-256 vectors `g, be, mu, var` and the length-128 vector
    `b` laid as one-row arrays, then the array it leaves is the reference's read-out of `p` with those parameters: both
    are the row-wise function `headRow` of the same rows. -/
theorem head_eq (c : Dev nD)
    (p : (⟨Cert.ReferenceIdeal.S512x256, .f32⟩ : BufTy).Contents (Elt Ideal))
    (g be mu var : (⟨Cert.ReferenceIdeal.S256, .f32⟩ : BufTy).Contents (Elt Ideal))
    (w : (⟨Cert.ReferenceIdeal.S256x128, .f32⟩ : BufTy).Contents (Elt Ideal))
    (b : (⟨Cert.ReferenceIdeal.S128, .f32⟩ : BufTy).Contents (Elt Ideal))
    (hp : V c main_v166 = p)
    (hg : V c main_v167 = shapeCast S1x256 g shapeCasts_S256_S1x256)
    (hbe : V c main_v168 = shapeCast S1x256 be shapeCasts_S256_S1x256)
    (hmu : V c main_v169 = shapeCast S1x256 mu shapeCasts_S256_S1x256)
    (hvar : V c main_v170 = shapeCast S1x256 var shapeCasts_S256_S1x256)
    (hw : V c main_arg17 = w)
    (hb : V c main_v171 = shapeCast S1x128 b shapeCasts_S128_S1x128) :
    headOut V c = refHead (F := Ideal) p g be mu var w b := by
  funext i
  obtain ⟨r, q, rfl⟩ : ∃ (r : Fin 512) (q : Fin 128), i = ix2 r q := ⟨i 0, i 1, eq_ix2 i⟩
  rw [refHead_apply]
  unfold headOut
  rw [hp, hg, hbe, hmu, hvar, hw, hb]
  have hrow : ∀ (v : (⟨Cert.ReferenceIdeal.S256, .f32⟩ : BufTy).Contents (Elt Ideal)) (j : Fin 256),
      shapeCast S1x256 v shapeCasts_S256_S1x256 (ix2 (0 : Fin 1) j) = v (ix1 j) := fun v j => rowOfVec256_apply v j
  have hrow128 : ∀ (v : (⟨Cert.ReferenceIdeal.S128, .f32⟩ : BufTy).Contents (Elt Ideal)) (j : Fin 128),
      shapeCast S1x128 v shapeCasts_S128_S1x128 (ix2 (0 : Fin 1) j) = v (ix1 j) := fun v j => rowOfVec128_apply v j
  simp only [hrow, hrow128]

end Cert.KernelIdeal.GinRegion4

end
-- ==== Proof.Bounds.lean ====
/-
  What passes through the program's segments unchanged.

  The idealized kernel program is ten segments: a stretch of host operations, a pipelined region, a stretch, a region, …
  Each host operation writes its own result buffer and nothing else, so a buffer that is not the result of any
  operation of a stretch holds after the stretch what it held before; a region changes only its windows' arrays.  The
  argument arrays, and the two rows of the edge list that the first stretch cuts out once and every later layer reads
  again, are therefore the same at every boundary where they are read.  `written K` lists stretch K's result buffers;
  `keep_K` is the stretch's half of the statement, the generated `W(2K+2)_of_ne` the region's half, and `thru…` chain
  them from the boundary where a value is read back to the first boundary.
-/
import proofs.«129231_j12738873000058_1_alg».proof.Proof.Gen.KernelIdeal.Frame

set_option maxRecDepth 16384

noncomputable section

namespace Cert.KernelIdeal.GinBounds

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers stretch 0's operations write: one result buffer each. -/
abbrev written0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42]
theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0 does not write holds after it what it held before. -/
theorem keep_0 (c : Dev nD) (r : Ref sig .tc) (h : r ∉ written0) :
    W1 m ρ c (Proc.devRef .tc r) = W0 m ρ c (Proc.devRef .tc r) :=
  StableHlo.after_of_writes_sub hostOps0 _ writes0 h

/-- The buffers stretch 1's operations write: one result buffer each. -/
abbrev written1 : List (Ref sig .tc) := [main_c_1, main_v44, main_v45, main_c_2, main_v46, main_v47, main_v48, main_v49, main_v50, main_cst_3, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82]
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 1 does not write holds after it what it held before. -/
theorem keep_1 (c : Dev nD) (r : Ref sig .tc) (h : r ∉ written1) :
    W3 m ρ c (Proc.devRef .tc r) = W2 m ρ c (Proc.devRef .tc r) :=
  StableHlo.after_of_writes_sub hostOps1 _ writes1 h

/-- The buffers stretch 2's operations write: one result buffer each. -/
abbrev written2 : List (Ref sig .tc) := [main_c_4, main_v84, main_v85, main_c_5, main_v86, main_v87, main_v88, main_v89, main_v90, main_cst_6, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122]
theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 2 does not write holds after it what it held before. -/
theorem keep_2 (c : Dev nD) (r : Ref sig .tc) (h : r ∉ written2) :
    W5 m ρ c (Proc.devRef .tc r) = W4 m ρ c (Proc.devRef .tc r) :=
  StableHlo.after_of_writes_sub hostOps2 _ writes2 h

/-- The buffers stretch 3's operations write: one result buffer each. -/
abbrev written3 : List (Ref sig .tc) := [main_c_7, main_v124, main_v125, main_c_8, main_v126, main_v127, main_v128, main_v129, main_v130, main_cst_9, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162]
theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 3 does not write holds after it what it held before. -/
theorem keep_3 (c : Dev nD) (r : Ref sig .tc) (h : r ∉ written3) :
    W7 m ρ c (Proc.devRef .tc r) = W6 m ρ c (Proc.devRef .tc r) :=
  StableHlo.after_of_writes_sub hostOps3 _ writes3 h

/-- The buffers stretch 4's operations write: one result buffer each. -/
abbrev written4 : List (Ref sig .tc) := [main_cst_10, main_v164, main_v165, main_v166, main_v167, main_v168, main_v169, main_v170, main_v171]
theorem writes4 : (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 4 does not write holds after it what it held before. -/
theorem keep_4 (c : Dev nD) (r : Ref sig .tc) (h : r ∉ written4) :
    W9 m ρ c (Proc.devRef .tc r) = W8 m ρ c (Proc.devRef .tc r) :=
  StableHlo.after_of_writes_sub hostOps4 _ writes4 h

/-! ## From a later boundary back to the first stretch's exit -/

/-- Through region 0. -/
theorem thru2 (c : Dev nD) (r : Ref sig .tc) (a0 : ∀ w, Pipeline.arrRef spec0 w ≠ r) :
    W2 m ρ c (Proc.devRef .tc r) = W1 m ρ c (Proc.devRef .tc r) := W2_of_ne m ρ c r a0

/-- Through stretch 1 and region 1, then as above. -/
theorem thru4 (c : Dev nD) (r : Ref sig .tc) (a1 : ∀ w, Pipeline.arrRef spec1 w ≠ r) (k1 : r ∉ written1)
    (a0 : ∀ w, Pipeline.arrRef spec0 w ≠ r) : W4 m ρ c (Proc.devRef .tc r) = W1 m ρ c (Proc.devRef .tc r) :=
  (W4_of_ne m ρ c r a1).trans ((keep_1 m ρ c r k1).trans (thru2 m ρ c r a0))

/-- Through stretch 2 and region 2, then as above. -/
theorem thru6 (c : Dev nD) (r : Ref sig .tc) (a2 : ∀ w, Pipeline.arrRef spec2 w ≠ r) (k2 : r ∉ written2)
    (a1 : ∀ w, Pipeline.arrRef spec1 w ≠ r) (k1 : r ∉ written1) (a0 : ∀ w, Pipeline.arrRef spec0 w ≠ r) :
    W6 m ρ c (Proc.devRef .tc r) = W1 m ρ c (Proc.devRef .tc r) :=
  (W6_of_ne m ρ c r a2).trans ((keep_2 m ρ c r k2).trans (thru4 m ρ c r a1 k1 a0))

/-- Through stretch 3 and region 3, then as above. -/
theorem thru8 (c : Dev nD) (r : Ref sig .tc) (a3 : ∀ w, Pipeline.arrRef spec3 w ≠ r) (k3 : r ∉ written3)
    (a2 : ∀ w, Pipeline.arrRef spec2 w ≠ r) (k2 : r ∉ written2)
    (a1 : ∀ w, Pipeline.arrRef spec1 w ≠ r) (k1 : r ∉ written1) (a0 : ∀ w, Pipeline.arrRef spec0 w ≠ r) :
    W8 m ρ c (Proc.devRef .tc r) = W1 m ρ c (Proc.devRef .tc r) :=
  (W8_of_ne m ρ c r a3).trans ((keep_3 m ρ c r k3).trans (thru6 m ρ c r a2 k2 a1 k1 a0))

/-- An argument array (any buffer the first stretch does not write) at the first stretch's exit is as launched. -/
theorem at1 (c : Dev nD) (r : Ref sig .tc) (k0 : r ∉ written0) :
    W1 m ρ c (Proc.devRef .tc r) = m ((c : Thread nD τ).loc r) := keep_0 m ρ c r k0

end Cert.KernelIdeal.GinBounds

end
-- ==== Proof.Stretch0.lean ====
/-
  The first stretch of host operations of the kernel program, read at the buffers region 0 stages.

  Before the first region the host cuts the edge list into its source and destination rows, forms every node's own
  features plus the sum of its in-neighbours' features (a gather and a scatter-add: the reference's own two
  operations, never opened here), cuts layer 0's parameters out of the stacked arrays, and lays each length-256
  vector as a [1,256] row (a reshape) and each scalar slope as a [1,256] row of equal entries (a broadcast).  Each
  statement below is the operations' composed term at one buffer, over the launch contents of the arguments.
-/
import proofs.«129231_j12738873000058_1_alg».proof.Proof.Bounds
import proofs.«129231_j12738873000058_1_alg».proof.Proof.RefDefs

set_option maxRecDepth 16384

noncomputable section

namespace Cert.KernelIdeal.GinStretch0

open Cert.KernelIdeal Cert.KernelIdeal.Gen Cert.KernelIdeal.GinBounds
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The edge list's source row, as the first stretch leaves it (every later layer reads it again). -/
theorem src (c : Dev nD) : W1 m ρ c (Proc.devRef .tc main_v1) = Cert.Gin.srcRow (F := F) (m ((c : Thread nD τ).loc main_arg1)) := by
  show StableHlo.after hostOps0 (W0 m ρ c) (Proc.devRef .tc main_v1) = _
  after_results_simp
  rfl

/-- The edge list's destination row. -/
theorem dst (c : Dev nD) : W1 m ρ c (Proc.devRef .tc main_v3) = Cert.Gin.dstRow (F := F) (m ((c : Thread nD τ).loc main_arg1)) := by
  show StableHlo.after hostOps0 (W0 m ρ c) (Proc.devRef .tc main_v3) = _
  after_results_simp
  rfl

/-- Region 0's input: the node features plus their in-neighbours' sum. -/
theorem z (c : Dev nD) : V1 m ρ c main_v14 = Cert.Gin.aggZ (F := F) (m ((c : Thread nD τ).loc main_arg1)) (m ((c : Thread nD τ).loc main_arg0)) := by
  show StableHlo.after hostOps0 (W0 m ρ c) (Proc.devRef .tc main_v14) = _
  after_results_simp
  rfl

/-- Layer 0's first weight matrix. -/
theorem w1 (c : Dev nD) : V1 m ρ c main_v16 = Cert.Gin.matAt (F := F) ![0, 0, 0] Cert.ReferenceIdeal.Gen.slices_S4x256x256_S1x256x256_0_0_0 (m ((c : Thread nD τ).loc main_arg3)) := by
  show StableHlo.after hostOps0 (W0 m ρ c) (Proc.devRef .tc main_v16) = _
  after_results_simp
  rfl

/-- Layer 0's second weight matrix. -/
theorem w2 (c : Dev nD) : V1 m ρ c main_v30 = Cert.Gin.matAt (F := F) ![0, 0, 0] Cert.ReferenceIdeal.Gen.slices_S4x256x256_S1x256x256_0_0_0 (m ((c : Thread nD τ).loc main_arg10)) := by
  show StableHlo.after hostOps0 (W0 m ρ c) (Proc.devRef .tc main_v30) = _
  after_results_simp
  rfl

/-- Layer 0's first bias, as a [1,256] row. -/
theorem b1 (c : Dev nD) : V1 m ρ c main_v35
    = shapeCast S1x256 (Cert.Gin.vecAt (F := F) ![0, 0] Cert.ReferenceIdeal.Gen.slices_S4x256_S1x256_0_0 (m ((c : Thread nD τ).loc main_arg4))) shapeCasts_S256_S1x256 := by
  show StableHlo.after hostOps0 (W0 m ρ c) (Proc.devRef .tc main_v35) = _
  after_results_simp
  rfl

/-- Layer 0's batch-norm scale, as a [1,256] row. -/
theorem g (c : Dev nD) : V1 m ρ c main_v37
    = shapeCast S1x256 (Cert.Gin.vecAt (F := F) ![0, 0] Cert.ReferenceIdeal.Gen.slices_S4x256_S1x256_0_0 (m ((c : Thread nD τ).loc main_arg6))) shapeCasts_S256_S1x256 := by
  show StableHlo.after hostOps0 (W0 m ρ c) (Proc.devRef .tc main_v37) = _
  after_results_simp
  rfl

/-- Layer 0's batch-norm shift, as a [1,256] row. -/
theorem be (c : Dev nD) : V1 m ρ c main_v38
    = shapeCast S1x256 (Cert.Gin.vecAt (F := F) ![0, 0] Cert.ReferenceIdeal.Gen.slices_S4x256_S1x256_0_0 (m ((c : Thread nD τ).loc main_arg7))) shapeCasts_S256_S1x256 := by
  show StableHlo.after hostOps0 (W0 m ρ c) (Proc.devRef .tc main_v38) = _
  after_results_simp
  rfl

/-- Layer 0's running mean, as a [1,256] row. -/
theorem mu (c : Dev nD) : V1 m ρ c main_v39
    = shapeCast S1x256 (Cert.Gin.vecAt (F := F) ![0, 0] Cert.ReferenceIdeal.Gen.slices_S4x256_S1x256_0_0 (m ((c : Thread nD τ).loc main_arg8))) shapeCasts_S256_S1x256 := by
  show StableHlo.after hostOps0 (W0 m ρ c) (Proc.devRef .tc main_v39) = _
  after_results_simp
  rfl

/-- Layer 0's running variance, as a [1,256] row. -/
theorem var (c : Dev nD) : V1 m ρ c main_v40
    = shapeCast S1x256 (Cert.Gin.vecAt (F := F) ![0, 0] Cert.ReferenceIdeal.Gen.slices_S4x256_S1x256_0_0 (m ((c : Thread nD τ).loc main_arg9))) shapeCasts_S256_S1x256 := by
  show StableHlo.after hostOps0 (W0 m ρ c) (Proc.devRef .tc main_v40) = _
  after_results_simp
  rfl

/-- Layer 0's second bias, as a [1,256] row. -/
theorem b2 (c : Dev nD) : V1 m ρ c main_v41
    = shapeCast S1x256 (Cert.Gin.vecAt (F := F) ![0, 0] Cert.ReferenceIdeal.Gen.slices_S4x256_S1x256_0_0 (m ((c : Thread nD τ).loc main_arg11))) shapeCasts_S256_S1x256 := by
  show StableHlo.after hostOps0 (W0 m ρ c) (Proc.devRef .tc main_v41) = _
  after_results_simp
  rfl

/-- Layer 0's first PReLU slope, spread over a [1,256] row. -/
theorem a1 (c : Dev nD) : V1 m ρ c main_v36
    = broadcastInDim S1x256 ![] bcast_S_S1x256 (Cert.Gin.scalAt (F := F) ![0] Cert.ReferenceIdeal.Gen.slices_S4_S1_0 (m ((c : Thread nD τ).loc main_arg5))) := by
  show StableHlo.after hostOps0 (W0 m ρ c) (Proc.devRef .tc main_v36) = _
  after_results_simp
  rfl

/-- Layer 0's second PReLU slope, spread over a [1,256] row. -/
theorem a2 (c : Dev nD) : V1 m ρ c main_v42
    = broadcastInDim S1x256 ![] bcast_S_S1x256 (Cert.Gin.scalAt (F := F) ![0] Cert.ReferenceIdeal.Gen.slices_S4_S1_0 (m ((c : Thread nD τ).loc main_arg12))) := by
  show StableHlo.after hostOps0 (W0 m ρ c) (Proc.devRef .tc main_v42) = _
  after_results_simp
  rfl

end Cert.KernelIdeal.GinStretch0

end
-- ==== Proof.Stretch1.lean ====
/-
  Stretch 1 of the kernel program's host operations, read at the buffers region 1 stages.

  Between region 0 and region 1 the host forms, from the features region 0 left, every node's own features plus
  the sum of its in-neighbours' features — the edge list's two rows are those the first stretch cut out —, cuts layer
  1's parameters out of the stacked arrays and lays them as [1,256] rows.  The features region 0 left enter as the
  parameter `h`; everything else traces back, unchanged, to the launch contents of the arguments.
-/
import proofs.«129231_j12738873000058_1_alg».proof.Proof.Bounds
import proofs.«129231_j12738873000058_1_alg».proof.Proof.RefDefs
import proofs.«129231_j12738873000058_1_alg».proof.Proof.Stretch0

set_option maxRecDepth 16384

noncomputable section

namespace Cert.KernelIdeal.GinStretch1

open Cert.KernelIdeal Cert.KernelIdeal.Gen Cert.KernelIdeal.GinBounds
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- Region 1's input: the features `h` region 0 left, plus their in-neighbours' sum. -/
theorem z (c : Dev nD) (h : (⟨Cert.ReferenceIdeal.S50000x256, .f32⟩ : BufTy).Contents (Elt F))
    (hprev : W2 m ρ c (Proc.devRef .tc main_v43) = h) :
    V3 m ρ c main_v54 = Cert.Gin.aggZ (F := F) (m ((c : Thread nD τ).loc main_arg1)) h := by
  show StableHlo.after hostOps1 (W2 m ρ c) (Proc.devRef .tc main_v54) = _
  after_results_simp
  rw [hprev, (thru2 m ρ c main_v1 (by decide)).trans (GinStretch0.src m ρ c), (thru2 m ρ c main_v3 (by decide)).trans (GinStretch0.dst m ρ c)]
  rfl

/-- Layer 1's first weight matrix. -/
theorem w1 (c : Dev nD) : V3 m ρ c main_v56 = Cert.Gin.matAt (F := F) ![1, 0, 0] Cert.ReferenceIdeal.Gen.slices_S4x256x256_S1x256x256_1_0_0 (m ((c : Thread nD τ).loc main_arg3)) := by
  show StableHlo.after hostOps1 (W2 m ρ c) (Proc.devRef .tc main_v56) = _
  after_results_simp
  rw [(thru2 m ρ c main_arg3 (by decide)).trans (at1 m ρ c main_arg3 (by decide))]
  rfl

/-- Layer 1's second weight matrix. -/
theorem w2 (c : Dev nD) : V3 m ρ c main_v70 = Cert.Gin.matAt (F := F) ![1, 0, 0] Cert.ReferenceIdeal.Gen.slices_S4x256x256_S1x256x256_1_0_0 (m ((c : Thread nD τ).loc main_arg10)) := by
  show StableHlo.after hostOps1 (W2 m ρ c) (Proc.devRef .tc main_v70) = _
  after_results_simp
  rw [(thru2 m ρ c main_arg10 (by decide)).trans (at1 m ρ c main_arg10 (by decide))]
  rfl

/-- Layer 1's first bias, as a [1,256] row. -/
theorem b1 (c : Dev nD) : V3 m ρ c main_v75
    = shapeCast S1x256 (Cert.Gin.vecAt (F := F) ![1, 0] Cert.ReferenceIdeal.Gen.slices_S4x256_S1x256_1_0 (m ((c : Thread nD τ).loc main_arg4))) shapeCasts_S256_S1x256 := by
  show StableHlo.after hostOps1 (W2 m ρ c) (Proc.devRef .tc main_v75) = _
  after_results_simp
  rw [(thru2 m ρ c main_arg4 (by decide)).trans (at1 m ρ c main_arg4 (by decide))]
  rfl

/-- Layer 1's batch-norm scale, as a [1,256] row. -/
theorem g (c : Dev nD) : V3 m ρ c main_v77
    = shapeCast S1x256 (Cert.Gin.vecAt (F := F) ![1, 0] Cert.ReferenceIdeal.Gen.slices_S4x256_S1x256_1_0 (m ((c : Thread nD τ).loc main_arg6))) shapeCasts_S256_S1x256 := by
  show StableHlo.after hostOps1 (W2 m ρ c) (Proc.devRef .tc main_v77) = _
  after_results_simp
  rw [(thru2 m ρ c main_arg6 (by decide)).trans (at1 m ρ c main_arg6 (by decide))]
  rfl

/-- Layer 1's batch-norm shift, as a [1,256] row. -/
theorem be (c : Dev nD) : V3 m ρ c main_v78
    = shapeCast S1x256 (Cert.Gin.vecAt (F := F) ![1, 0] Cert.ReferenceIdeal.Gen.slices_S4x256_S1x256_1_0 (m ((c : Thread nD τ).loc main_arg7))) shapeCasts_S256_S1x256 := by
  show StableHlo.after hostOps1 (W2 m ρ c) (Proc.devRef .tc main_v78) = _
  after_results_simp
  rw [(thru2 m ρ c main_arg7 (by decide)).trans (at1 m ρ c main_arg7 (by decide))]
  rfl

/-- Layer 1's running mean, as a [1,256] row. -/
theorem mu (c : Dev nD) : V3 m ρ c main_v79
    = shapeCast S1x256 (Cert.Gin.vecAt (F := F) ![1, 0] Cert.ReferenceIdeal.Gen.slices_S4x256_S1x256_1_0 (m ((c : Thread nD τ).loc main_arg8))) shapeCasts_S256_S1x256 := by
  show StableHlo.after hostOps1 (W2 m ρ c) (Proc.devRef .tc main_v79) = _
  after_results_simp
  rw [(thru2 m ρ c main_arg8 (by decide)).trans (at1 m ρ c main_arg8 (by decide))]
  rfl

/-- Layer 1's running variance, as a [1,256] row. -/
theorem var (c : Dev nD) : V3 m ρ c main_v80
    = shapeCast S1x256 (Cert.Gin.vecAt (F := F) ![1, 0] Cert.ReferenceIdeal.Gen.slices_S4x256_S1x256_1_0 (m ((c : Thread nD τ).loc main_arg9))) shapeCasts_S256_S1x256 := by
  show StableHlo.after hostOps1 (W2 m ρ c) (Proc.devRef .tc main_v80) = _
  after_results_simp
  rw [(thru2 m ρ c main_arg9 (by decide)).trans (at1 m ρ c main_arg9 (by decide))]
  rfl

/-- Layer 1's second bias, as a [1,256] row. -/
theorem b2 (c : Dev nD) : V3 m ρ c main_v81
    = shapeCast S1x256 (Cert.Gin.vecAt (F := F) ![1, 0] Cert.ReferenceIdeal.Gen.slices_S4x256_S1x256_1_0 (m ((c : Thread nD τ).loc main_arg11))) shapeCasts_S256_S1x256 := by
  show StableHlo.after hostOps1 (W2 m ρ c) (Proc.devRef .tc main_v81) = _
  after_results_simp
  rw [(thru2 m ρ c main_arg11 (by decide)).trans (at1 m ρ c main_arg11 (by decide))]
  rfl

/-- Layer 1's first PReLU slope, spread over a [1,256] row. -/
theorem a1 (c : Dev nD) : V3 m ρ c main_v76
    = broadcastInDim S1x256 ![] bcast_S_S1x256 (Cert.Gin.scalAt (F := F) ![1] Cert.ReferenceIdeal.Gen.slices_S4_S1_1 (m ((c : Thread nD τ).loc main_arg5))) := by
  show StableHlo.after hostOps1 (W2 m ρ c) (Proc.devRef .tc main_v76) = _
  after_results_simp
  rw [(thru2 m ρ c main_arg5 (by decide)).trans (at1 m ρ c main_arg5 (by decide))]
  rfl

/-- Layer 1's second PReLU slope, spread over a [1,256] row. -/
theorem a2 (c : Dev nD) : V3 m ρ c main_v82
    = broadcastInDim S1x256 ![] bcast_S_S1x256 (Cert.Gin.scalAt (F := F) ![1] Cert.ReferenceIdeal.Gen.slices_S4_S1_1 (m ((c : Thread nD τ).loc main_arg12))) := by
  show StableHlo.after hostOps1 (W2 m ρ c) (Proc.devRef .tc main_v82) = _
  after_results_simp
  rw [(thru2 m ρ c main_arg12 (by decide)).trans (at1 m ρ c main_arg12 (by decide))]
  rfl

end Cert.KernelIdeal.GinStretch1

end
-- ==== Proof.Stretch2.lean ====
/-
  Stretch 2 of the kernel program's host operations, read at the buffers region 2 stages.

  Between region 1 and region 2 the host forms, from the features region 1 left, every node's own features plus
  the sum of its in-neighbours' features — the edge list's two rows are those the first stretch cut out —, cuts layer
  2's parameters out of the stacked arrays and lays them as [1,256] rows.  The features region 1 left enter as the
  parameter `h`; everything else traces back, unchanged, to the launch contents of the arguments.
-/
import proofs.«129231_j12738873000058_1_alg».proof.Proof.Bounds
import proofs.«129231_j12738873000058_1_alg».proof.Proof.RefDefs
import proofs.«129231_j12738873000058_1_alg».proof.Proof.Stretch0

set_option maxRecDepth 16384

noncomputable section

namespace Cert.KernelIdeal.GinStretch2

open Cert.KernelIdeal Cert.KernelIdeal.Gen Cert.KernelIdeal.GinBounds
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- Region 2's input: the features `h` region 1 left, plus their in-neighbours' sum. -/
theorem z (c : Dev nD) (h : (⟨Cert.ReferenceIdeal.S50000x256, .f32⟩ : BufTy).Contents (Elt F))
    (hprev : W4 m ρ c (Proc.devRef .tc main_v83) = h) :
    V5 m ρ c main_v94 = Cert.Gin.aggZ (F := F) (m ((c : Thread nD τ).loc main_arg1)) h := by
  show StableHlo.after hostOps2 (W4 m ρ c) (Proc.devRef .tc main_v94) = _
  after_results_simp
  rw [hprev, (thru4 m ρ c main_v1 (by decide) (by decide) (by decide)).trans (GinStretch0.src m ρ c), (thru4 m ρ c main_v3 (by decide) (by decide) (by decide)).trans (GinStretch0.dst m ρ c)]
  rfl

/-- Layer 2's first weight matrix. -/
theorem w1 (c : Dev nD) : V5 m ρ c main_v96 = Cert.Gin.matAt (F := F) ![2, 0, 0] Cert.ReferenceIdeal.Gen.slices_S4x256x256_S1x256x256_2_0_0 (m ((c : Thread nD τ).loc main_arg3)) := by
  show StableHlo.after hostOps2 (W4 m ρ c) (Proc.devRef .tc main_v96) = _
  after_results_simp
  rw [(thru4 m ρ c main_arg3 (by decide) (by decide) (by decide)).trans (at1 m ρ c main_arg3 (by decide))]
  rfl

/-- Layer 2's second weight matrix. -/
theorem w2 (c : Dev nD) : V5 m ρ c main_v110 = Cert.Gin.matAt (F := F) ![2, 0, 0] Cert.ReferenceIdeal.Gen.slices_S4x256x256_S1x256x256_2_0_0 (m ((c : Thread nD τ).loc main_arg10)) := by
  show StableHlo.after hostOps2 (W4 m ρ c) (Proc.devRef .tc main_v110) = _
  after_results_simp
  rw [(thru4 m ρ c main_arg10 (by decide) (by decide) (by decide)).trans (at1 m ρ c main_arg10 (by decide))]
  rfl

/-- Layer 2's first bias, as a [1,256] row. -/
theorem b1 (c : Dev nD) : V5 m ρ c main_v115
    = shapeCast S1x256 (Cert.Gin.vecAt (F := F) ![2, 0] Cert.ReferenceIdeal.Gen.slices_S4x256_S1x256_2_0 (m ((c : Thread nD τ).loc main_arg4))) shapeCasts_S256_S1x256 := by
  show StableHlo.after hostOps2 (W4 m ρ c) (Proc.devRef .tc main_v115) = _
  after_results_simp
  rw [(thru4 m ρ c main_arg4 (by decide) (by decide) (by decide)).trans (at1 m ρ c main_arg4 (by decide))]
  rfl

/-- Layer 2's batch-norm scale, as a [1,256] row. -/
theorem g (c : Dev nD) : V5 m ρ c main_v117
    = shapeCast S1x256 (Cert.Gin.vecAt (F := F) ![2, 0] Cert.ReferenceIdeal.Gen.slices_S4x256_S1x256_2_0 (m ((c : Thread nD τ).loc main_arg6))) shapeCasts_S256_S1x256 := by
  show StableHlo.after hostOps2 (W4 m ρ c) (Proc.devRef .tc main_v117) = _
  after_results_simp
  rw [(thru4 m ρ c main_arg6 (by decide) (by decide) (by decide)).trans (at1 m ρ c main_arg6 (by decide))]
  rfl

/-- Layer 2's batch-norm shift, as a [1,256] row. -/
theorem be (c : Dev nD) : V5 m ρ c main_v118
    = shapeCast S1x256 (Cert.Gin.vecAt (F := F) ![2, 0] Cert.ReferenceIdeal.Gen.slices_S4x256_S1x256_2_0 (m ((c : Thread nD τ).loc main_arg7))) shapeCasts_S256_S1x256 := by
  show StableHlo.after hostOps2 (W4 m ρ c) (Proc.devRef .tc main_v118) = _
  after_results_simp
  rw [(thru4 m ρ c main_arg7 (by decide) (by decide) (by decide)).trans (at1 m ρ c main_arg7 (by decide))]
  rfl

/-- Layer 2's running mean, as a [1,256] row. -/
theorem mu (c : Dev nD) : V5 m ρ c main_v119
    = shapeCast S1x256 (Cert.Gin.vecAt (F := F) ![2, 0] Cert.ReferenceIdeal.Gen.slices_S4x256_S1x256_2_0 (m ((c : Thread nD τ).loc main_arg8))) shapeCasts_S256_S1x256 := by
  show StableHlo.after hostOps2 (W4 m ρ c) (Proc.devRef .tc main_v119) = _
  after_results_simp
  rw [(thru4 m ρ c main_arg8 (by decide) (by decide) (by decide)).trans (at1 m ρ c main_arg8 (by decide))]
  rfl

/-- Layer 2's running variance, as a [1,256] row. -/
theorem var (c : Dev nD) : V5 m ρ c main_v120
    = shapeCast S1x256 (Cert.Gin.vecAt (F := F) ![2, 0] Cert.ReferenceIdeal.Gen.slices_S4x256_S1x256_2_0 (m ((c : Thread nD τ).loc main_arg9))) shapeCasts_S256_S1x256 := by
  show StableHlo.after hostOps2 (W4 m ρ c) (Proc.devRef .tc main_v120) = _
  after_results_simp
  rw [(thru4 m ρ c main_arg9 (by decide) (by decide) (by decide)).trans (at1 m ρ c main_arg9 (by decide))]
  rfl

/-- Layer 2's second bias, as a [1,256] row. -/
theorem b2 (c : Dev nD) : V5 m ρ c main_v121
    = shapeCast S1x256 (Cert.Gin.vecAt (F := F) ![2, 0] Cert.ReferenceIdeal.Gen.slices_S4x256_S1x256_2_0 (m ((c : Thread nD τ).loc main_arg11))) shapeCasts_S256_S1x256 := by
  show StableHlo.after hostOps2 (W4 m ρ c) (Proc.devRef .tc main_v121) = _
  after_results_simp
  rw [(thru4 m ρ c main_arg11 (by decide) (by decide) (by decide)).trans (at1 m ρ c main_arg11 (by decide))]
  rfl

/-- Layer 2's first PReLU slope, spread over a [1,256] row. -/
theorem a1 (c : Dev nD) : V5 m ρ c main_v116
    = broadcastInDim S1x256 ![] bcast_S_S1x256 (Cert.Gin.scalAt (F := F) ![2] Cert.ReferenceIdeal.Gen.slices_S4_S1_2 (m ((c : Thread nD τ).loc main_arg5))) := by
  show StableHlo.after hostOps2 (W4 m ρ c) (Proc.devRef .tc main_v116) = _
  after_results_simp
  rw [(thru4 m ρ c main_arg5 (by decide) (by decide) (by decide)).trans (at1 m ρ c main_arg5 (by decide))]
  rfl

/-- Layer 2's second PReLU slope, spread over a [1,256] row. -/
theorem a2 (c : Dev nD) : V5 m ρ c main_v122
    = broadcastInDim S1x256 ![] bcast_S_S1x256 (Cert.Gin.scalAt (F := F) ![2] Cert.ReferenceIdeal.Gen.slices_S4_S1_2 (m ((c : Thread nD τ).loc main_arg12))) := by
  show StableHlo.after hostOps2 (W4 m ρ c) (Proc.devRef .tc main_v122) = _
  after_results_simp
  rw [(thru4 m ρ c main_arg12 (by decide) (by decide) (by decide)).trans (at1 m ρ c main_arg12 (by decide))]
  rfl

end Cert.KernelIdeal.GinStretch2

end
-- ==== Proof.Stretch3.lean ====
/-
  Stretch 3 of the kernel program's host operations, read at the buffers region 3 stages.

  Between region 2 and region 3 the host forms, from the features region 2 left, every node's own features plus
  the sum of its in-neighbours' features — the edge list's two rows are those the first stretch cut out —, cuts layer
  3's parameters out of the stacked arrays and lays them as [1,256] rows.  The features region 2 left enter as the
  parameter `h`; everything else traces back, unchanged, to the launch contents of the arguments.
-/
import proofs.«129231_j12738873000058_1_alg».proof.Proof.Bounds
import proofs.«129231_j12738873000058_1_alg».proof.Proof.RefDefs
import proofs.«129231_j12738873000058_1_alg».proof.Proof.Stretch0

set_option maxRecDepth 16384

noncomputable section

namespace Cert.KernelIdeal.GinStretch3

open Cert.KernelIdeal Cert.KernelIdeal.Gen Cert.KernelIdeal.GinBounds
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- Region 3's input: the features `h` region 2 left, plus their in-neighbours' sum. -/
theorem z (c : Dev nD) (h : (⟨Cert.ReferenceIdeal.S50000x256, .f32⟩ : BufTy).Contents (Elt F))
    (hprev : W6 m ρ c (Proc.devRef .tc main_v123) = h) :
    V7 m ρ c main_v134 = Cert.Gin.aggZ (F := F) (m ((c : Thread nD τ).loc main_arg1)) h := by
  show StableHlo.after hostOps3 (W6 m ρ c) (Proc.devRef .tc main_v134) = _
  after_results_simp
  rw [hprev, (thru6 m ρ c main_v1 (by decide) (by decide) (by decide) (by decide) (by decide)).trans (GinStretch0.src m ρ c), (thru6 m ρ c main_v3 (by decide) (by decide) (by decide) (by decide) (by decide)).trans (GinStretch0.dst m ρ c)]
  rfl

/-- Layer 3's first weight matrix. -/
theorem w1 (c : Dev nD) : V7 m ρ c main_v136 = Cert.Gin.matAt (F := F) ![3, 0, 0] Cert.ReferenceIdeal.Gen.slices_S4x256x256_S1x256x256_3_0_0 (m ((c : Thread nD τ).loc main_arg3)) := by
  show StableHlo.after hostOps3 (W6 m ρ c) (Proc.devRef .tc main_v136) = _
  after_results_simp
  rw [(thru6 m ρ c main_arg3 (by decide) (by decide) (by decide) (by decide) (by decide)).trans (at1 m ρ c main_arg3 (by decide))]
  rfl

/-- Layer 3's second weight matrix. -/
theorem w2 (c : Dev nD) : V7 m ρ c main_v150 = Cert.Gin.matAt (F := F) ![3, 0, 0] Cert.ReferenceIdeal.Gen.slices_S4x256x256_S1x256x256_3_0_0 (m ((c : Thread nD τ).loc main_arg10)) := by
  show StableHlo.after hostOps3 (W6 m ρ c) (Proc.devRef .tc main_v150) = _
  after_results_simp
  rw [(thru6 m ρ c main_arg10 (by decide) (by decide) (by decide) (by decide) (by decide)).trans (at1 m ρ c main_arg10 (by decide))]
  rfl

/-- Layer 3's first bias, as a [1,256] row. -/
theorem b1 (c : Dev nD) : V7 m ρ c main_v155
    = shapeCast S1x256 (Cert.Gin.vecAt (F := F) ![3, 0] Cert.ReferenceIdeal.Gen.slices_S4x256_S1x256_3_0 (m ((c : Thread nD τ).loc main_arg4))) shapeCasts_S256_S1x256 := by
  show StableHlo.after hostOps3 (W6 m ρ c) (Proc.devRef .tc main_v155) = _
  after_results_simp
  rw [(thru6 m ρ c main_arg4 (by decide) (by decide) (by decide) (by decide) (by decide)).trans (at1 m ρ c main_arg4 (by decide))]
  rfl

/-- Layer 3's batch-norm scale, as a [1,256] row. -/
theorem g (c : Dev nD) : V7 m ρ c main_v157
    = shapeCast S1x256 (Cert.Gin.vecAt (F := F) ![3, 0] Cert.ReferenceIdeal.Gen.slices_S4x256_S1x256_3_0 (m ((c : Thread nD τ).loc main_arg6))) shapeCasts_S256_S1x256 := by
  show StableHlo.after hostOps3 (W6 m ρ c) (Proc.devRef .tc main_v157) = _
  after_results_simp
  rw [(thru6 m ρ c main_arg6 (by decide) (by decide) (by decide) (by decide) (by decide)).trans (at1 m ρ c main_arg6 (by decide))]
  rfl

/-- Layer 3's batch-norm shift, as a [1,256] row. -/
theorem be (c : Dev nD) : V7 m ρ c main_v158
    = shapeCast S1x256 (Cert.Gin.vecAt (F := F) ![3, 0] Cert.ReferenceIdeal.Gen.slices_S4x256_S1x256_3_0 (m ((c : Thread nD τ).loc main_arg7))) shapeCasts_S256_S1x256 := by
  show StableHlo.after hostOps3 (W6 m ρ c) (Proc.devRef .tc main_v158) = _
  after_results_simp
  rw [(thru6 m ρ c main_arg7 (by decide) (by decide) (by decide) (by decide) (by decide)).trans (at1 m ρ c main_arg7 (by decide))]
  rfl

/-- Layer 3's running mean, as a [1,256] row. -/
theorem mu (c : Dev nD) : V7 m ρ c main_v159
    = shapeCast S1x256 (Cert.Gin.vecAt (F := F) ![3, 0] Cert.ReferenceIdeal.Gen.slices_S4x256_S1x256_3_0 (m ((c : Thread nD τ).loc main_arg8))) shapeCasts_S256_S1x256 := by
  show StableHlo.after hostOps3 (W6 m ρ c) (Proc.devRef .tc main_v159) = _
  after_results_simp
  rw [(thru6 m ρ c main_arg8 (by decide) (by decide) (by decide) (by decide) (by decide)).trans (at1 m ρ c main_arg8 (by decide))]
  rfl

/-- Layer 3's running variance, as a [1,256] row. -/
theorem var (c : Dev nD) : V7 m ρ c main_v160
    = shapeCast S1x256 (Cert.Gin.vecAt (F := F) ![3, 0] Cert.ReferenceIdeal.Gen.slices_S4x256_S1x256_3_0 (m ((c : Thread nD τ).loc main_arg9))) shapeCasts_S256_S1x256 := by
  show StableHlo.after hostOps3 (W6 m ρ c) (Proc.devRef .tc main_v160) = _
  after_results_simp
  rw [(thru6 m ρ c main_arg9 (by decide) (by decide) (by decide) (by decide) (by decide)).trans (at1 m ρ c main_arg9 (by decide))]
  rfl

/-- Layer 3's second bias, as a [1,256] row. -/
theorem b2 (c : Dev nD) : V7 m ρ c main_v161
    = shapeCast S1x256 (Cert.Gin.vecAt (F := F) ![3, 0] Cert.ReferenceIdeal.Gen.slices_S4x256_S1x256_3_0 (m ((c : Thread nD τ).loc main_arg11))) shapeCasts_S256_S1x256 := by
  show StableHlo.after hostOps3 (W6 m ρ c) (Proc.devRef .tc main_v161) = _
  after_results_simp
  rw [(thru6 m ρ c main_arg11 (by decide) (by decide) (by decide) (by decide) (by decide)).trans (at1 m ρ c main_arg11 (by decide))]
  rfl

/-- Layer 3's first PReLU slope, spread over a [1,256] row. -/
theorem a1 (c : Dev nD) : V7 m ρ c main_v156
    = broadcastInDim S1x256 ![] bcast_S_S1x256 (Cert.Gin.scalAt (F := F) ![3] Cert.ReferenceIdeal.Gen.slices_S4_S1_3 (m ((c : Thread nD τ).loc main_arg5))) := by
  show StableHlo.after hostOps3 (W6 m ρ c) (Proc.devRef .tc main_v156) = _
  after_results_simp
  rw [(thru6 m ρ c main_arg5 (by decide) (by decide) (by decide) (by decide) (by decide)).trans (at1 m ρ c main_arg5 (by decide))]
  rfl

/-- Layer 3's second PReLU slope, spread over a [1,256] row. -/
theorem a2 (c : Dev nD) : V7 m ρ c main_v162
    = broadcastInDim S1x256 ![] bcast_S_S1x256 (Cert.Gin.scalAt (F := F) ![3] Cert.ReferenceIdeal.Gen.slices_S4_S1_3 (m ((c : Thread nD τ).loc main_arg12))) := by
  show StableHlo.after hostOps3 (W6 m ρ c) (Proc.devRef .tc main_v162) = _
  after_results_simp
  rw [(thru6 m ρ c main_arg12 (by decide) (by decide) (by decide) (by decide) (by decide)).trans (at1 m ρ c main_arg12 (by decide))]
  rfl

end Cert.KernelIdeal.GinStretch3

end
-- ==== Proof.Stretch4.lean ====
/-
  The last stretch of the kernel program's host operations, read at the buffers the read-out region stages.

  After the fourth layer the host sums, for every graph, the features of its nodes (a scatter-add: the reference's
  own operation, never opened here) and lays the read-out's batch-norm vectors and bias as rows; the read-out's
  weight matrix is an argument array, staged as it is.  The features region 3 left enter as the parameter `h`.
-/
import proofs.«129231_j12738873000058_1_alg».proof.Proof.Bounds
import proofs.«129231_j12738873000058_1_alg».proof.Proof.RefDefs

set_option maxRecDepth 16384

noncomputable section

namespace Cert.KernelIdeal.GinStretch4

open Cert.KernelIdeal Cert.KernelIdeal.Gen Cert.KernelIdeal.GinBounds
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The read-out's input: every graph's sum of the node features `h` region 3 left. -/
theorem p (c : Dev nD) (h : (⟨Cert.ReferenceIdeal.S50000x256, .f32⟩ : BufTy).Contents (Elt F))
    (hprev : W8 m ρ c (Proc.devRef .tc main_v163) = h) :
    V9 m ρ c main_v166 = Cert.Gin.poolSum (F := F) (m ((c : Thread nD τ).loc main_arg2)) h := by
  show StableHlo.after hostOps4 (W8 m ρ c) (Proc.devRef .tc main_v166) = _
  after_results_simp
  rw [hprev, (thru8 m ρ c main_arg2 (by decide) (by decide) (by decide) (by decide) (by decide) (by decide) (by decide)).trans (at1 m ρ c main_arg2 (by decide))]
  rfl

/-- The read-out's batch-norm scale, as a [1,256] row. -/
theorem g (c : Dev nD) : V9 m ρ c main_v167 = shapeCast S1x256 (m ((c : Thread nD τ).loc main_arg13)) shapeCasts_S256_S1x256 := by
  show StableHlo.after hostOps4 (W8 m ρ c) (Proc.devRef .tc main_v167) = _
  after_results_simp
  rw [(thru8 m ρ c main_arg13 (by decide) (by decide) (by decide) (by decide) (by decide) (by decide) (by decide)).trans (at1 m ρ c main_arg13 (by decide))]
  rfl

/-- The read-out's batch-norm shift, as a [1,256] row. -/
theorem be (c : Dev nD) : V9 m ρ c main_v168 = shapeCast S1x256 (m ((c : Thread nD τ).loc main_arg14)) shapeCasts_S256_S1x256 := by
  show StableHlo.after hostOps4 (W8 m ρ c) (Proc.devRef .tc main_v168) = _
  after_results_simp
  rw [(thru8 m ρ c main_arg14 (by decide) (by decide) (by decide) (by decide) (by decide) (by decide) (by decide)).trans (at1 m ρ c main_arg14 (by decide))]
  rfl

/-- The read-out's running mean, as a [1,256] row. -/
theorem mu (c : Dev nD) : V9 m ρ c main_v169 = shapeCast S1x256 (m ((c : Thread nD τ).loc main_arg15)) shapeCasts_S256_S1x256 := by
  show StableHlo.after hostOps4 (W8 m ρ c) (Proc.devRef .tc main_v169) = _
  after_results_simp
  rw [(thru8 m ρ c main_arg15 (by decide) (by decide) (by decide) (by decide) (by decide) (by decide) (by decide)).trans (at1 m ρ c main_arg15 (by decide))]
  rfl

/-- The read-out's running variance, as a [1,256] row. -/
theorem var (c : Dev nD) : V9 m ρ c main_v170 = shapeCast S1x256 (m ((c : Thread nD τ).loc main_arg16)) shapeCasts_S256_S1x256 := by
  show StableHlo.after hostOps4 (W8 m ρ c) (Proc.devRef .tc main_v170) = _
  after_results_simp
  rw [(thru8 m ρ c main_arg16 (by decide) (by decide) (by decide) (by decide) (by decide) (by decide) (by decide)).trans (at1 m ρ c main_arg16 (by decide))]
  rfl

/-- The read-out's bias, as a [1,128] row. -/
theorem b (c : Dev nD) : V9 m ρ c main_v171 = shapeCast S1x128 (m ((c : Thread nD τ).loc main_arg18)) shapeCasts_S128_S1x128 := by
  show StableHlo.after hostOps4 (W8 m ρ c) (Proc.devRef .tc main_v171) = _
  after_results_simp
  rw [(thru8 m ρ c main_arg18 (by decide) (by decide) (by decide) (by decide) (by decide) (by decide) (by decide)).trans (at1 m ρ c main_arg18 (by decide))]
  rfl

/-- The read-out's weight matrix is the argument array itself. -/
theorem w (c : Dev nD) : V9 m ρ c main_arg17 = (m ((c : Thread nD τ).loc main_arg17)) :=
  (keep_4 m ρ c main_arg17 (by decide)).trans ((thru8 m ρ c main_arg17 (by decide) (by decide) (by decide) (by decide) (by decide) (by decide) (by decide)).trans (at1 m ρ c main_arg17 (by decide)))

end Cert.KernelIdeal.GinStretch4

end
-- ==== Proof.Value.lean ====
/-
  The kernel program's result array, on the extended reals, is the reference's function of the argument arrays.

  The program's run ends with the result buffer at the last boundary's contents (KernelRun.lean).  Those contents are
  read backwards through the ten segments: the read-out region leaves the row-wise read-out of what the last stretch
  staged; the last stretch staged every graph's sum of the features region 3 left; region 3 left the row-wise MLP of
  what stretch 3 staged; … down to the node features as launched.  At each region the blocks tile the rows and the
  body is the reference's row function; at each stretch the gather and the scatter-add are the reference's own
  operations on equal arguments.  So the features after layer K are the same array in both programs, by induction on
  K, and the result is the reference's composition `refTotal` of the launch contents.
-/
import proofs.«129231_j12738873000058_1_alg».proof.Proof.Region0
import proofs.«129231_j12738873000058_1_alg».proof.Proof.Region1
import proofs.«129231_j12738873000058_1_alg».proof.Proof.Region2
import proofs.«129231_j12738873000058_1_alg».proof.Proof.Region3
import proofs.«129231_j12738873000058_1_alg».proof.Proof.Region4
import proofs.«129231_j12738873000058_1_alg».proof.Proof.Stretch0
import proofs.«129231_j12738873000058_1_alg».proof.Proof.Stretch1
import proofs.«129231_j12738873000058_1_alg».proof.Proof.Stretch2
import proofs.«129231_j12738873000058_1_alg».proof.Proof.Stretch3
import proofs.«129231_j12738873000058_1_alg».proof.Proof.Stretch4
import proofs.«129231_j12738873000058_1_alg».proof.Proof.RefTotal

set_option maxRecDepth 16384

noncomputable section

namespace Cert.KernelIdeal.GinValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The node features as launched. -/
abbrev feat0 (c : Dev nD) : (⟨Cert.ReferenceIdeal.S50000x256, .f32⟩ : BufTy).Contents (Elt Ideal) := (m ((c : Thread nD τ).loc main_arg0))
/-- The reference's node features after layer 0. -/
abbrev feat1 (c : Dev nD) : (⟨Cert.ReferenceIdeal.S50000x256, .f32⟩ : BufTy).Contents (Elt Ideal) :=
  Cert.Gin.refLayer (F := Ideal) ![0, 0, 0] Cert.ReferenceIdeal.Gen.slices_S4x256x256_S1x256x256_0_0_0 ![0, 0] Cert.ReferenceIdeal.Gen.slices_S4x256_S1x256_0_0 ![0] Cert.ReferenceIdeal.Gen.slices_S4_S1_0
    (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (feat0 m c)
/-- … after layer 1. -/
abbrev feat2 (c : Dev nD) : (⟨Cert.ReferenceIdeal.S50000x256, .f32⟩ : BufTy).Contents (Elt Ideal) :=
  Cert.Gin.refLayer (F := Ideal) ![1, 0, 0] Cert.ReferenceIdeal.Gen.slices_S4x256x256_S1x256x256_1_0_0 ![1, 0] Cert.ReferenceIdeal.Gen.slices_S4x256_S1x256_1_0 ![1] Cert.ReferenceIdeal.Gen.slices_S4_S1_1
    (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (feat1 m c)
/-- … after layer 2. -/
abbrev feat3 (c : Dev nD) : (⟨Cert.ReferenceIdeal.S50000x256, .f32⟩ : BufTy).Contents (Elt Ideal) :=
  Cert.Gin.refLayer (F := Ideal) ![2, 0, 0] Cert.ReferenceIdeal.Gen.slices_S4x256x256_S1x256x256_2_0_0 ![2, 0] Cert.ReferenceIdeal.Gen.slices_S4x256_S1x256_2_0 ![2] Cert.ReferenceIdeal.Gen.slices_S4_S1_2
    (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (feat2 m c)
/-- … after layer 3. -/
abbrev feat4 (c : Dev nD) : (⟨Cert.ReferenceIdeal.S50000x256, .f32⟩ : BufTy).Contents (Elt Ideal) :=
  Cert.Gin.refLayer (F := Ideal) ![3, 0, 0] Cert.ReferenceIdeal.Gen.slices_S4x256x256_S1x256x256_3_0_0 ![3, 0] Cert.ReferenceIdeal.Gen.slices_S4x256_S1x256_3_0 ![3] Cert.ReferenceIdeal.Gen.slices_S4_S1_3
    (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (feat3 m c)

/-- After region 0 its output array holds the reference's features after layer 0: the region leaves the row-wise MLP of
    what stretch 0 staged (Region0.lean), stretch 0 staged the node features plus their in-neighbours' sum and layer
    0's parameters (Stretch0.lean), and that is the reference's layer 0. -/
theorem out0 (c : Dev nD) : W2 m ρ c (Proc.devRef .tc main_v43) = feat1 m c :=
  ((W2_arr m ρ c 11).trans (GinRegion0.out_eq (V1 m ρ) c)).trans
    (GinRegion0.layer_eq (V1 m ρ) c _ _ _ _ _ _ _ _ _ _ _ (GinStretch0.z m ρ c) (GinStretch0.w1 m ρ c)
      (GinStretch0.b1 m ρ c) (GinStretch0.a1 m ρ c) (GinStretch0.g m ρ c) (GinStretch0.be m ρ c) (GinStretch0.mu m ρ c)
      (GinStretch0.var m ρ c) (GinStretch0.w2 m ρ c) (GinStretch0.b2 m ρ c) (GinStretch0.a2 m ρ c))

/-- After region 1 its output array holds the reference's features after layer 1: the region leaves the row-wise MLP of
    what stretch 1 staged (Region1.lean), stretch 1 staged the features region 0 left plus their in-neighbours' sum and layer
    1's parameters (Stretch1.lean), and that is the reference's layer 1. -/
theorem out1 (c : Dev nD) : W4 m ρ c (Proc.devRef .tc main_v83) = feat2 m c :=
  ((W4_arr m ρ c 11).trans (GinRegion1.out_eq (V3 m ρ) c)).trans
    (GinRegion1.layer_eq (V3 m ρ) c _ _ _ _ _ _ _ _ _ _ _ (GinStretch1.z m ρ c (feat1 m c) (out0 m ρ c)) (GinStretch1.w1 m ρ c)
      (GinStretch1.b1 m ρ c) (GinStretch1.a1 m ρ c) (GinStretch1.g m ρ c) (GinStretch1.be m ρ c) (GinStretch1.mu m ρ c)
      (GinStretch1.var m ρ c) (GinStretch1.w2 m ρ c) (GinStretch1.b2 m ρ c) (GinStretch1.a2 m ρ c))

/-- After region 2 its output array holds the reference's features after layer 2: the region leaves the row-wise MLP of
    what stretch 2 staged (Region2.lean), stretch 2 staged the features region 1 left plus their in-neighbours' sum and layer
    2's parameters (Stretch2.lean), and that is the reference's layer 2. -/
theorem out2 (c : Dev nD) : W6 m ρ c (Proc.devRef .tc main_v123) = feat3 m c :=
  ((W6_arr m ρ c 11).trans (GinRegion2.out_eq (V5 m ρ) c)).trans
    (GinRegion2.layer_eq (V5 m ρ) c _ _ _ _ _ _ _ _ _ _ _ (GinStretch2.z m ρ c (feat2 m c) (out1 m ρ c)) (GinStretch2.w1 m ρ c)
      (GinStretch2.b1 m ρ c) (GinStretch2.a1 m ρ c) (GinStretch2.g m ρ c) (GinStretch2.be m ρ c) (GinStretch2.mu m ρ c)
      (GinStretch2.var m ρ c) (GinStretch2.w2 m ρ c) (GinStretch2.b2 m ρ c) (GinStretch2.a2 m ρ c))

/-- After region 3 its output array holds the reference's features after layer 3: the region leaves the row-wise MLP of
    what stretch 3 staged (Region3.lean), stretch 3 staged the features region 2 left plus their in-neighbours' sum and layer
    3's parameters (Stretch3.lean), and that is the reference's layer 3. -/
theorem out3 (c : Dev nD) : W8 m ρ c (Proc.devRef .tc main_v163) = feat4 m c :=
  ((W8_arr m ρ c 11).trans (GinRegion3.out_eq (V7 m ρ) c)).trans
    (GinRegion3.layer_eq (V7 m ρ) c _ _ _ _ _ _ _ _ _ _ _ (GinStretch3.z m ρ c (feat3 m c) (out2 m ρ c)) (GinStretch3.w1 m ρ c)
      (GinStretch3.b1 m ρ c) (GinStretch3.a1 m ρ c) (GinStretch3.g m ρ c) (GinStretch3.be m ρ c) (GinStretch3.mu m ρ c)
      (GinStretch3.var m ρ c) (GinStretch3.w2 m ρ c) (GinStretch3.b2 m ρ c) (GinStretch3.a2 m ρ c))

/-- THE RESULT: after the read-out region the result buffer holds the reference's whole function of the launch contents
    of the argument arrays. -/
theorem result_eq (c : Dev nD) : W10 m ρ c (Proc.devRef .tc main_v172)
    = Cert.Gin.refTotal (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  ((W10_arr m ρ c 7).trans (GinRegion4.out_eq (V9 m ρ) c)).trans
    (GinRegion4.head_eq (V9 m ρ) c _ _ _ _ _ _ _ (GinStretch4.p m ρ c (feat4 m c) (out3 m ρ c)) (GinStretch4.g m ρ c)
      (GinStretch4.be m ρ c) (GinStretch4.mu m ρ c) (GinStretch4.var m ρ c) (GinStretch4.w m ρ c) (GinStretch4.b m ρ c))

end Cert.KernelIdeal.GinValue

end
-- ==== Proof.lean ====
/-
  A four-layer GIN encoder with sum pooling and a linear read-out: the Pallas program against its jnp reference, on the
  extended reals.

  Both programs compute, for node features x, an edge list and a graph assignment,
      head (Σ_{n in graph} h₄[n]),   hᵢ₊₁ = mlpᵢ (hᵢ + Σ_{e : src e → ·} hᵢ[src e]),   h₀ = x,
  where mlpᵢ is linear → PReLU → batch normalisation (running statistics) → linear → PReLU on every node's row and
  head is batch normalisation → linear on every graph's row.  The reference does all of it with host operations.  The
  Pallas program keeps the two sums (a gather and a scatter-add) on the host, spelt exactly as the reference spells
  them, and runs each mlpᵢ as a pipelined region over 25 blocks of 2000 rows, and head as a one-block region; inside
  a region the matrix products take bf16 operands, which on the extended reals is no change at all.
  So no algebraic law is needed and the precondition is never opened: row by row the two programs perform the same
  operations in the same order (Spec.lean); the region's blocks tile the rows (Region0–4.lean); the layout operations
  that carry the parameters to the region are read at an index (KernelLayout.lean, Stretch0–4.lean); the gather and
  the scatter-add are carried through as opaque functions of equal arguments (RefDefs.lean, RefTotal.lean, Value.lean);
  the reference's own run is read layer by layer (RefCut0–4.lean, RefRunSeq.lean).
  The ideal pass rewrote nothing, so the kernel's idealization is its own text read on the extended reals.
-/
import proofs.«129231_j12738873000058_1_alg».proof.Defs
import proofs.«129231_j12738873000058_1_alg».proof.Proof.Gen.Kernel
import proofs.«129231_j12738873000058_1_alg».proof.Proof.Gen.Kernel.Skeleton
import proofs.«129231_j12738873000058_1_alg».proof.Proof.Gen.Kernel.Launch
import proofs.«129231_j12738873000058_1_alg».proof.Proof.Gen.Kernel.Points
import proofs.«129231_j12738873000058_1_alg».proof.Proof.Gen.Kernel.Frame
import proofs.«129231_j12738873000058_1_alg».proof.Proof.Gen.KernelIdeal
import proofs.«129231_j12738873000058_1_alg».proof.Proof.Gen.KernelIdeal.Skeleton
import proofs.«129231_j12738873000058_1_alg».proof.Proof.Gen.KernelIdeal.Launch
import proofs.«129231_j12738873000058_1_alg».proof.Proof.Gen.KernelIdeal.Points
import proofs.«129231_j12738873000058_1_alg».proof.Proof.Gen.KernelIdeal.Frame
import proofs.«129231_j12738873000058_1_alg».proof.Proof.Gen.ReferenceIdeal
import proofs.«129231_j12738873000058_1_alg».proof.Proof.Gen.Pre_finite_inputs
import proofs.«129231_j12738873000058_1_alg».proof.Proof.KernelRun
import proofs.«129231_j12738873000058_1_alg».proof.Proof.RefRunSeq
import proofs.«129231_j12738873000058_1_alg».proof.Proof.Value
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the program read on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- On the extended reals the kernel program's result array and the reference's are the same function
    `Cert.Gin.refTotal` of argument arrays that agree. -/
theorem algebraic : Cert.algebraic_KernelIdeal_ReferenceIdeal := by
  intro m ρ m' ρ' _ hagree
  refine ⟨fun c => Cert.Gin.refTotal (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.GinValue.result_eq m ρ c), (h c).2⟩)
      (Cert.KernelIdeal.GinRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
